-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  IdealRules.truncf_extf.Statement Cert.KernelIdeal.S1024x512 .f32 .bf16

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v29) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x512 : Shape := ⟨2, ![8192, 512]⟩
abbrev S8192 : Shape := ⟨1, ![8192]⟩
abbrev S_ : Shape := ⟨0, ![]⟩

class Facts : Prop where
  bcast_S_S8192x512 : S_.BroadcastsInDim S8192x512 (![] : Fin 0 → Fin S8192x512.rank)
  reducesTo_S8192x512_S_d0_1 : S8192x512.ReducesTo [0, 1] S_
  h_S_ : 0 < S_.numel

variable [Facts]

def fn {F : FTy → Type} [FloatOps F] (main_arg0 : FVec F S8192x512 .f32) (main_arg1 : FVec F S8192x512 .f32) (main_arg2 : IVec S8192 32) : IVec S_ 1 :=
  let main_v0 : FVec F S8192x512 .f32 := Host.absf main_arg0
  let main_cst : FVec F S_ .f32 := constant S_ .f32 0x7F800000#32
  let main_v1 : FVec F S8192x512 .f32 := broadcastInDim S8192x512 ![] bcast_S_S8192x512 main_cst
  let main_v2 : IVec S8192x512 1 := cmpf .olt main_v0 main_v1
  let main_c : IVec S_ 1 := constantI S_ 1 1#1
  let main_v3 : IVec S_ 1 := (fun x v => Host.reduce IntOp.andi x v reducesTo_S8192x512_S_d0_1 h_S_) main_v2 main_c
  let main_v4 : FVec F S8192x512 .f32 := Host.absf main_arg1
  let main_cst_0 : FVec F S_ .f32 := constant S_ .f32 0x7F800000#32
  let main_v5 : FVec F S8192x512 .f32 := broadcastInDim S8192x512 ![] bcast_S_S8192x512 main_cst_0
  let main_v6 : IVec S8192x512 1 := cmpf .olt main_v4 main_v5
  let main_c_1 : IVec S_ 1 := constantI S_ 1 1#1
  let main_v7 : IVec S_ 1 := (fun x v => Host.reduce IntOp.andi x v reducesTo_S8192x512_S_d0_1 h_S_) main_v6 main_c_1
  let main_v8 : IVec S_ 1 := andi main_v3 main_v7
  main_v8
-- ==== Kernel.lean ====
abbrev S8192x512 : Shape := ⟨2, ![8192, 512]⟩
abbrev S8192 : Shape := ⟨1, ![8192]⟩
abbrev S8192x1 : Shape := ⟨2, ![8192, 1]⟩
abbrev S1024x512 : Shape := ⟨2, ![1024, 512]⟩
abbrev S1024x1 : Shape := ⟨2, ![1024, 1]⟩
abbrev S1024 : Shape := ⟨1, ![1024]⟩
abbrev S1x8192 : Shape := ⟨2, ![1, 8192]⟩
abbrev S1x1024 : Shape := ⟨2, ![1, 1024]⟩
abbrev S1024x1024 : Shape := ⟨2, ![1024, 1024]⟩
abbrev S_ : Shape := ⟨0, ![]⟩

abbrev nBuf : Space → Nat
  | .hbm => 23
  | .vmem => 26
  | .smem => 0
  | _ => 0

abbrev bufTy : (tb : Table) → Fin (tcTables nBuf tb) → BufTy
  | .hbm, ⟨0, _⟩ => ⟨S8192x512, .f32⟩
  | .hbm, ⟨1, _⟩ => ⟨S8192x512, .f32⟩
  | .hbm, ⟨2, _⟩ => ⟨S8192, .i32⟩
  | .hbm, ⟨3, _⟩ => ⟨S8192x512, .bf16⟩
  | .hbm, ⟨4, _⟩ => ⟨S8192x1, .f32⟩
  | .hbm, ⟨5, _⟩ => ⟨S8192x1, .i32⟩
  | .hbm, ⟨6, _⟩ => ⟨S1x8192, .i32⟩
  | .hbm, ⟨7, _⟩ => ⟨S1x8192, .f32⟩
  | .hbm, ⟨8, _⟩ => ⟨S8192x1, .f32⟩
  | .hbm, ⟨9, _⟩ => ⟨S8192x1, .f32⟩
  | .hbm, ⟨10, _⟩ => ⟨S8192, .f32⟩
  | .hbm, ⟨11, _⟩ => ⟨S8192, .f32⟩
  | .hbm, ⟨12, _⟩ => ⟨S8192, .f32⟩
  | .hbm, ⟨13, _⟩ => ⟨S_, .f32⟩
  | .hbm, ⟨14, _⟩ => ⟨S8192, .f32⟩
  | .hbm, ⟨15, _⟩ => ⟨S8192, .f32⟩
  | .hbm, ⟨16, _⟩ => ⟨S_, .f32⟩
  | .hbm, ⟨17, _⟩ => ⟨S8192, .f32⟩
  | .hbm, ⟨18, _⟩ => ⟨S8192, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .local _ .vmem, ⟨0, _⟩ => ⟨S1024x512, .f32⟩
  | .local _ .vmem, ⟨1, _⟩ => ⟨S1024x512, .f32⟩
  | .local _ .vmem, ⟨2, _⟩ => ⟨S1024x512, .f32⟩
  | .local _ .vmem, ⟨3, _⟩ => ⟨S1024x512, .f32⟩
  | .local _ .vmem, ⟨4, _⟩ => ⟨S1024x512, .bf16⟩
  | .local _ .vmem, ⟨5, _⟩ => ⟨S1024x512, .bf16⟩
  | .local _ .vmem, ⟨6, _⟩ => ⟨S1024x1, .f32⟩
  | .local _ .vmem, ⟨7, _⟩ => ⟨S1024x1, .f32⟩
  | .local _ .vmem, ⟨8, _⟩ => ⟨S1024x512, .bf16⟩
  | .local _ .vmem, ⟨9, _⟩ => ⟨S1024x512, .bf16⟩
  | .local _ .vmem, ⟨10, _⟩ => ⟨S1024x512, .bf16⟩
  | .local _ .vmem, ⟨11, _⟩ => ⟨S1024x512, .bf16⟩
  | .local _ .vmem, ⟨12, _⟩ => ⟨S1024x1, .f32⟩
  | .local _ .vmem, ⟨13, _⟩ => ⟨S1024x1, .f32⟩
  | .local _ .vmem, ⟨14, _⟩ => ⟨S1x1024, .f32⟩
  | .local _ .vmem, ⟨15, _⟩ => ⟨S1x1024, .f32⟩
  | .local _ .vmem, ⟨16, _⟩ => ⟨S1024x1, .i32⟩
  | .local _ .vmem, ⟨17, _⟩ => ⟨S1024x1, .i32⟩
  | .local _ .vmem, ⟨18, _⟩ => ⟨S1x1024, .i32⟩
  | .local _ .vmem, ⟨19, _⟩ => ⟨S1x1024, .i32⟩
  | .local _ .vmem, ⟨20, _⟩ => ⟨S1024x1, .f32⟩
  | .local _ .vmem, ⟨21, _⟩ => ⟨S1024x1, .f32⟩
  | .local _ .vmem, ⟨22, _⟩ => ⟨S1024x1, .f32⟩
  | .local _ .vmem, ⟨23, _⟩ => ⟨S1024x1, .f32⟩
  | .local _ .vmem, ⟨24, _⟩ => ⟨S1024x1, .f32⟩
  | .local _ .vmem, ⟨25, _⟩ => ⟨S1024x1, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst : Ref sig .tc := ⟨.hbm, 13, rfl⟩
abbrev main_v8 : Ref sig .tc := ⟨.hbm, 14, rfl⟩
abbrev main_v9 : Ref sig .tc := ⟨.hbm, 15, rfl⟩
abbrev main_call0_cst : Ref sig .tc := ⟨.hbm, 16, rfl⟩
abbrev main_call0_v0 : Ref sig .tc := ⟨.hbm, 17, rfl⟩
abbrev main_v10 : Ref sig .tc := ⟨.hbm, 18, rfl⟩
abbrev main_cst_0 : Ref sig .tc := ⟨.hbm, 19, rfl⟩
abbrev main_v11 : Ref sig .tc := ⟨.hbm, 20, rfl⟩
abbrev main_cst_1 : Ref sig .tc := ⟨.hbm, 21, rfl⟩
abbrev main_v12 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg2_1 : Ref sig .tc := ⟨.vmem, 13, rfl⟩
abbrev cc1_stg3_0 : Ref sig .tc := ⟨.vmem, 14, rfl⟩
abbrev cc1_stg3_1 : Ref sig .tc := ⟨.vmem, 15, rfl⟩
abbrev cc1_stg4_0 : Ref sig .tc := ⟨.vmem, 16, rfl⟩
abbrev cc1_stg4_1 : Ref sig .tc := ⟨.vmem, 17, rfl⟩
abbrev cc1_stg5_0 : Ref sig .tc := ⟨.vmem, 18, rfl⟩
abbrev cc1_stg5_1 : Ref sig .tc := ⟨.vmem, 19, rfl⟩
abbrev cc1_stg6_0 : Ref sig .tc := ⟨.vmem, 20, rfl⟩
abbrev cc1_stg6_1 : Ref sig .tc := ⟨.vmem, 21, rfl⟩
abbrev cc1_stg7_0 : Ref sig .tc := ⟨.vmem, 22, rfl⟩
abbrev cc1_stg7_1 : Ref sig .tc := ⟨.vmem, 23, rfl⟩
abbrev cc1_scratch0 : Ref sig .tc := ⟨.vmem, 24, rfl⟩
abbrev cc1_scratch1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13
abbrev cc1_sem3_0 : DmaSem sig := 14
abbrev cc1_sem3_1 : DmaSem sig := 15
abbrev cc1_sem4_0 : DmaSem sig := 16
abbrev cc1_sem4_1 : DmaSem sig := 17
abbrev cc1_sem5_0 : DmaSem sig := 18
abbrev cc1_sem5_1 : DmaSem sig := 19
abbrev cc1_sem6_0 : DmaSem sig := 20
abbrev cc1_sem6_1 : DmaSem sig := 21
abbrev cc1_sem7_0 : DmaSem sig := 22
abbrev cc1_sem7_1 : DmaSem sig := 23

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨2, ![8, 8], ![false, false]⟩

def k1_cond2 (i : grid1.Coords) : BitVec 1 :=
  let arg1 : BitVec 32 := BitVec.ofNat 32 (i 1).val
  let c7_i32 : BitVec 32 := 7#32
  let v39 : BitVec 1 := Scalar.cmpi .eq arg1 c7_i32
  let v40 : BitVec 32 := Scalar.extui v39
  let c0_i32_23 : BitVec 32 := 0#32
  let v41 : BitVec 1 := Scalar.cmpi .ne v40 c0_i32_23
  v41

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_6 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_7 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S1024x512 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S1024x512 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S1024x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S1x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![false, true]

abbrev stage1_4 : Fin 2 → Memref sig .tc .vmem S1024x1 .i32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, false]

abbrev stage1_5 : Fin 2 → Memref sig .tc .vmem S1x1024 .i32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![false, true]

abbrev stage1_6 : Fin 2 → Memref sig .tc .vmem S1024x1 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, false]

abbrev stage1_7 : Fin 2 → Memref sig .tc .vmem S1024x1 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true, false]

class Facts₀ : Prop where
  inb_S1024x512_S1024x512_0_0 : ∀ a, (![0, 0] : Fin 2 → Nat) a + S1024x512.size a ≤ S1024x512.size a
  h_S1024x512 : 0 < S1024x512.numel
  bitsLt_bf16_f32 : FTy.bits .bf16 < FTy.bits .f32
  packedbf16_S1024x512_S1024x512_0_0 : (Rect.unit (s := S1024x512) ![0, 0] S1024x512.size inb_S1024x512_S1024x512_0_0).PackedRows (EltTy.packing .bf16)
  reduces_S1024x512_S1024 : S1024x512.Reduces [1] S1024
  shapeCasts_S1024_S1024x1 : S1024.ShapeCasts S1024x1
  inb_S1024x1_S1024x1_0_0 : ∀ a, (![0, 0] : Fin 2 → Nat) a + S1024x1.size a ≤ S1024x1.size a
  h_S1024x1 : 0 < S1024x1.numel
  shapeCasts_S8192_S8192x1 : S8192.ShapeCasts S8192x1
  shapeCasts_S8192_S1x8192 : S8192.ShapeCasts S1x8192
  shapeCasts_S8192x1_S1x8192 : S8192x1.ShapeCasts S1x8192
  shapeCasts_S1024x1_S1024x1 : S1024x1.ShapeCasts S1024x1
  shapeCasts_S1024x512_S1024x512 : S1024x512.ShapeCasts S1024x512
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S1024x1024 : S1x1024.Broadcasts S1024x1024
  broadcasts_S1024x1_S1024x1024 : S1024x1.Broadcasts S1024x1024
  reduces_S1024x1024_S1024 : S1024x1024.Reduces [1] S1024
  shapeCasts_S8192x1_S8192 : S8192x1.ShapeCasts S8192
  bcast_S_S8192 : S_.BroadcastsInDim S8192 (![] : Fin 0 → Fin S8192.rank)
  reducesTo_S8192_S_d0 : S8192.ReducesTo [0] S_
  h_S_ : 0 < S_.numel
  dot_S1024x512_S1024x512_S1024x1024_1_1_0_0_n_n_wf : DotDims.WF S1024x512 S1024x512 S1024x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x512.size a ≤ S8192x512.size a
  hwx0_0 : ∀ i : grid0.Coords, EltTy.bits .f32 = 32 ∨ (Rect.block (s := S8192x512) S1024x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x512.size a ≤ S8192x512.size a
  hwx0_1 : ∀ i : grid0.Coords, EltTy.bits .f32 = 32 ∨ (Rect.block (s := S8192x512) S1024x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x512.size a ≤ S8192x512.size a
  hwx0_2 : ∀ i : grid0.Coords, EltTy.bits .bf16 = 32 ∨ (Rect.block (s := S8192x512) S1024x512.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x1.size a ≤ S8192x1.size a
  hwx0_3 : ∀ i : grid0.Coords, EltTy.bits .f32 = 32 ∨ (Rect.block (s := S8192x1) S1024x1.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x512.size a ≤ S8192x512.size a
  hwx1_0 : ∀ i : grid1.Coords, EltTy.bits .bf16 = 32 ∨ (Rect.block (s := S8192x512) S1024x512.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024x512.size a ≤ S8192x512.size a
  hwx1_1 : ∀ i : grid1.Coords, EltTy.bits .bf16 = 32 ∨ (Rect.block (s := S8192x512) S1024x512.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1024x1.size a ≤ S8192x1.size a
  hwx1_2 : ∀ i : grid1.Coords, EltTy.bits .f32 = 32 ∨ (Rect.block (s := S8192x1) S1024x1.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x1024.size a ≤ S1x8192.size a
  hwx1_3 : ∀ i : grid1.Coords, EltTy.bits .f32 = 32 ∨ (Rect.block (s := S1x8192) S1x1024.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1024x1.size a ≤ S8192x1.size a
  hwx1_4 : ∀ i : grid1.Coords, EltTy.bits .i32 = 32 ∨ (Rect.block (s := S8192x1) S1024x1.size (cc1_transform_4 i) (hinb1_4 i)).WholeWords (EltTy.packing .i32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S1x1024.size a ≤ S1x8192.size a
  hwx1_5 : ∀ i : grid1.Coords, EltTy.bits .i32 = 32 ∨ (Rect.block (s := S1x8192) S1x1024.size (cc1_transform_5 i) (hinb1_5 i)).WholeWords (EltTy.packing .i32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S1024x1.size a ≤ S8192x1.size a
  hwx1_6 : ∀ i : grid1.Coords, EltTy.bits .f32 = 32 ∨ (Rect.block (s := S8192x1) S1024x1.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S1024x1.size a ≤ S8192x1.size a
  hwx1_7 : ∀ i : grid1.Coords, EltTy.bits .f32 = 32 ∨ (Rect.block (s := S8192x1) S1024x1.size (cc1_transform_7 i) (hinb1_7 i)).WholeWords (EltTy.packing .f32)

variable [Facts₀]

def dot_S1024x512_S1024x512_S1024x1024_1_1_0_0_n_n : DotDims S1024x512 S1024x512 S1024x1024 where
  lhsContracting := [1]
  rhsContracting := [1]
  lhsNonContracting := [0]
  rhsNonContracting := [0]
  lhsBatch := []
  rhsBatch := []
  wf := dot_S1024x512_S1024x512_S1024x1024_1_1_0_0_n_n_wf

abbrev win0_0 : Pipeline.Window sig grid0 :=
  Pipeline.Window.ofSpec (Memref.whole main_arg0) S1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0_0) S1024x512.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0_1) S1024x1.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v0_0) S1024x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0_0) S1024x512.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v0_1) S1024x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v3) S1x1024.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v1) S1024x1.size cc1_transform_4 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_v2) S1x1024.size cc1_transform_5 reads1_5 false false 2 stage1_5 sem1_5
    hrank1 hreads1_5 hinb1_5 nbuf1_5 (Memref.isWhole_whole _) hwx1_5 hstage1_5

abbrev win1_6 : Pipeline.Window sig grid1 :=
  Pipeline.Window.ofSpec (Memref.whole main_v4_0) S1024x1.size cc1_transform_6 reads1_6 true false 2 stage1_6 sem1_6
    hrank1 hreads1_6 hinb1_6 nbuf1_6 (Memref.isWhole_whole _) hwx1_6 hstage1_6

abbrev win1_7 : Pipeline.Window sig grid1 :=
  Pipeline.Window.ofSpec (Memref.whole main_v4_1) S1024x1.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

abbrev idle1 : Fin 8 → grid1.Coords → Bool := fun | 0 => fun _ => false | 1 => fun _ => false | 2 => fun _ => false | 3 => fun _ => false | 4 => fun _ => false | 5 => fun _ => false | 6 => fun i => !(k1_cond2 i == 1#1) | 7 => fun i => !(k1_cond2 i == 1#1) | ⟨_ + 8, h⟩ => absurd h (Nat.not_lt.2 (Nat.le_add_left _ _))

class Facts : Prop extends Facts₀ where

variable [Facts]
-- ==== ReferenceIdeal.lean ====
abbrev S8192x512 : Shape := ⟨2, ![8192, 512]⟩
abbrev S8192 : Shape := ⟨1, ![8192]⟩
abbrev S_ : Shape := ⟨0, ![]⟩
abbrev S8192x1 : Shape := ⟨2, ![8192, 1]⟩
abbrev S1x8192 : Shape := ⟨2, ![1, 8192]⟩
abbrev S8192x8192 : Shape := ⟨2, ![8192, 8192]⟩
abbrev S512x8192 : Shape := ⟨2, ![512, 8192]⟩

abbrev nBuf : Space → Nat
  | .hbm => 51
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S8192x512, .f32⟩
  | .hbm, ⟨2, _⟩ => ⟨S8192, .i32⟩
  | .hbm, ⟨3, _⟩ => ⟨S8192x512, .f32⟩
  | .hbm, ⟨4, _⟩ => ⟨S8192x512, .f32⟩
  | .hbm, ⟨5, _⟩ => ⟨S_, .f32⟩
  | .hbm, ⟨6, _⟩ => ⟨S8192, .f32⟩
  | .hbm, ⟨7, _⟩ => ⟨S8192x1, .f32⟩
  | .hbm, ⟨8, _⟩ => ⟨S1x8192, .f32⟩
  | .hbm, ⟨9, _⟩ => ⟨S8192x8192, .f32⟩
  | .hbm, ⟨10, _⟩ => ⟨S8192x8192, .f32⟩
  | .hbm, ⟨11, _⟩ => ⟨S8192x8192, .f32⟩
  | .hbm, ⟨12, _⟩ => ⟨S512x8192, .f32⟩
  | .hbm, ⟨13, _⟩ => ⟨S8192x8192, .f32⟩
  | .hbm, ⟨14, _⟩ => ⟨S_, .f32⟩
  | .hbm, ⟨15, _⟩ => ⟨S8192x8192, .f32⟩
  | .hbm, ⟨16, _⟩ => ⟨S8192x8192, .f32⟩
  | .hbm, ⟨17, _⟩ => ⟨S8192x8192, .f32⟩
  | .hbm, ⟨18, _⟩ => ⟨S_, .f32⟩
  | .hbm, ⟨19, _⟩ => ⟨S_, .f32⟩
  | .hbm, ⟨20, _⟩ => ⟨S8192x8192, .f32⟩
  | .hbm, ⟨21, _⟩ => ⟨S8192x8192, .f32⟩
  | .hbm, ⟨22, _⟩ => ⟨S8192x8192, .f32⟩
  | .hbm, ⟨23, _⟩ => ⟨S8192x1, .i32⟩
  | .hbm, ⟨24, _⟩ => ⟨S1x8192, .i32⟩
  | .hbm, ⟨25, _⟩ => ⟨S8192x8192, .i32⟩
  | .hbm, ⟨26, _⟩ => ⟨S8192x8192, .i32⟩
  | .hbm, ⟨27, _⟩ => ⟨S8192x8192, .i1⟩
  | .hbm, ⟨28, _⟩ => ⟨S_, .f32⟩
  | .hbm, ⟨29, _⟩ => ⟨S_, .f32⟩
  | .hbm, ⟨30, _⟩ => ⟨S8192x8192, .f32⟩
  | .hbm, ⟨31, _⟩ => ⟨S8192x8192, .f32⟩
  | .hbm, ⟨32, _⟩ => ⟨S_, .f32⟩
  | .hbm, ⟨33, _⟩ => ⟨S8192, .f32⟩
  | .hbm, ⟨34, _⟩ => ⟨S_, .f32⟩
  | .hbm, ⟨35, _⟩ => ⟨S_, .f32⟩
  | .hbm, ⟨36, _⟩ => ⟨S8192x8192, .f32⟩
  | .hbm, ⟨37, _⟩ => ⟨S8192x8192, .f32⟩
  | .hbm, ⟨38, _⟩ => ⟨S_, .f32⟩
  | .hbm, ⟨39, _⟩ => ⟨S8192, .f32⟩
  | .hbm, ⟨40, _⟩ => ⟨S8192, .f32⟩
  | .hbm, ⟨41, _⟩ => ⟨S_, .f32⟩
  | .hbm, ⟨42, _⟩ => ⟨S8192, .f32⟩
  | .hbm, ⟨43, _⟩ => ⟨S8192, .f32⟩
  | .hbm, ⟨44, _⟩ => ⟨S_, .f32⟩
  | .hbm, ⟨45, _⟩ => ⟨S8192, .f32⟩
  | .hbm, ⟨46, _⟩ => ⟨S8192, .f32⟩
  | .hbm, ⟨47, _⟩ => ⟨S_, .f32⟩
  | .hbm, ⟨48, _⟩ => ⟨S_, .f32⟩
  | .hbm, ⟨49, _⟩ => ⟨S_, .f32⟩
  | .hbm, ⟨50, _⟩ => ⟨S_, .f32⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_0 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_1 : Ref sig .tc := ⟨.hbm, 18, rfl⟩
abbrev main_call0_v0 : Ref sig .tc := ⟨.hbm, 19, rfl⟩
abbrev main_call0_v1 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_cst_2 : Ref sig .tc := ⟨.hbm, 28, rfl⟩
abbrev main_call1_v0 : Ref sig .tc := ⟨.hbm, 29, rfl⟩
abbrev main_call1_v1 : Ref sig .tc := ⟨.hbm, 30, rfl⟩
abbrev main_v20 : Ref sig .tc := ⟨.hbm, 31, rfl⟩
abbrev main_cst_3 : Ref sig .tc := ⟨.hbm, 32, rfl⟩
abbrev main_v21 : Ref sig .tc := ⟨.hbm, 33, rfl⟩
abbrev main_cst_4 : Ref sig .tc := ⟨.hbm, 34, rfl⟩
abbrev main_call2_v0 : Ref sig .tc := ⟨.hbm, 35, rfl⟩
abbrev main_call2_v1 : Ref sig .tc := ⟨.hbm, 36, rfl⟩
abbrev main_v22 : Ref sig .tc := ⟨.hbm, 37, rfl⟩
abbrev main_cst_5 : Ref sig .tc := ⟨.hbm, 38, rfl⟩
abbrev main_v23 : Ref sig .tc := ⟨.hbm, 39, rfl⟩
abbrev main_v24 : Ref sig .tc := ⟨.hbm, 40, rfl⟩
abbrev main_cst_6 : Ref sig .tc := ⟨.hbm, 41, rfl⟩
abbrev main_v25 : Ref sig .tc := ⟨.hbm, 42, rfl⟩
abbrev main_v26 : Ref sig .tc := ⟨.hbm, 43, rfl⟩
abbrev main_call3_cst : Ref sig .tc := ⟨.hbm, 44, rfl⟩
abbrev main_call3_v0 : Ref sig .tc := ⟨.hbm, 45, rfl⟩
abbrev main_v27 : Ref sig .tc := ⟨.hbm, 46, rfl⟩
abbrev main_cst_7 : Ref sig .tc := ⟨.hbm, 47, rfl⟩
abbrev main_v28 : Ref sig .tc := ⟨.hbm, 48, rfl⟩
abbrev main_cst_8 : Ref sig .tc := ⟨.hbm, 49, rfl⟩
abbrev main_v29 : Ref sig .tc := ⟨.hbm, 50, rfl⟩

abbrev nD : Nat := 1
abbrev τ : Topo := Topo.v7x

variable {F : FTy → Type} [FloatOps F]

class Facts₀ : Prop where
  reducesTo_S8192x512_S8192_d1 : S8192x512.ReducesTo [1] S8192
  h_S_ : 0 < S_.numel
  bcast_S8192_S8192x1_0 : S8192.BroadcastsInDim S8192x1 (![0] : Fin 1 → Fin S8192x1.rank)
  bcast_S8192_S1x8192_1 : S8192.BroadcastsInDim S1x8192 (![1] : Fin 1 → Fin S1x8192.rank)
  bcast_S8192x1_S8192x8192_0_1 : S8192x1.BroadcastsInDim S8192x8192 (![0, 1] : Fin 2 → Fin S8192x8192.rank)
  bcast_S1x8192_S8192x8192_0_1 : S1x8192.BroadcastsInDim S8192x8192 (![0, 1] : Fin 2 → Fin S8192x8192.rank)
  transposes_S8192x512_S512x8192_1_0 : S8192x512.Transposes [1, 0] S512x8192
  bcast_S_S8192x8192 : S_.BroadcastsInDim S8192x8192 (![] : Fin 0 → Fin S8192x8192.rank)
  reducesTo_S8192x8192_S8192_d1 : S8192x8192.ReducesTo [1] S8192
  bcast_S_S8192 : S_.BroadcastsInDim S8192 (![] : Fin 0 → Fin S8192.rank)
  reducesTo_S8192_S_d0 : S8192.ReducesTo [0] S_
  dot_S8192x512_S512x8192_S8192x8192_1_0_0_1_n_n_wf : DotDims.WF S8192x512 S512x8192 S8192x8192 [1] [0] [0] [1] [] []

variable [Facts₀]

def dot_S8192x512_S512x8192_S8192x8192_1_0_0_1_n_n : DotDims S8192x512 S512x8192 S8192x8192 where
  lhsContracting := [1]
  rhsContracting := [0]
  lhsNonContracting := [0]
  rhsNonContracting := [1]
  lhsBatch := []
  rhsBatch := []
  wf := dot_S8192x512_S512x8192_S8192x8192_1_0_0_1_n_n_wf

class Facts : Prop extends Facts₀ where

variable [Facts]
-- ==== Proof.K.Data.lean ====
/-
  The proof data of the two pipelined calls of the kernel as printed, at any float instance.

  Call 0 (eight row tiles of 1024 rows): from the tile's blocks a, b of the two argument arrays it leaves the
  product a·b (stored in the narrow format) and the column of the rows' sums of squares of that product.

  Call 1 (an 8 × 8 grid of row tiles i and column tiles j, j running fastest): at every point it folds the tile's
  masked row maxima and minima of  sq_j − 2·(x_i · x_jᵀ)  into two columns it carries from point to point, both
  re-started at j = 0; at j = 7 it writes  √(max ε (sq_i + carried))  for the two columns into its two outputs.
  The carried columns after point t are `accMax`, `accMin`, by recursion on the point.
-/
import proofs.«126033_j28338194219418_2_alg».proof.Proof.Gen.Kernel.Launch
import proofs.«126033_j28338194219418_2_alg».proof.Proof.Gen.Kernel.Skeleton
import proofs.«126033_j28338194219418_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 16384

noncomputable section

namespace Cert.Kernel.Hand

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- the core's buffer contents when a call is entered
variable (V : (c : Dev nD) → (b : Ref sig .tc) → Buf (Elt F) ((c : Thread nD τ).loc b))

/-! ## Call 0 -/

/-- Window `w`'s block at point `t`, read off its array as the call finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Call 0's proof data: the inputs' buffers keep their blocks; output 2 gets the product of the two blocks, output 3
    the column of its rows' sums of squares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => k0_pay1 (iblk0 V c 0 t) (iblk0 V c 1 t)
    | ⟨3, _⟩ => k0_pay2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = k0_pay1 (iblk0 V c 0 t) (iblk0 V c 1 t) := by dsimp only [dat0]
theorem after0_3 (c : Dev nD) (t : Fin cfg0.N) : (dat0 V c).after 3 t = k0_pay2 (iblk0 V c 0 t) (iblk0 V c 1 t) := by dsimp only [dat0]

/-! ## Call 1 -/

/-- Window `w`'s block at point `t`, read off its array as the call finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The carried column of maxima after the point at position `n`: re-started from −∞ where the column tile is the
    first (`n % 8 = 0`), else continued from the point before. -/
def accMax (c : Dev nD) : (n : ℕ) → n < cfg1.N → FVec F S1024x1 .f32
  | 0, h => k1_pay10 (iblk1 V c 0 ⟨0, h⟩) (iblk1 V c 1 ⟨0, h⟩) (iblk1 V c 3 ⟨0, h⟩) (iblk1 V c 4 ⟨0, h⟩) (iblk1 V c 5 ⟨0, h⟩) k1_pay5
  | n + 1, h => k1_pay10 (iblk1 V c 0 ⟨n + 1, h⟩) (iblk1 V c 1 ⟨n + 1, h⟩) (iblk1 V c 3 ⟨n + 1, h⟩) (iblk1 V c 4 ⟨n + 1, h⟩) (iblk1 V c 5 ⟨n + 1, h⟩)
      (if (n + 1) % 8 = 0 then k1_pay5 else accMax c n (Nat.lt_of_succ_lt h))

/-- The carried column of minima after the point at position `n`, likewise from +∞. -/
def accMin (c : Dev nD) : (n : ℕ) → n < cfg1.N → FVec F S1024x1 .f32
  | 0, h => k1_pay1 (k1_pay9 (iblk1 V c 0 ⟨0, h⟩) (iblk1 V c 1 ⟨0, h⟩) (iblk1 V c 3 ⟨0, h⟩) (iblk1 V c 4 ⟨0, h⟩) (iblk1 V c 5 ⟨0, h⟩)) k1_pay6
  | n + 1, h => k1_pay1 (k1_pay9 (iblk1 V c 0 ⟨n + 1, h⟩) (iblk1 V c 1 ⟨n + 1, h⟩) (iblk1 V c 3 ⟨n + 1, h⟩) (iblk1 V c 4 ⟨n + 1, h⟩) (iblk1 V c 5 ⟨n + 1, h⟩))
      (if (n + 1) % 8 = 0 then k1_pay6 else accMin c n (Nat.lt_of_succ_lt h))

/-- The scoped buffers call 1 neither stages nor carries (call 0's staging buffers), each at some contents. -/
def rest1 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f))

/-- Call 1's invariant before the point at position `n`: the two carried columns at some contents — where the point
    is not a first column tile, at what the point before left —, the other scoped buffers and the generator
    register at anything. -/
def Phi1 (c : Dev nD) (n : ℕ) (hn : n ≤ cfg1.N) : sProp 𝕄 :=
  iprop(∃ (f0 f1 : Vec F S1024x1 .f32),
    ⌜∀ (h0 : n % 8 ≠ 0), f0 = accMax V c (n - 1) (by have := N_1; omega) ∧ f1 = accMin V c (n - 1) (by have := N_1; omega)⌝
    ∗ owns (c : Thread nD τ) (Memref.whole cc1_scratch0) fullShare f0
    ∗ owns (c : Thread nD τ) (Memref.whole cc1_scratch1) fullShare f1
    ∗ rest1 c ∗ ∃ r, prngReg c r)

/-- Call 1's proof data: the six inputs' buffers keep their blocks; at a last column tile the two outputs get
    √(max ε (sq_i + carried)) of the two carried columns (elsewhere the outputs are idle and the field is not read).
    The shared array of windows 0 and 1 is held at the two halves of the full share. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => k1_pay3 (iblk1 V c 2 t) (accMax V c t.val t.isLt)
    | ⟨7, _⟩ => k1_pay4 (iblk1 V c 2 t) (accMin V c t.val t.isLt)
  Φ t := Phi1 V c t.val (Nat.le_of_lt_succ t.isLt)
  q w := match w with
    | ⟨0, _⟩ => fullShare.left
    | ⟨1, _⟩ => fullShare.right
    | ⟨2, _⟩ => fullShare
    | ⟨3, _⟩ => fullShare
    | ⟨4, _⟩ => fullShare
    | ⟨5, _⟩ => fullShare
    | ⟨6, _⟩ => fullShare
    | ⟨7, _⟩ => fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = k1_pay3 (iblk1 V c 2 t) (accMax V c t.val t.isLt) := by dsimp only [dat1]
theorem after1_7 (c : Dev nD) (t : Fin cfg1.N) : (dat1 V c).after 7 t = k1_pay4 (iblk1 V c 2 t) (accMin V c t.val t.isLt) := by dsimp only [dat1]
theorem Phi1_eq (c : Dev nD) (t : Fin (cfg1.N + 1)) : (dat1 V c).Φ t = Phi1 V c t.val (Nat.le_of_lt_succ t.isLt) := by dsimp only [dat1]
theorem share1_0 (c : Dev nD) : (dat1 V c).q 0 = fullShare.left := by dsimp only [dat1]
theorem share1_1 (c : Dev nD) : (dat1 V c).q 1 = fullShare.right := by dsimp only [dat1]

end Cert.Kernel.Hand

end
-- ==== Proof.K.Run.lean ====
/-
  The run of the kernel as printed's @main, at any float instance: the two pipelined calls and the host operations
  between and after them, chained from the launch memory to the return, with every unscoped buffer's final
  contents named.
-/
import proofs.«126033_j28338194219418_2_alg».proof.Proof.K.Data
import proofs.«126033_j28338194219418_2_alg».proof.Proof.Gen.Kernel.Regions

set_option maxRecDepth 16384

noncomputable section

namespace Cert.Kernel.Hand

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ)

/-! ## The buffers' contents between @main's items -/

/-- A valuation read at the TensorCore's references. -/
abbrev rd (W : Dev nD → Valuation τ sig (Elt F)) : (c : Dev nD) → (b : Ref sig .tc) → Buf (Elt F) ((c : Thread nD τ).loc b) :=
  fun c b => W c b

/-- What call 0 leaves in its two output arrays. -/
def X0 (c : Dev nD) : Buf (Elt F) ((c : Thread nD τ).loc main_v0_0) := (dat0 (rd (Gen.V0 m)) c).arrAt 2 cfg0.N
def SQ0 (c : Dev nD) : Buf (Elt F) ((c : Thread nD τ).loc main_v0_1) := (dat0 (rd (Gen.V0 m)) c).arrAt 3 cfg0.N
/-- The buffers after call 0, and after the three reshapes that follow it. -/
abbrev W1 (c : Dev nD) : Valuation τ sig (Elt F) := Function.update (Function.update (Gen.V0 m c) main_v0_0 (X0 m c)) main_v0_1 (SQ0 m c)
abbrev W2 (c : Dev nD) : Valuation τ sig (Elt F) := StableHlo.after hostOps1 (W1 m c)
/-- What call 1 leaves in its two output arrays. -/
def AP (c : Dev nD) : Buf (Elt F) ((c : Thread nD τ).loc main_v4_0) := (dat1 (rd (W2 m)) c).arrAt 6 cfg1.N
def AN (c : Dev nD) : Buf (Elt F) ((c : Thread nD τ).loc main_v4_1) := (dat1 (rd (W2 m)) c).arrAt 7 cfg1.N

/-- The calls' outputs as the unknowns of the generated valuations `Gen.V1 … Gen.V6`. -/
def outs : Gen.Outs (F := F) := fun _ r c =>
  if h : r = main_v0_0 then h ▸ X0 m c
  else if h : r = main_v0_1 then h ▸ SQ0 m c
  else if h : r = main_v4_0 then h ▸ AP m c
  else if h : r = main_v4_1 then h ▸ AN m c
  else m ((c : Thread nD τ).loc r)

theorem outs_v0_0 (J : ℕ) (c : Dev nD) : outs m J main_v0_0 c = X0 m c := by unfold outs; rw [dif_pos rfl]
theorem outs_v0_1 (J : ℕ) (c : Dev nD) : outs m J main_v0_1 c = SQ0 m c := by
  unfold outs; rw [dif_neg (by decide), dif_pos rfl]
theorem outs_v4_0 (J : ℕ) (c : Dev nD) : outs m J main_v4_0 c = AP m c := by
  unfold outs; rw [dif_neg (by decide), dif_neg (by decide), dif_pos rfl]
theorem outs_v4_1 (J : ℕ) (c : Dev nD) : outs m J main_v4_1 c = AN m c := by
  unfold outs; rw [dif_neg (by decide), dif_neg (by decide), dif_neg (by decide), dif_pos rfl]

theorem V1_eq (c : Dev nD) : Gen.V1 m (outs m) c = W1 m c := by
  show Function.update (Function.update (Gen.V0 m c) main_v0_0 (outs m 1 main_v0_0 c)) main_v0_1 (outs m 1 main_v0_1 c) = _
  rw [outs_v0_0, outs_v0_1]
theorem V2_eq (c : Dev nD) : Gen.V2 m (outs m) c = W2 m c := by
  show StableHlo.after hostOps1 (Gen.V1 m (outs m) c) = _
  rw [V1_eq]

/-! ## The proof data family and what rides beside the buffers -/

abbrev adm : (p : Fin 2) → (pcfgs (F := F) p).Adm := fun p => (cfgs p).toPCfg_adm
/-- Every call's proof data, each at its entry contents. -/
def pdats : (p : Fin 2) → (c : Dev nD) → Dat τ (Elt F) Unit ℕ (UR sig nD τ) ℕ (cfgs p) c
  | ⟨0, _⟩ => fun c => dat0 (rd (Gen.V0 m)) c
  | ⟨1, _⟩ => fun c => dat1 (rd (W2 m)) c
abbrev 𝒱₀ : Variants := Variants.none
abbrev L : GSem nD τ sig → Finset Unit := fun _ => ∅
abbrev lv : GSem nD τ sig → Unit → ℕ := fun _ _ => 0
/-- The generator register at some state and the core owing nothing. -/
abbrev R (c : Dev nD) : sProp 𝕄 := iprop((∃ r, prngReg c r) ∗ ∃ W, owes (c : Thread nD τ) (0 : CellTallies nD τ sig Unit) W)
abbrev E : Fin 3 → Dev nD → sProp 𝕄 := fun _ c => R c

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-! ## Call 0 as a segment -/

section Reg0
variable (hb0 : ∀ (V : (c : Dev nD) → (b : Ref sig .tc) → Buf (Elt F) ((c : Thread nD τ).loc b)) (c : Dev nD),
  BodyObligation (dat0 (F := F) V c) (defs₀ (F := F)) Variants.none () Set.univ)

theorem W1_of (c : Dev nD) (r : Ref sig .tc) (h : r ∉ ([main_v0_0, main_v0_1] : List (Ref sig .tc))) : W1 m c r = Gen.V0 m c r :=
  (congrFun (V1_eq m c).symm _).trans (Gen.V1_of m (outs m) c r h)
theorem W1_v0_0 (c : Dev nD) : W1 m c main_v0_0 = X0 m c := by
  show Function.update (Function.update (Gen.V0 m c) main_v0_0 (X0 m c)) main_v0_1 (SQ0 m c) main_v0_0 = _
  rw [Function.update_of_ne (StableHlo.devRef_ne_of_ne (by decide) : (Proc.devRef .tc main_v0_0 : DevRef τ sig) ≠ Proc.devRef .tc main_v0_1), Function.update_self]
theorem W1_v0_1 (c : Dev nD) : W1 m c main_v0_1 = SQ0 m c := by
  show Function.update (Function.update (Gen.V0 m c) main_v0_0 (X0 m c)) main_v0_1 (SQ0 m c) main_v0_1 = _
  rw [Function.update_self]

theorem hF0 (c : Dev nD) (w : Fin cfg0.W) : (pdats m 0 c).arrAt w cfg0.N = rd (W1 m) c (Pipeline.arrRef spec0 w) := by
  match w with
  | ⟨0, _⟩ => exact ((pdats m 0 c).arrAt_in 0 rfl _).trans (W1_of m c main_arg0 (by decide)).symm
  | ⟨1, _⟩ => exact ((pdats m 0 c).arrAt_in 1 rfl _).trans (W1_of m c main_arg1 (by decide)).symm
  | ⟨2, _⟩ => exact (W1_v0_0 m c).symm
  | ⟨3, _⟩ => exact (W1_v0_1 m c).symm
theorem hrest0 (c : Dev nD) : ∀ b, b ∉ Finset.univ.image (Pipeline.arrRef spec0) → rd (W1 m) c b = rd (Gen.V0 m) c b := fun b hb =>
  W1_of m c b fun hmem => hb (by
    rcases List.mem_cons.mp hmem with rfl | hmem
    · exact Finset.mem_image.mpr ⟨2, Finset.mem_univ _, rfl⟩
    · rcases List.mem_cons.mp hmem with rfl | hmem
      · exact Finset.mem_image.mpr ⟨3, Finset.mem_univ _, rfl⟩
      · cases hmem)

set_option backward.isDefEq.respectTransparency.types false in
def reg0 : RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (hb0 (rd (Gen.V0 m)) c).loose
  hwaits := Pipeline.hwaits_of_owed_zero _ _ _ _ L lv 0 fun _ _ => rfl
  pre c := iprop(StableHlo.held (c : Thread nD τ) (Pipeline.ucRefs τ sig) (Gen.V0 m c) ∗ R c)
  post c := iprop(StableHlo.held (c : Thread nD τ) (Pipeline.ucRefs τ sig) (W1 m c) ∗ R c)
  X c := iprop(∃ r, prngReg c r)
  Y c := iprop(∃ r, prngReg c r)
  Z c := Pipeline.unscopedRest (Ix := Unit) (Name := ℕ) (U := UR sig nD τ) (Lvl := ℕ) spec0 c (rd (Gen.V0 m) c)
  hentry c := by
    rw [Pipeline.ownSems0_none]
    have hsplit := Pipeline.arrays_of_unscopedBufs (p := 0) (pcfgs (F := F)) adm (pdats m) launch0.win launch0.arr_whole c
      ((pdats m 0 c).share_full fun _ => rfl) (rd (Gen.V0 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (rd (Gen.V0 m) c) (rd (W1 m) c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO
end Reg0

/-! ## Call 1: two of its windows read one array -/

section Shared
variable (V : (c : Dev nD) → (b : Ref sig .tc) → Buf (Elt F) ((c : Thread nD τ).loc b))

/-- The seven distinct buffers behind call 1's eight windows, one by one. -/
theorem arrBufs1_eq (c : Dev nD) (V : (b : Ref sig .tc) → Buf (Elt F) ((c : Thread nD τ).loc b)) :
    (Pipeline.arrBufs (Ix := Unit) (Name := ℕ) (U := UR sig nD τ) (Lvl := ℕ) spec1 c V : sProp 𝕄)
      = iprop((((c : Thread nD τ).loc main_v0_0) ↦{fullShare} V main_v0_0) ∗ (((c : Thread nD τ).loc main_v0_1) ↦{fullShare} V main_v0_1)
        ∗ (((c : Thread nD τ).loc main_v3) ↦{fullShare} V main_v3) ∗ (((c : Thread nD τ).loc main_v1) ↦{fullShare} V main_v1)
        ∗ (((c : Thread nD τ).loc main_v2) ↦{fullShare} V main_v2) ∗ (((c : Thread nD τ).loc main_v4_0) ↦{fullShare} V main_v4_0)
        ∗ (((c : Thread nD τ).loc main_v4_1) ↦{fullShare} V main_v4_1)) := by
  unfold Pipeline.arrBufs
  exact bigSep_eq_bigSepL_of_eq [main_v0_0, main_v0_1, main_v3, main_v1, main_v2, main_v4_0, main_v4_1] (by decide) (by decide) _

/-- Call 1's eight windows' holdings, one by one: the array the first two windows share is held at the two halves of
    the full share. -/
theorem arrays1_eq (c : Dev nD) (G : (w : Fin cfg1.W) → Buf (Elt F) ((cfg1.win w).arr.view.loc (c : Thread nD τ))) :
    (dat1 V c).arrays G
      = iprop((((c : Thread nD τ).loc main_v0_0) ↦{fullShare.left} G 0) ∗ (((c : Thread nD τ).loc main_v0_0) ↦{fullShare.right} G 1)
        ∗ (((c : Thread nD τ).loc main_v0_1) ↦{fullShare} G 2) ∗ (((c : Thread nD τ).loc main_v3) ↦{fullShare} G 3)
        ∗ (((c : Thread nD τ).loc main_v1) ↦{fullShare} G 4) ∗ (((c : Thread nD τ).loc main_v2) ↦{fullShare} G 5)
        ∗ (((c : Thread nD τ).loc main_v4_0) ↦{fullShare} G 6) ∗ (((c : Thread nD τ).loc main_v4_1) ↦{fullShare} G 7)) := by
  unfold Pipeline.Dat.arrays
  rw [bigSep_W1]
  rw [(arr_whole1 0).set_eq_univ, (arr_whole1 2).set_eq_univ, (arr_whole1 3).set_eq_univ,
    (arr_whole1 4).set_eq_univ, (arr_whole1 5).set_eq_univ, (arr_whole1 6).set_eq_univ, (arr_whole1 7).set_eq_univ]
  rfl
end Shared

section Shared2
variable (V : (c : Dev nD) → (b : Ref sig .tc) → Buf (Elt F) ((c : Thread nD τ).loc b))

/-- ENTRY: the core's unscoped buffers are call 1's windows' holdings at the entry contents and the rest; the array
    two windows read is split into its two half shares. -/
theorem entry1 (c : Dev nD) :
    (unscopedBufs c (V c) : sProp 𝕄) ⊢ iprop((dat1 V c).arrays ((dat1 V c).arrAt · 0)
      ∗ Pipeline.unscopedRest (Ix := Unit) (Name := ℕ) (U := UR sig nD τ) (Lvl := ℕ) spec1 c (V c)) := by
  rw [Pipeline.unscopedBufs_split₀ (cfgs) (1 : Fin 2) (by decide) c (V c)]
  refine sep_mono ?_ .rfl
  show (Pipeline.arrBufs (Ix := Unit) (Name := ℕ) (U := UR sig nD τ) (Lvl := ℕ) spec1 c (V c) : sProp 𝕄) ⊢ _
  rw [arrays1_eq, arrBufs1_eq]
  iintro ⟨H0, H1, H3, H4, H5, H6, H7⟩
  ihave H0' := (pointsTo_share (PosShare.mem_left_op_right fullShare)).1 $$ H0
  icases H0' with ⟨H0l, H0r⟩
  isplitl [H0l]; · iexact H0l
  isplitl [H0r]; · iexact H0r
  isplitl [H1]; · iexact H1
  isplitl [H3]; · iexact H3
  isplitl [H4]; · iexact H4
  isplitl [H5]; · iexact H5
  isplitl [H6]; · iexact H6
  iexact H7

/-- EXIT: the windows' holdings at the final contents and the rest are the core's unscoped buffers at any
    valuation that has the arrays at those contents and agrees with the entry contents off them; the two halves of the
    shared array, both unchanged, are rejoined. -/
theorem exit1 (c : Dev nD) (V' : (b : Ref sig .tc) → Buf (Elt F) ((c : Thread nD τ).loc b))
    (hF : ∀ w, (dat1 V c).arrAt w cfg1.N = V' (Pipeline.arrRef spec1 w))
    (hrest : ∀ b, b ∉ Finset.univ.image (Pipeline.arrRef spec1) → V' b = V c b) :
    iprop((dat1 V c).arrays ((dat1 V c).arrAt · cfg1.N)
      ∗ Pipeline.unscopedRest (Ix := Unit) (Name := ℕ) (U := UR sig nD τ) (Lvl := ℕ) spec1 c (V c)) ⊢ (unscopedBufs c V' : sProp 𝕄) := by
  rw [Pipeline.unscopedBufs_split₀ (cfgs) (1 : Fin 2) (by decide) c V']
  refine sep_mono ?_ (Entails.of_eq ?_)
  · show _ ⊢ (Pipeline.arrBufs (Ix := Unit) (Name := ℕ) (U := UR sig nD τ) (Lvl := ℕ) spec1 c V' : sProp 𝕄)
    rw [arrays1_eq, arrBufs1_eq]
    rw [hF 0, hF 1, hF 2, hF 3, hF 4, hF 5, hF 6, hF 7]
    iintro ⟨H0l, H0r, H1, H3, H4, H5, H6, H7⟩
    isplitl [H0l H0r]
    · iapply (pointsTo_share (PosShare.mem_left_op_right fullShare)).2
      isplitl [H0l]; · iexact H0l
      iexact H0r
    isplitl [H1]; · iexact H1
    isplitl [H3]; · iexact H3
    isplitl [H4]; · iexact H4
    isplitl [H5]; · iexact H5
    isplitl [H6]; · iexact H6
    iexact H7
  · unfold Pipeline.unscopedRest
    exact bigSep_congr fun b hb => by rw [hrest b (Finset.mem_sdiff.mp hb).2]
end Shared2

/-! ## Call 1 as a segment -/

/-- The buffers after call 1. -/
abbrev W3 (c : Dev nD) : Valuation τ sig (Elt F) := Function.update (Function.update (W2 m c) main_v4_0 (AP m c)) main_v4_1 (AN m c)
theorem V3_eq (c : Dev nD) : Gen.V3 m (outs m) c = W3 m c := by
  show Function.update (Function.update (Gen.V2 m (outs m) c) main_v4_0 (outs m 3 main_v4_0 c)) main_v4_1 (outs m 3 main_v4_1 c) = _
  rw [V2_eq, outs_v4_0, outs_v4_1]
theorem W3_of (c : Dev nD) (r : Ref sig .tc) (h : r ∉ ([main_v4_0, main_v4_1] : List (Ref sig .tc))) : W3 m c r = W2 m c r :=
  (congrFun (V3_eq m c).symm _).trans ((Gen.V3_of m (outs m) c r h).trans (congrFun (V2_eq m c) _))
theorem W3_v4_0 (c : Dev nD) : W3 m c main_v4_0 = AP m c := by
  show Function.update (Function.update (W2 m c) main_v4_0 (AP m c)) main_v4_1 (AN m c) main_v4_0 = _
  rw [Function.update_of_ne (StableHlo.devRef_ne_of_ne (by decide) : (Proc.devRef .tc main_v4_0 : DevRef τ sig) ≠ Proc.devRef .tc main_v4_1), Function.update_self]
theorem W3_v4_1 (c : Dev nD) : W3 m c main_v4_1 = AN m c := by
  show Function.update (Function.update (W2 m c) main_v4_0 (AP m c)) main_v4_1 (AN m c) main_v4_1 = _
  rw [Function.update_self]

theorem hF1 (c : Dev nD) (w : Fin cfg1.W) : (dat1 (rd (W2 m)) c).arrAt w cfg1.N = rd (W3 m) c (Pipeline.arrRef spec1 w) := by
  match w with
  | ⟨0, _⟩ => exact ((dat1 (rd (W2 m)) c).arrAt_in 0 rfl _).trans (W3_of m c main_v0_0 (by decide)).symm
  | ⟨1, _⟩ => exact ((dat1 (rd (W2 m)) c).arrAt_in 1 rfl _).trans (W3_of m c main_v0_0 (by decide)).symm
  | ⟨2, _⟩ => exact ((dat1 (rd (W2 m)) c).arrAt_in 2 rfl _).trans (W3_of m c main_v0_1 (by decide)).symm
  | ⟨3, _⟩ => exact ((dat1 (rd (W2 m)) c).arrAt_in 3 rfl _).trans (W3_of m c main_v3 (by decide)).symm
  | ⟨4, _⟩ => exact ((dat1 (rd (W2 m)) c).arrAt_in 4 rfl _).trans (W3_of m c main_v1 (by decide)).symm
  | ⟨5, _⟩ => exact ((dat1 (rd (W2 m)) c).arrAt_in 5 rfl _).trans (W3_of m c main_v2 (by decide)).symm
  | ⟨6, _⟩ => exact (W3_v4_0 m c).symm
  | ⟨7, _⟩ => exact (W3_v4_1 m c).symm
theorem hrest1 (c : Dev nD) : ∀ b, b ∉ Finset.univ.image (Pipeline.arrRef spec1) → rd (W3 m) c b = rd (W2 m) c b := fun b hb =>
  W3_of m c b fun hmem => hb (by
    rcases List.mem_cons.mp hmem with rfl | hmem
    · exact Finset.mem_image.mpr ⟨6, Finset.mem_univ _, rfl⟩
    · rcases List.mem_cons.mp hmem with rfl | hmem
      · exact Finset.mem_image.mpr ⟨7, Finset.mem_univ _, rfl⟩
      · cases hmem)

section Reg1
variable (hb1 : ∀ (V : (c : Dev nD) → (b : Ref sig .tc) → Buf (Elt F) ((c : Thread nD τ).loc b)) (c : Dev nD),
  BodyObligation (dat1 (F := F) V c) (defs₀ (F := F)) Variants.none () Set.univ)
variable (hin1 : ∀ (V : (c : Dev nD) → (b : Ref sig .tc) → Buf (Elt F) ((c : Thread nD τ).loc b)) (c : Dev nD),
  iprop((∃ r, prngReg c r) ∗ Pipeline.scopedRest (Ix := Unit) (Name := ℕ) (U := UR sig nD τ) (Lvl := ℕ) (Val := Elt F) spec1 c) ⊢ (dat1 V c).Φ 0)
variable (hout1 : ∀ (V : (c : Dev nD) → (b : Ref sig .tc) → Buf (Elt F) ((c : Thread nD τ).loc b)) (c : Dev nD),
  (dat1 V c).Φ (Fin.last cfg1.N) ⊢ iprop((∃ r, prngReg c r) ∗ Pipeline.scopedRest (Ix := Unit) (Name := ℕ) (U := UR sig nD τ) (Lvl := ℕ) (Val := Elt F) spec1 c))

set_option backward.isDefEq.respectTransparency.types false in
def reg1 : RegionSeg (pcfgs (F := F)) adm (pdats m) () defs₀ 𝒱₀ L lv 1 where
  win := winFacts₀1
  block_pos := block_pos1
  stage_whole := stage_whole1
  K := PEmpty
  osem k := k.elim
  ho := Pipeline.OwnSemFacts.none _
  hbody c := (hb1 (rd (W2 m)) c).loose
  hwaits := Pipeline.hwaits_of_owed_zero _ _ _ _ L lv 1 fun _ _ => rfl
  pre c := iprop(StableHlo.held (c : Thread nD τ) (Pipeline.ucRefs τ sig) (W2 m c) ∗ R c)
  post c := iprop(StableHlo.held (c : Thread nD τ) (Pipeline.ucRefs τ sig) (W3 m c) ∗ R c)
  X c := iprop(∃ r, prngReg c r)
  Y c := iprop(∃ r, prngReg c r)
  Z c := Pipeline.unscopedRest (Ix := Unit) (Name := ℕ) (U := UR sig nD τ) (Lvl := ℕ) spec1 c (rd (W2 m) c)
  hentry c := by
    rw [Pipeline.ownSems0_none]
    have hsplit := entry1 (F := F) (rd (W2 m)) c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = (dat1 (rd (W2 m)) c).Φ 0 from rfl]
    iintro ⟨Hp, -, Hr⟩
    iapply (hin1 (rd (W2 m)) c)
    isplitl [Hp]; · iexact Hp
    iexact Hr
  hout c := by
    rw [Pipeline.ownSems0_none, show (pdats m 1 c).Φ (Fin.last _) = (dat1 (rd (W2 m)) c).Φ (Fin.last cfg1.N) from rfl]
    iintro H
    ihave H' := (hout1 (rd (W2 m)) c) $$ H
    icases H' with ⟨Hp, Hr⟩
    isplitl [Hp]; · iexact Hp
    isplitr; · iempintro
    iexact Hr
  hexit c := by
    have hjoin := exit1 (F := F) (rd (W2 m)) c (rd (W3 m) c) (hF1 m c) (hrest1 m c)
    rw [Pipeline.unscopedBufs_held] at hjoin
    iintro ⟨Ha, HO, HY, Hrest⟩
    imodintro
    isplitl [Ha Hrest]
    · iapply hjoin
      isplitl [Ha]; · iexact Ha
      iexact Hrest
    isplitl [HY]; · iexact HY
    unfold Pipeline.Dat.owesAt Pipeline.owesWithin
    icases HO with ⟨%W, -, HO⟩; iexists W; iexact HO
end Reg1

/-! ## @main from the launch to the return -/

section Run
variable (ρ : Dev nD → PrngReg)
variable (hb0 : ∀ (V : (c : Dev nD) → (b : Ref sig .tc) → Buf (Elt F) ((c : Thread nD τ).loc b)) (c : Dev nD),
  BodyObligation (dat0 (F := F) V c) (defs₀ (F := F)) Variants.none () Set.univ)
variable (hb1 : ∀ (V : (c : Dev nD) → (b : Ref sig .tc) → Buf (Elt F) ((c : Thread nD τ).loc b)) (c : Dev nD),
  BodyObligation (dat1 (F := F) V c) (defs₀ (F := F)) Variants.none () Set.univ)
variable (hin1 : ∀ (V : (c : Dev nD) → (b : Ref sig .tc) → Buf (Elt F) ((c : Thread nD τ).loc b)) (c : Dev nD),
  iprop((∃ r, prngReg c r) ∗ Pipeline.scopedRest (Ix := Unit) (Name := ℕ) (U := UR sig nD τ) (Lvl := ℕ) (Val := Elt F) spec1 c) ⊢ (dat1 V c).Φ 0)
variable (hout1 : ∀ (V : (c : Dev nD) → (b : Ref sig .tc) → Buf (Elt F) ((c : Thread nD τ).loc b)) (c : Dev nD),
  (dat1 V c).Φ (Fin.last cfg1.N) ⊢ iprop((∃ r, prngReg c r) ∗ Pipeline.scopedRest (Ix := Unit) (Name := ℕ) (U := UR sig nD τ) (Lvl := ℕ) (Val := Elt F) spec1 c))

include hb0 hb1 hin1 hout1 in
set_option backward.isDefEq.respectTransparency.types false in
/-- Every weakly fair execution of @main from memory `m` with zero counters terminates, nothing faulting, and every final
    memory holds each unscoped buffer at the last valuation: the launch memory, the two calls' outputs at what their
    write-backs leave, the host operations folded over them. -/
theorem run : θ_run defs (onTc (τ := τ) (main (F := F))) ⟨m, fun _ => 0, ρ⟩ (fun r => ∀ c : Dev nD,
      ∀ b ∈ Pipeline.ucRefs τ sig, r.2.mem (((c : Thread nD τ)).1, b) = Gen.V6 m (outs m) c b) := by
  refine Pipeline.θ_run_regions_kit_dev (pcfgs (F := F)) adm (pdats m) () cellOf_inj emb₁ defs₀ 𝒱₀ L lv m ρ main
    (Gen.segs m (outs m) 𝒱₀ L lv E () (pdats m) (reg0 m hb0) (reg1 m hb1 hin1 hout1))
    (fun c Q => by
      rewrite [main_chain c, Seg.run_eq_chain,
        show (Gen.segs m (outs m) 𝒱₀ L lv E () (pdats m) (reg0 m hb0) (reg1 m hb1 hin1 hout1) c).map Seg.prog = [
          Prog.lift (.customCall (Pipeline.entry 0) ()),
          StableHlo.seq hostOps1,
          Prog.lift (.customCall (Pipeline.entry 1) ()),
          StableHlo.seq hostOps2,
          StableHlo.seq hostOps2_1,
          StableHlo.seq hostOps2_2 ] from rfl]
      exact .rfl)
    (fun c => by simp only [Gen.segs, Seg.pipes_host, Seg.pipes_region, Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Gen.V0 m c) ∗ R c))
    (Tₙ := fun c => StableHlo.held (c : Thread nD τ) (Pipeline.ucRefs τ sig) (Gen.V6 m (outs m) c))
    (hch := fun c => ⟨.rfl,
      (show iprop(StableHlo.held (c : Thread nD τ) (Pipeline.ucRefs τ sig) (W1 m c) ∗ R c) ⊢ iprop(StableHlo.held (c : Thread nD τ) (Pipeline.ucRefs τ sig) (Gen.V1 m (outs m) c) ∗ R c) from by rw [V1_eq]),
      (show iprop(StableHlo.held (c : Thread nD τ) (Pipeline.ucRefs τ sig) (Gen.V2 m (outs m) c) ∗ R c) ⊢ iprop(StableHlo.held (c : Thread nD τ) (Pipeline.ucRefs τ sig) (W2 m c) ∗ R c) from by rw [V2_eq]),
      (show iprop(StableHlo.held (c : Thread nD τ) (Pipeline.ucRefs τ sig) (W3 m c) ∗ R c) ⊢ iprop(StableHlo.held (c : Thread nD τ) (Pipeline.ucRefs τ sig) (Gen.V3 m (outs m) c) ∗ R c) from by rw [V3_eq]),
      .rfl, .rfl,
      sep_mono .rfl (by iintro ⟨-, H⟩; iexact H)⟩)
    (hinit := by
      refine Pipeline.initEach L lv fun c => ?_
      rw [show unscopedBufs c (fun b => m ((c : Thread nD τ).loc b)) = StableHlo.held (c : Thread nD τ) (Pipeline.ucRefs τ sig) (Gen.V0 m c)
        from Pipeline.unscopedBufs_held c (Gen.V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = Gen.V6 m (outs m) c b)
    (hfin := fun c s' => by
      iintro ⟨Hh, HSI⟩
      unfold StableHlo.held
      imodintro
      iapply (pointsTo_read_all (Pipeline.ucRefs τ sig) (fun b => (((c : Thread nD τ)).1, b)) (Gen.V6 m (outs m) c) s')
      isplitl [Hh] <;> iassumption)
    (hQ := fun s h c => h c)

end Run

end Cert.Kernel.Hand

end
-- ==== Proof.K.Body0.lean ====
/-
  The body obligation of call 0: at every point of its grid the body, handed the two argument tiles a, b in its
  input buffers, leaves the product a·b (in the narrow format) in the first output buffer and the column of the
  rows' sums of squares of that product in the second; the input buffers are read only, the invariant and what the
  core owes pass through untouched.
-/
import proofs.«126033_j28338194219418_2_alg».proof.Proof.K.Data
import Idealize.ShloMosaic.Lib.Pipeline.Value

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- the core's buffer contents when a call is entered
variable (V : (c : Dev nD) → (b : Ref sig .tc) → Buf (Elt F) ((c : Thread nD τ).loc b))

/-! ## What the body finds in the two input buffers -/

/-- An input's current buffer holds its block at every point, fetched there or not. -/
theorem before0_0 (c : Dev nD) (t : Fin cfg0.N) (d) : (dat0 V c).before 0 t d = iblk0 V c 0 t :=
  ((dat0 V c).before_in_eq_fetched 0 rfl (fun _ => rfl) (fun _ _ _ => rfl)
      (fun t => by rw [after0_0]; unfold Dat.blockOf iblk0; rw [A_eq0]; try rfl) t d).trans
    (by unfold Dat.fetched Dat.blockOf iblk0; rw [A_eq0]; try rfl)

theorem before0_1 (c : Dev nD) (t : Fin cfg0.N) (d) : (dat0 V c).before 1 t d = iblk0 V c 1 t :=
  ((dat0 V c).before_in_eq_fetched 1 rfl (fun _ => rfl) (fun _ _ _ => rfl)
      (fun t => by rw [after0_1]; unfold Dat.blockOf iblk0; rw [A_eq0]; try rfl) t d).trans
    (by unfold Dat.fetched Dat.blockOf iblk0; rw [A_eq0]; try rfl)

/-! ## The body's triple -/

/-- The offsets of every access of the body are zero. -/
theorem zero_offsets : (![0, 0] : Fin 2 → Nat) = fun _ => 0 := funext fun a => by fin_cases a <;> rfl

/-- One store through the whole-shape rectangle at zero offsets leaves its payload, whatever the buffer held. -/
theorem read_write_unit_zero {sg : RefSig} {κ : Kind} {sp : Space} {S : Shape} {e : EltTy} {Val : EltTy → Type}
    [∀ e, Nonempty (Val e)] (v : View sg κ sp S e) (f : v.ty.Contents Val) {off : Fin S.rank → Nat}
    (h : off = fun _ => 0) (inb : ∀ a, off a + S.size a ≤ S.size a) (w : S.Idx → Val e) :
    v.read Val (v.writes Val f [(⟨Rect.unit off S.size inb, w⟩ : View.Piece Val S e)]) = w := by
  rw [View.read_writes_eq_canon _ _ _ (fun y => ⟨_, List.mem_singleton_self _, View.mem_set_unit_zero h inb y⟩),
    View.canon_unit_zero h]

set_option maxHeartbeats 1000000 in
/-- The body on whole buffers, the inputs' at contents `x0`, `x1` and the outputs' at anything, runs to the
    continuation holding the inputs' as they were, the first output's at the narrowed product and the second's at
    the column of sums of squares: every load reads a whole buffer and every store fills one. -/
theorem sound_kernel0 (c : Dev nD) (E : Set ℕ) (i : grid0.Coords)
    (arg1 : Memref sig .tc .vmem S1024x512 .f32) (harg1 : arg1.IsWhole)
    (arg2 : Memref sig .tc .vmem S1024x512 .f32) (harg2 : arg2.IsWhole)
    (arg3 : Memref sig .tc .vmem S1024x512 .bf16) (harg3 : arg3.IsWhole)
    (arg4 : Memref sig .tc .vmem S1024x1 .f32) (harg4 : arg4.IsWhole)
    (x0 x1 : Vec F S1024x512 .f32) (K : PUnit → sProp 𝕄) :
    iprop(owns (c : Thread nD τ) arg1 fullShare x0 ∗ owns (c : Thread nD τ) arg2 fullShare x1
        ∗ (∃ d, owns (c : Thread nD τ) arg3 fullShare d) ∗ (∃ d, owns (c : Thread nD τ) arg4 fullShare d)
        ∗ (iprop(owns (c : Thread nD τ) arg1 fullShare x0 ∗ owns (c : Thread nD τ) arg2 fullShare x1
            ∗ owns (c : Thread nD τ) arg3 fullShare (k0_pay1 x0 x1)
            ∗ owns (c : Thread nD τ) arg4 fullShare (k0_pay2 x0 x1)) -∗ K ⟨⟩))
      ⊢ wp frame (wpE (defs₀ (F := F)) Variants.none c none) E (cc0__preprocess_kernel i arg1 harg1 arg2 harg2 arg3 harg3 arg4 harg4) K := by
  simp only [cc0__preprocess_kernel_eq_skeleton]; unfold cc0__preprocess_kernel_skel
  unfold owns
  iintro ⟨⟨%f0, %hf0, H0⟩, ⟨%f1, %hf1, H1⟩, ⟨%d2, %f2, -, H2⟩, ⟨%d3, %f3, -, H3⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    rw [read_write_unit_zero _ _ zero_offsets]
    simp only [View.readAt_eq_ld, View.ld_unit_zero (S := S1024x512) zero_offsets]
  iexists _; isplitr
  swap; · iexact H3
  ipureintro
  rw [read_write_unit_zero _ _ zero_offsets]
  simp only [View.readAt_eq_ld, View.ld_unit_zero (S := S1024x512) zero_offsets]

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' buffers hold their blocks, so the body's triple applies; the invariant and
    what the core owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) _)
  isplitl [H0]; · iexact H0
  isplitl [H1]; · iexact H1
  isplitl [H2]; · iexists _; iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation of call 0, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.K.Body1.lean ====
/-
  The body obligation of call 1. At the point with row tile i and column tile j the body folds the tile's masked
  row maxima and minima into the two carried columns — first re-starting them at −∞ and +∞ where j = 0 — and, where
  j = 7, writes √(max ε (sq_i + carried)) of each into the two outputs; elsewhere the outputs' buffers are handed
  back as found. Three cases by the column tile: j = 0, 0 < j < 7, j = 7.
-/
import proofs.«126033_j28338194219418_2_alg».proof.Proof.K.Body0

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- the core's buffer contents when a call is entered
variable (V : (c : Dev nD) → (b : Ref sig .tc) → Buf (Elt F) ((c : Thread nD τ).loc b))

/-! ## The body's two conditions, in closed form over the grid -/

/-- The condition under which the carried columns are re-started (the column tile is the first). -/
abbrev cond1 (i : grid1.Coords) : Prop := (Scalar.cmpi .ne (Scalar.extui (Scalar.cmpi .eq (BitVec.ofNat 32 (i 1).val) 0#32)) 0#32) = 1#1
theorem hcond1 : ∀ t : Fin cfg1.N, cond1 (grid1.coords t) ↔ t.val % 8 = 0 :=
  (by decide +kernel : ∀ t : Fin grid1.N, cond1 (grid1.coords t) ↔ t.val % 8 = 0)

/-- The condition under which the outputs are written (the column tile is the last). -/
abbrev cond2 (i : grid1.Coords) : Prop := k1_cond2 i = 1#1
theorem hcond2 : ∀ t : Fin cfg1.N, cond2 (grid1.coords t) ↔ t.val % 8 = 7 :=
  (by decide +kernel : ∀ t : Fin grid1.N, cond2 (grid1.coords t) ↔ t.val % 8 = 7)

/-! ## The body's triple, case by case -/

/-- A store through the whole-shape rectangle at zero offsets, LAST, leaves its payload whatever came before. -/
theorem read_writes_cons_unit_zero {sg : RefSig} {κ : Kind} {sp : Space} {S : Shape} {e : EltTy} {Val : EltTy → Type}
    [∀ e, Nonempty (Val e)] (v : View sg κ sp S e) (f : v.ty.Contents Val) {off : Fin S.rank → Nat}
    (h : off = fun _ => 0) (inb : ∀ a, off a + S.size a ≤ S.size a) (w : S.Idx → Val e) (L : List (View.Piece Val S e)) :
    v.read Val (v.writes Val f ((⟨Rect.unit off S.size inb, w⟩ : View.Piece Val S e) :: L)) = w := by
  rw [View.read_writes_eq_canon _ _ _ (fun y => ⟨_, List.mem_cons_self, View.mem_set_unit_zero h inb y⟩),
    View.canon_cons_unit_zero h]

set_option maxHeartbeats 1000000 in
/-- First column tile: the two carried columns, whatever they held, are re-started at −∞ and +∞ and the tile folded
    in; the outputs' buffers are untouched. -/
theorem sound_kernel1_first (c : Dev nD) (E : Set ℕ) (i : grid1.Coords)
    (arg2 : Memref sig .tc .vmem S1024x512 .bf16) (harg2 : arg2.IsWhole)
    (arg3 : Memref sig .tc .vmem S1024x512 .bf16) (harg3 : arg3.IsWhole)
    (arg4 : Memref sig .tc .vmem S1024x1 .f32) (harg4 : arg4.IsWhole)
    (arg5 : Memref sig .tc .vmem S1x1024 .f32) (harg5 : arg5.IsWhole)
    (arg6 : Memref sig .tc .vmem S1024x1 .i32) (harg6 : arg6.IsWhole)
    (arg7 : Memref sig .tc .vmem S1x1024 .i32) (harg7 : arg7.IsWhole)
    (arg8 : Memref sig .tc .vmem S1024x1 .f32) (harg8 : arg8.IsWhole)
    (arg9 : Memref sig .tc .vmem S1024x1 .f32) (harg9 : arg9.IsWhole)
    (arg10 : Memref sig .tc .vmem S1024x1 .f32) (harg10 : arg10.IsWhole)
    (arg11 : Memref sig .tc .vmem S1024x1 .f32) (harg11 : arg11.IsWhole)
    (hc1 : cond1 i) (hc2 : ¬cond2 i)
    (x0 x1 : Vec F S1024x512 .bf16) (x2 : Vec F S1024x1 .f32) (x3 : Vec F S1x1024 .f32) (x4 : Vec F S1024x1 .i32) (x5 : Vec F S1x1024 .i32)
    (xi6 xi7 : Vec F S1024x1 .f32) (K : PUnit → sProp 𝕄) :
    iprop(owns (c : Thread nD τ) arg2 fullShare x0 ∗ owns (c : Thread nD τ) arg3 fullShare x1
        ∗ owns (c : Thread nD τ) arg4 fullShare x2 ∗ owns (c : Thread nD τ) arg5 fullShare x3
        ∗ owns (c : Thread nD τ) arg6 fullShare x4 ∗ owns (c : Thread nD τ) arg7 fullShare x5
        ∗ owns (c : Thread nD τ) arg8 fullShare xi6 ∗ owns (c : Thread nD τ) arg9 fullShare xi7
        ∗ (∃ d, owns (c : Thread nD τ) arg10 fullShare d) ∗ (∃ d, owns (c : Thread nD τ) arg11 fullShare d)
        ∗ (iprop(owns (c : Thread nD τ) arg2 fullShare x0 ∗ owns (c : Thread nD τ) arg3 fullShare x1
        ∗ owns (c : Thread nD τ) arg4 fullShare x2 ∗ owns (c : Thread nD τ) arg5 fullShare x3
        ∗ owns (c : Thread nD τ) arg6 fullShare x4 ∗ owns (c : Thread nD τ) arg7 fullShare x5
            ∗ owns (c : Thread nD τ) arg8 fullShare xi6 ∗ owns (c : Thread nD τ) arg9 fullShare xi7
            ∗ owns (c : Thread nD τ) arg10 fullShare (k1_pay10 x0 x1 x3 x4 x5 k1_pay5)
            ∗ owns (c : Thread nD τ) arg11 fullShare (k1_pay1 (k1_pay9 x0 x1 x3 x4 x5) k1_pay6)) -∗ K ⟨⟩))
      ⊢ wp frame (wpE (defs₀ (F := F)) Variants.none c none) E (cc1__pairwise_kernel i arg2 harg2 arg3 harg3 arg4 harg4 arg5 harg5 arg6 harg6 arg7 harg7 arg8 harg8 arg9 harg9 arg10 harg10 arg11 harg11) K := by
  simp only [cc1__pairwise_kernel_eq_skeleton]; unfold cc1__pairwise_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d10, %g0, -, S0⟩, ⟨%d11, %g1, -, S1⟩, Hk⟩
  subst hf0; subst hf1; subst hf2; subst hf3; subst hf4; subst hf5; subst hf6; subst hf7
  sl_exec (disch := first | exact hc1 | exact hc2)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [S0]
  · iexists _; isplitr
    swap; · iexact S0
    ipureintro
    try sl_unfold_run_names
    rw [read_writes_cons_unit_zero _ _ zero_offsets]
    simp only [View.readAt_eq_ld, View.ld_unit_zero (S := S1024x512) zero_offsets, View.ld_unit_zero (S := S1x1024) zero_offsets,
      View.ld_unit_zero (S := S1024x1) zero_offsets, View.readCov_unit_zero (S := S1024x1) _ zero_offsets]
  iexists _; isplitr
  swap; · iexact S1
  ipureintro
  try sl_unfold_run_names
  rw [read_writes_cons_unit_zero _ _ zero_offsets]
  simp only [View.readAt_eq_ld, View.ld_unit_zero (S := S1024x512) zero_offsets, View.ld_unit_zero (S := S1x1024) zero_offsets,
      View.ld_unit_zero (S := S1024x1) zero_offsets, View.readCov_unit_zero (S := S1024x1) _ zero_offsets]

set_option maxHeartbeats 1000000 in
/-- A middle column tile: the tile is folded into the two carried columns; the outputs' buffers are untouched. -/
theorem sound_kernel1_mid (c : Dev nD) (E : Set ℕ) (i : grid1.Coords)
    (arg2 : Memref sig .tc .vmem S1024x512 .bf16) (harg2 : arg2.IsWhole)
    (arg3 : Memref sig .tc .vmem S1024x512 .bf16) (harg3 : arg3.IsWhole)
    (arg4 : Memref sig .tc .vmem S1024x1 .f32) (harg4 : arg4.IsWhole)
    (arg5 : Memref sig .tc .vmem S1x1024 .f32) (harg5 : arg5.IsWhole)
    (arg6 : Memref sig .tc .vmem S1024x1 .i32) (harg6 : arg6.IsWhole)
    (arg7 : Memref sig .tc .vmem S1x1024 .i32) (harg7 : arg7.IsWhole)
    (arg8 : Memref sig .tc .vmem S1024x1 .f32) (harg8 : arg8.IsWhole)
    (arg9 : Memref sig .tc .vmem S1024x1 .f32) (harg9 : arg9.IsWhole)
    (arg10 : Memref sig .tc .vmem S1024x1 .f32) (harg10 : arg10.IsWhole)
    (arg11 : Memref sig .tc .vmem S1024x1 .f32) (harg11 : arg11.IsWhole)
    (hc1 : ¬cond1 i) (hc2 : ¬cond2 i)
    (x0 x1 : Vec F S1024x512 .bf16) (x2 : Vec F S1024x1 .f32) (x3 : Vec F S1x1024 .f32) (x4 : Vec F S1024x1 .i32) (x5 : Vec F S1x1024 .i32)
    (xi6 xi7 s0 s1 : Vec F S1024x1 .f32) (K : PUnit → sProp 𝕄) :
    iprop(owns (c : Thread nD τ) arg2 fullShare x0 ∗ owns (c : Thread nD τ) arg3 fullShare x1
        ∗ owns (c : Thread nD τ) arg4 fullShare x2 ∗ owns (c : Thread nD τ) arg5 fullShare x3
        ∗ owns (c : Thread nD τ) arg6 fullShare x4 ∗ owns (c : Thread nD τ) arg7 fullShare x5
        ∗ owns (c : Thread nD τ) arg8 fullShare xi6 ∗ owns (c : Thread nD τ) arg9 fullShare xi7
        ∗ owns (c : Thread nD τ) arg10 fullShare s0 ∗ owns (c : Thread nD τ) arg11 fullShare s1
        ∗ (iprop(owns (c : Thread nD τ) arg2 fullShare x0 ∗ owns (c : Thread nD τ) arg3 fullShare x1
        ∗ owns (c : Thread nD τ) arg4 fullShare x2 ∗ owns (c : Thread nD τ) arg5 fullShare x3
        ∗ owns (c : Thread nD τ) arg6 fullShare x4 ∗ owns (c : Thread nD τ) arg7 fullShare x5
            ∗ owns (c : Thread nD τ) arg8 fullShare xi6 ∗ owns (c : Thread nD τ) arg9 fullShare xi7
            ∗ owns (c : Thread nD τ) arg10 fullShare (k1_pay10 x0 x1 x3 x4 x5 s0)
            ∗ owns (c : Thread nD τ) arg11 fullShare (k1_pay1 (k1_pay9 x0 x1 x3 x4 x5) s1)) -∗ K ⟨⟩))
      ⊢ wp frame (wpE (defs₀ (F := F)) Variants.none c none) E (cc1__pairwise_kernel i arg2 harg2 arg3 harg3 arg4 harg4 arg5 harg5 arg6 harg6 arg7 harg7 arg8 harg8 arg9 harg9 arg10 harg10 arg11 harg11) K := by
  simp only [cc1__pairwise_kernel_eq_skeleton]; unfold cc1__pairwise_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%g0, %hg0, S0⟩, ⟨%g1, %hg1, S1⟩, Hk⟩
  subst hf0; subst hf1; subst hf2; subst hf3; subst hf4; subst hf5; subst hf6; subst hf7; subst hg0; subst hg1
  sl_exec (disch := first | exact hc1 | exact hc2)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [S0]
  · iexists _; isplitr
    swap; · iexact S0
    ipureintro
    try sl_unfold_run_names
    rw [read_writes_cons_unit_zero _ _ zero_offsets]
    simp only [View.readAt_eq_ld, View.ld_unit_zero (S := S1024x512) zero_offsets, View.ld_unit_zero (S := S1x1024) zero_offsets,
      View.ld_unit_zero (S := S1024x1) zero_offsets, View.readCov_unit_zero (S := S1024x1) _ zero_offsets]
  iexists _; isplitr
  swap; · iexact S1
  ipureintro
  try sl_unfold_run_names
  rw [read_writes_cons_unit_zero _ _ zero_offsets]
  simp only [View.readAt_eq_ld, View.ld_unit_zero (S := S1024x512) zero_offsets, View.ld_unit_zero (S := S1x1024) zero_offsets,
      View.ld_unit_zero (S := S1024x1) zero_offsets, View.readCov_unit_zero (S := S1024x1) _ zero_offsets]

set_option maxHeartbeats 1000000 in
/-- Last column tile: the tile is folded into the two carried columns, and each output gets √(max ε (sq_i + column)). -/
theorem sound_kernel1_last (c : Dev nD) (E : Set ℕ) (i : grid1.Coords)
    (arg2 : Memref sig .tc .vmem S1024x512 .bf16) (harg2 : arg2.IsWhole)
    (arg3 : Memref sig .tc .vmem S1024x512 .bf16) (harg3 : arg3.IsWhole)
    (arg4 : Memref sig .tc .vmem S1024x1 .f32) (harg4 : arg4.IsWhole)
    (arg5 : Memref sig .tc .vmem S1x1024 .f32) (harg5 : arg5.IsWhole)
    (arg6 : Memref sig .tc .vmem S1024x1 .i32) (harg6 : arg6.IsWhole)
    (arg7 : Memref sig .tc .vmem S1x1024 .i32) (harg7 : arg7.IsWhole)
    (arg8 : Memref sig .tc .vmem S1024x1 .f32) (harg8 : arg8.IsWhole)
    (arg9 : Memref sig .tc .vmem S1024x1 .f32) (harg9 : arg9.IsWhole)
    (arg10 : Memref sig .tc .vmem S1024x1 .f32) (harg10 : arg10.IsWhole)
    (arg11 : Memref sig .tc .vmem S1024x1 .f32) (harg11 : arg11.IsWhole)
    (hc1 : ¬cond1 i) (hc2 : cond2 i)
    (x0 x1 : Vec F S1024x512 .bf16) (x2 : Vec F S1024x1 .f32) (x3 : Vec F S1x1024 .f32) (x4 : Vec F S1024x1 .i32) (x5 : Vec F S1x1024 .i32)
    (s0 s1 : Vec F S1024x1 .f32) (K : PUnit → sProp 𝕄) :
    iprop(owns (c : Thread nD τ) arg2 fullShare x0 ∗ owns (c : Thread nD τ) arg3 fullShare x1
        ∗ owns (c : Thread nD τ) arg4 fullShare x2 ∗ owns (c : Thread nD τ) arg5 fullShare x3
        ∗ owns (c : Thread nD τ) arg6 fullShare x4 ∗ owns (c : Thread nD τ) arg7 fullShare x5
        ∗ (∃ d, owns (c : Thread nD τ) arg8 fullShare d) ∗ (∃ d, owns (c : Thread nD τ) arg9 fullShare d)
        ∗ owns (c : Thread nD τ) arg10 fullShare s0 ∗ owns (c : Thread nD τ) arg11 fullShare s1
        ∗ (iprop(owns (c : Thread nD τ) arg2 fullShare x0 ∗ owns (c : Thread nD τ) arg3 fullShare x1
        ∗ owns (c : Thread nD τ) arg4 fullShare x2 ∗ owns (c : Thread nD τ) arg5 fullShare x3
        ∗ owns (c : Thread nD τ) arg6 fullShare x4 ∗ owns (c : Thread nD τ) arg7 fullShare x5
            ∗ owns (c : Thread nD τ) arg8 fullShare (k1_pay3 x2 (k1_pay10 x0 x1 x3 x4 x5 s0))
            ∗ owns (c : Thread nD τ) arg9 fullShare (k1_pay4 x2 (k1_pay1 (k1_pay9 x0 x1 x3 x4 x5) s1))
            ∗ owns (c : Thread nD τ) arg10 fullShare (k1_pay10 x0 x1 x3 x4 x5 s0)
            ∗ owns (c : Thread nD τ) arg11 fullShare (k1_pay1 (k1_pay9 x0 x1 x3 x4 x5) s1)) -∗ K ⟨⟩))
      ⊢ wp frame (wpE (defs₀ (F := F)) Variants.none c none) E (cc1__pairwise_kernel i arg2 harg2 arg3 harg3 arg4 harg4 arg5 harg5 arg6 harg6 arg7 harg7 arg8 harg8 arg9 harg9 arg10 harg10 arg11 harg11) K := by
  simp only [cc1__pairwise_kernel_eq_skeleton]; unfold cc1__pairwise_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%g0, %hg0, S0⟩, ⟨%g1, %hg1, S1⟩, Hk⟩
  subst hf0; subst hf1; subst hf2; subst hf3; subst hf4; subst hf5; subst hg0; subst hg1
  sl_exec (disch := first | exact hc1 | exact hc2)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    try sl_unfold_run_names
    rw [read_writes_cons_unit_zero _ _ zero_offsets]
    simp only [View.readAt_eq_ld, View.ld_unit_zero (S := S1024x512) zero_offsets, View.ld_unit_zero (S := S1x1024) zero_offsets,
      View.ld_unit_zero (S := S1024x1) zero_offsets, View.readCov_unit_zero (S := S1024x1) _ zero_offsets]
  isplitl [H7]
  · iexists _; isplitr
    swap; · iexact H7
    ipureintro
    try sl_unfold_run_names
    rw [read_writes_cons_unit_zero _ _ zero_offsets]
    simp only [View.readAt_eq_ld, View.ld_unit_zero (S := S1024x512) zero_offsets, View.ld_unit_zero (S := S1x1024) zero_offsets,
      View.ld_unit_zero (S := S1024x1) zero_offsets, View.readCov_unit_zero (S := S1024x1) _ zero_offsets]
  isplitl [S0]
  · iexists _; isplitr
    swap; · iexact S0
    ipureintro
    try sl_unfold_run_names
    rw [read_writes_cons_unit_zero _ _ zero_offsets]
    simp only [View.readAt_eq_ld, View.ld_unit_zero (S := S1024x512) zero_offsets, View.ld_unit_zero (S := S1x1024) zero_offsets,
      View.ld_unit_zero (S := S1024x1) zero_offsets, View.readCov_unit_zero (S := S1024x1) _ zero_offsets]
  iexists _; isplitr
  swap; · iexact S1
  ipureintro
  try sl_unfold_run_names
  rw [read_writes_cons_unit_zero _ _ zero_offsets]
  simp only [View.readAt_eq_ld, View.ld_unit_zero (S := S1024x512) zero_offsets, View.ld_unit_zero (S := S1x1024) zero_offsets,
      View.ld_unit_zero (S := S1024x1) zero_offsets, View.readCov_unit_zero (S := S1024x1) _ zero_offsets]

/-! ## What the body finds in the six input buffers -/

/-- An input's current buffer holds its block at every point, fetched there or not (a block not fetched at a point
    is the block of the point before: its index has not moved). -/
theorem before1_0 (c : Dev nD) (t : Fin cfg1.N) (d) : (dat1 V c).before 0 t d = iblk1 V c 0 t :=
  ((dat1 V c).before_in_eq_fetched 0 rfl (fun _ => rfl) (fun _ _ _ => rfl)
      (fun t => by rw [after1_0]; unfold Dat.blockOf iblk1; rw [A_eq1]; try rfl) t d).trans
    (by unfold Dat.fetched Dat.blockOf iblk1; rw [A_eq1]; try rfl)

theorem before1_1 (c : Dev nD) (t : Fin cfg1.N) (d) : (dat1 V c).before 1 t d = iblk1 V c 1 t :=
  ((dat1 V c).before_in_eq_fetched 1 rfl (fun _ => rfl) (fun _ _ _ => rfl)
      (fun t => by rw [after1_1]; unfold Dat.blockOf iblk1; rw [A_eq1]; try rfl) t d).trans
    (by unfold Dat.fetched Dat.blockOf iblk1; rw [A_eq1]; try rfl)

theorem before1_2 (c : Dev nD) (t : Fin cfg1.N) (d) : (dat1 V c).before 2 t d = iblk1 V c 2 t :=
  ((dat1 V c).before_in_eq_fetched 2 rfl (fun _ => rfl) (fun _ _ _ => rfl)
      (fun t => by rw [after1_2]; unfold Dat.blockOf iblk1; rw [A_eq1]; try rfl) t d).trans
    (by unfold Dat.fetched Dat.blockOf iblk1; rw [A_eq1]; try rfl)

theorem before1_3 (c : Dev nD) (t : Fin cfg1.N) (d) : (dat1 V c).before 3 t d = iblk1 V c 3 t :=
  ((dat1 V c).before_in_eq_fetched 3 rfl (fun _ => rfl) (fun _ _ _ => rfl)
      (fun t => by rw [after1_3]; unfold Dat.blockOf iblk1; rw [A_eq1]; try rfl) t d).trans
    (by unfold Dat.fetched Dat.blockOf iblk1; rw [A_eq1]; try rfl)

theorem before1_4 (c : Dev nD) (t : Fin cfg1.N) (d) : (dat1 V c).before 4 t d = iblk1 V c 4 t :=
  ((dat1 V c).before_in_eq_fetched 4 rfl (fun _ => rfl) (fun _ _ _ => rfl)
      (fun t => by rw [after1_4]; unfold Dat.blockOf iblk1; rw [A_eq1]; try rfl) t d).trans
    (by unfold Dat.fetched Dat.blockOf iblk1; rw [A_eq1]; try rfl)

theorem before1_5 (c : Dev nD) (t : Fin cfg1.N) (d) : (dat1 V c).before 5 t d = iblk1 V c 5 t :=
  ((dat1 V c).before_in_eq_fetched 5 rfl (fun _ => rfl) (fun _ _ _ => rfl)
      (fun t => by rw [after1_5]; unfold Dat.blockOf iblk1; rw [A_eq1]; try rfl) t d).trans
    (by unfold Dat.fetched Dat.blockOf iblk1; rw [A_eq1]; try rfl)

/-! ## Where the two outputs are idle -/

/-- Away from the last column tile the outputs are idle and not written back; at it they are live. -/
theorem idleAt1_6 : ∀ t : Fin cfg1.N, ¬cond2 (grid1.coords t) → cfg1.idle 6 (grid1.coords t) = true := by decide +kernel
theorem idleAt1_7 : ∀ t : Fin cfg1.N, ¬cond2 (grid1.coords t) → cfg1.idle 7 (grid1.coords t) = true := by decide +kernel
theorem noFlush1_6 : ∀ t : Fin cfg1.N, ¬cond2 (grid1.coords t) → (cfg1.win 6).flush t = false := by decide +kernel
theorem noFlush1_7 : ∀ t : Fin cfg1.N, ¬cond2 (grid1.coords t) → (cfg1.win 7).flush t = false := by decide +kernel
theorem liveAt1_6 : ∀ t : Fin cfg1.N, cond2 (grid1.coords t) → cfg1.idle 6 (grid1.coords t) = false := by decide +kernel
theorem liveAt1_7 : ∀ t : Fin cfg1.N, cond2 (grid1.coords t) → cfg1.idle 7 (grid1.coords t) = false := by decide +kernel

/-! ## The carried columns, one step unrolled -/

theorem accMax_first (c : Dev nD) (t : Fin cfg1.N) (h0 : t.val % 8 = 0) :
    accMax V c t.val t.isLt = k1_pay10 (iblk1 V c 0 t) (iblk1 V c 1 t) (iblk1 V c 3 t) (iblk1 V c 4 t) (iblk1 V c 5 t) k1_pay5 := by
  obtain ⟨n, hn⟩ := t
  cases n with
  | zero => rfl
  | succ n => exact congrArg (k1_pay10 _ _ _ _ _) (if_pos h0)

theorem accMax_next (c : Dev nD) (t : Fin cfg1.N) (h0 : t.val % 8 ≠ 0) :
    accMax V c t.val t.isLt = k1_pay10 (iblk1 V c 0 t) (iblk1 V c 1 t) (iblk1 V c 3 t) (iblk1 V c 4 t) (iblk1 V c 5 t)
      (accMax V c (t.val - 1) (Nat.lt_of_le_of_lt (Nat.sub_le _ _) t.isLt)) := by
  obtain ⟨n, hn⟩ := t
  cases n with
  | zero => exact absurd (Nat.zero_mod 8) h0
  | succ n => exact congrArg (k1_pay10 _ _ _ _ _) (if_neg h0)

theorem accMin_first (c : Dev nD) (t : Fin cfg1.N) (h0 : t.val % 8 = 0) :
    accMin V c t.val t.isLt = k1_pay1 (k1_pay9 (iblk1 V c 0 t) (iblk1 V c 1 t) (iblk1 V c 3 t) (iblk1 V c 4 t) (iblk1 V c 5 t)) k1_pay6 := by
  obtain ⟨n, hn⟩ := t
  cases n with
  | zero => rfl
  | succ n => exact congrArg (k1_pay1 _) (if_pos h0)

theorem accMin_next (c : Dev nD) (t : Fin cfg1.N) (h0 : t.val % 8 ≠ 0) :
    accMin V c t.val t.isLt = k1_pay1 (k1_pay9 (iblk1 V c 0 t) (iblk1 V c 1 t) (iblk1 V c 3 t) (iblk1 V c 4 t) (iblk1 V c 5 t))
      (accMin V c (t.val - 1) (Nat.lt_of_le_of_lt (Nat.sub_le _ _) t.isLt)) := by
  obtain ⟨n, hn⟩ := t
  cases n with
  | zero => exact absurd (Nat.zero_mod 8) h0
  | succ n => exact congrArg (k1_pay1 _) (if_neg h0)

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d)))

/-- and what it returns: every input's buffer as found; an output's at what the body stored, or as found where the
    output is idle. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t
    ∗ (dat1 V c).leavesExact 6 t
    ∗ (dat1 V c).leavesExact 7 t)

/-- An input is never idle: its buffer is left at its block. -/
theorem leaves1_0 (c : Dev nD) (t : Fin cfg1.N) :
    (dat1 V c).leavesExact 0 t = owns (c : Thread nD τ) (st1_0 t) fullShare (iblk1 V c 0 t) := by
  unfold Dat.leavesExact; rw [show cfg1.idle 0 (cfg1.grid.coords t) = false from rfl, after1_0]

theorem leaves1_1 (c : Dev nD) (t : Fin cfg1.N) :
    (dat1 V c).leavesExact 1 t = owns (c : Thread nD τ) (st1_1 t) fullShare (iblk1 V c 1 t) := by
  unfold Dat.leavesExact; rw [show cfg1.idle 1 (cfg1.grid.coords t) = false from rfl, after1_1]

theorem leaves1_2 (c : Dev nD) (t : Fin cfg1.N) :
    (dat1 V c).leavesExact 2 t = owns (c : Thread nD τ) (st1_2 t) fullShare (iblk1 V c 2 t) := by
  unfold Dat.leavesExact; rw [show cfg1.idle 2 (cfg1.grid.coords t) = false from rfl, after1_2]

theorem leaves1_3 (c : Dev nD) (t : Fin cfg1.N) :
    (dat1 V c).leavesExact 3 t = owns (c : Thread nD τ) (st1_3 t) fullShare (iblk1 V c 3 t) := by
  unfold Dat.leavesExact; rw [show cfg1.idle 3 (cfg1.grid.coords t) = false from rfl, after1_3]

theorem leaves1_4 (c : Dev nD) (t : Fin cfg1.N) :
    (dat1 V c).leavesExact 4 t = owns (c : Thread nD τ) (st1_4 t) fullShare (iblk1 V c 4 t) := by
  unfold Dat.leavesExact; rw [show cfg1.idle 4 (cfg1.grid.coords t) = false from rfl, after1_4]

theorem leaves1_5 (c : Dev nD) (t : Fin cfg1.N) :
    (dat1 V c).leavesExact 5 t = owns (c : Thread nD τ) (st1_5 t) fullShare (iblk1 V c 5 t) := by
  unfold Dat.leavesExact; rw [show cfg1.idle 5 (cfg1.grid.coords t) = false from rfl, after1_5]

theorem Phi1_castSucc (c : Dev nD) (t : Fin cfg1.N) : (dat1 V c).Φ t.castSucc = Phi1 V c t.val (Nat.le_of_lt t.isLt) := rfl
theorem Phi1_succ (c : Dev nD) (t : Fin cfg1.N) : (dat1 V c).Φ t.succ = Phi1 V c (t.val + 1) t.isLt := rfl

set_option maxHeartbeats 4000000 in
/-- The body at any point: the inputs' buffers hold their blocks; the point's column tile says which case it is in;
    the invariant hands the body the two carried columns — at what the point before left unless the column tile is
    the first, where they are re-started — and takes them back at this point's; the other scoped buffers, the
    generator register and what the core owes pass through untouched. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5]
  rw [show (dat1 V c).owesAt () t.succ = (dat1 V c).owesAt () t.castSucc from rfl,
    Phi1_castSucc, Phi1_succ, leaves1_0, leaves1_1, leaves1_2, leaves1_3, leaves1_4, leaves1_5]
  have hN : t.val < 64 := lt_of_lt_of_eq t.isLt (show cfg1.N = 64 from N_1)
  by_cases h0 : t.val % 8 = 0
  · have h7 : ¬t.val % 8 = 7 := by omega
    have hc1 : cond1 (grid1.coords t) := (hcond1 t).mpr h0
    have hc2 : ¬cond2 (grid1.coords t) := fun h => h7 ((hcond2 t).mp h)
    rw [Dat.leavesExact_idle (dat1 V c) 6 t (idleAt1_6 t hc2) (noFlush1_6 t hc2),
      Dat.leavesExact_idle (dat1 V c) 7 t (idleAt1_7 t hc2) (noFlush1_7 t hc2)]
    unfold Phi1
    iintro ⟨⟨%f0, %f1, -, S0, S1, Hr, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply (sound_kernel1_first c Set.univ (grid1.coords t) _ _ _ _ _ _ _ _ _ _ _ _ _ _ _ _ _ _ _ _ hc1 hc2
      (iblk1 V c 0 t) (iblk1 V c 1 t) (iblk1 V c 2 t) (iblk1 V c 3 t) (iblk1 V c 4 t) (iblk1 V c 5 t)
      ((dat1 V c).before 6 t d6) ((dat1 V c).before 7 t d7) _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [S0]; · iexists _; iexact S0
    isplitl [S1]; · iexists _; iexact S1
    iintro ⟨H0, H1, H2, H3, H4, H5, H6, H7, S0, S1⟩
    isplitl [S0 S1 Hr Hg]
    · iexists _; iexists _
      isplitr
      swap
      · isplitl [S0]; · iexact S0
        isplitl [S1]; · iexact S1
        isplitl [Hr]; · iexact Hr
        iexact Hg
      ipureintro; intro _
      exact ⟨(accMax_first V c t h0).symm, (accMin_first V c t h0).symm⟩
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexists d6; iexact H6
    iexists d7; iexact H7
  · have hc1 : ¬cond1 (grid1.coords t) := fun h => h0 ((hcond1 t).mp h)
    by_cases h7 : t.val % 8 = 7
    · have hc2 : cond2 (grid1.coords t) := (hcond2 t).mpr h7
      rw [show (dat1 V c).leavesExact 6 t = owns (c : Thread nD τ) (st1_6 t) fullShare ((dat1 V c).after 6 t) from by
          unfold Dat.leavesExact; rw [liveAt1_6 t hc2],
        show (dat1 V c).leavesExact 7 t = owns (c : Thread nD τ) (st1_7 t) fullShare ((dat1 V c).after 7 t) from by
          unfold Dat.leavesExact; rw [liveAt1_7 t hc2],
        after1_6, after1_7, accMax_next V c t h0, accMin_next V c t h0]
      unfold Phi1
      iintro ⟨⟨%f0, %f1, %hf, S0, S1, Hr, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      obtain ⟨rfl, rfl⟩ := hf h0
      iapply (sound_kernel1_last c Set.univ (grid1.coords t) _ _ _ _ _ _ _ _ _ _ _ _ _ _ _ _ _ _ _ _ hc1 hc2
        (iblk1 V c 0 t) (iblk1 V c 1 t) (iblk1 V c 2 t) (iblk1 V c 3 t) (iblk1 V c 4 t) (iblk1 V c 5 t) _ _ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [H7]; · iexists _; iexact H7
      isplitl [S0]; · iexact S0
      isplitl [S1]; · iexact S1
      iintro ⟨H0, H1, H2, H3, H4, H5, H6, H7, S0, S1⟩
      isplitl [S0 S1 Hr Hg]
      · iexists _; iexists _
        isplitr
        swap
        · isplitl [S0]; · iexact S0
          isplitl [S1]; · iexact S1
          isplitl [Hr]; · iexact Hr
          iexact Hg
        ipureintro; intro _
        exact ⟨(accMax_next V c t h0).symm, (accMin_next V c t h0).symm⟩
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexact H7
    · have hc2 : ¬cond2 (grid1.coords t) := fun h => h7 ((hcond2 t).mp h)
      rw [Dat.leavesExact_idle (dat1 V c) 6 t (idleAt1_6 t hc2) (noFlush1_6 t hc2),
        Dat.leavesExact_idle (dat1 V c) 7 t (idleAt1_7 t hc2) (noFlush1_7 t hc2)]
      unfold Phi1
      iintro ⟨⟨%f0, %f1, %hf, S0, S1, Hr, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      obtain ⟨rfl, rfl⟩ := hf h0
      iapply (sound_kernel1_mid c Set.univ (grid1.coords t) _ _ _ _ _ _ _ _ _ _ _ _ _ _ _ _ _ _ _ _ hc1 hc2
        (iblk1 V c 0 t) (iblk1 V c 1 t) (iblk1 V c 2 t) (iblk1 V c 3 t) (iblk1 V c 4 t) (iblk1 V c 5 t)
        ((dat1 V c).before 6 t d6) ((dat1 V c).before 7 t d7) _ _ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [S0]; · iexact S0
      isplitl [S1]; · iexact S1
      iintro ⟨H0, H1, H2, H3, H4, H5, H6, H7, S0, S1⟩
      isplitl [S0 S1 Hr Hg]
      · iexists _; iexists _
        isplitr
        swap
        · isplitl [S0]; · iexact S0
          isplitl [S1]; · iexact S1
          isplitl [Hr]; · iexact Hr
          iexact Hg
        ipureintro; intro _
        exact ⟨(accMax_next V c t h0).symm, (accMin_next V c t h0).symm⟩
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexists d6; iexact H6
      iexists d7; iexact H7

/-- The body obligation of call 1, at every point. -/
theorem body_obligation1 (c : Dev nD) : BodyObligation (dat1 (F := F) V c) (defs₀ (F := F)) Variants.none () Set.univ := fun t => by
  rw [bigSep_W1, bigSep_W1]
  exact sound_body1 V c t

/-! ## The invariant at the two ends of the call -/

/-- What the launch hands the call — the generator register and every scoped buffer that is no staging buffer of
    the call, each at some contents — is the invariant before the first point: the two carried columns are among
    those buffers, and before the first point nothing is said of what they hold. -/
theorem phi1_in (c : Dev nD) : iprop((∃ r, prngReg c r) ∗ Pipeline.scopedRest (Ix := Unit) (Name := ℕ) (U := UR sig nD τ) (Lvl := ℕ) (Val := Elt F) spec1 c) ⊢ (dat1 V c).Φ 0 := by
  rw [Phi1_eq, scopedRest1_eq]; unfold Phi1 rest1
  simp only [owns_whole]
  iintro ⟨Hg, A1, A2, A3, A4, A5, A6, A7, A8, ⟨%f0, S0⟩, ⟨%f1, S1⟩⟩
  iexists f0; iexists f1
  isplitr
  · ipureintro; intro h; exact absurd (Nat.zero_mod 8) h
  isplitl [S0]; · iexact S0
  isplitl [S1]; · iexact S1
  isplitr [Hg]
  · isplitl [A1]; · iexact A1
    isplitl [A2]; · iexact A2
    isplitl [A3]; · iexact A3
    isplitl [A4]; · iexact A4
    isplitl [A5]; · iexact A5
    isplitl [A6]; · iexact A6
    isplitl [A7]; · iexact A7
    iexact A8
  iexact Hg

/-- After the last point the invariant gives the same back: what the two carried columns hold is forgotten. -/
theorem phi1_out (c : Dev nD) : (dat1 V c).Φ (Fin.last cfg1.N) ⊢ iprop((∃ r, prngReg c r) ∗ Pipeline.scopedRest (Ix := Unit) (Name := ℕ) (U := UR sig nD τ) (Lvl := ℕ) (Val := Elt F) spec1 c) := by
  rw [Phi1_eq, scopedRest1_eq]; unfold Phi1 rest1
  simp only [owns_whole]
  iintro ⟨%f0, %f1, -, S0, S1, ⟨A1, A2, A3, A4, A5, A6, A7, A8⟩, Hg⟩
  isplitl [Hg]; · iexact Hg
  isplitl [A1]; · iexact A1
  isplitl [A2]; · iexact A2
  isplitl [A3]; · iexact A3
  isplitl [A4]; · iexact A4
  isplitl [A5]; · iexact A5
  isplitl [A6]; · iexact A6
  isplitl [A7]; · iexact A7
  isplitl [A8]; · iexact A8
  isplitl [S0]; · iexists f0; iexact S0
  iexists f1; iexact S1

end Cert.Kernel.Hand

end
-- ==== Proof.KI.Data.lean ====
/-
  The proof data of the two pipelined calls of the idealized kernel, at any float instance.

  Call 0 (eight row tiles of 1024 rows): from the tile's blocks a, b of the two argument arrays it leaves the
  product a·b (stored in the narrow format) and the column of the rows' sums of squares of that product.

  Call 1 (an 8 × 8 grid of row tiles i and column tiles j, j running fastest): at every point it folds the tile's
  masked row maxima and minima of  sq_j − 2·(x_i · x_jᵀ)  into two columns it carries from point to point, both
  re-started at j = 0; at j = 7 it writes  √(max ε (sq_i + carried))  for the two columns into its two outputs.
  The carried columns after point t are `accMax`, `accMin`, by recursion on the point.
-/
import proofs.«126033_j28338194219418_2_alg».proof.Proof.Gen.KernelIdeal.Launch
import proofs.«126033_j28338194219418_2_alg».proof.Proof.Gen.KernelIdeal.Skeleton
import proofs.«126033_j28338194219418_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 16384

noncomputable section

namespace Cert.KernelIdeal.Hand

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- the core's buffer contents when a call is entered
variable (V : (c : Dev nD) → (b : Ref sig .tc) → Buf (Elt F) ((c : Thread nD τ).loc b))

/-! ## Call 0 -/

/-- Window `w`'s block at point `t`, read off its array as the call finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Call 0's proof data: the inputs' buffers keep their blocks; output 2 gets the product of the two blocks, output 3
    the column of its rows' sums of squares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => k0_pay2 (iblk0 V c 0 t) (iblk0 V c 1 t)
    | ⟨3, _⟩ => k0_pay3 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = k0_pay2 (iblk0 V c 0 t) (iblk0 V c 1 t) := by dsimp only [dat0]
theorem after0_3 (c : Dev nD) (t : Fin cfg0.N) : (dat0 V c).after 3 t = k0_pay3 (iblk0 V c 0 t) (iblk0 V c 1 t) := by dsimp only [dat0]

/-! ## Call 1 -/

/-- Window `w`'s block at point `t`, read off its array as the call finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The carried column of maxima after the point at position `n`: re-started from −∞ where the column tile is the
    first (`n % 8 = 0`), else continued from the point before. -/
def accMax (c : Dev nD) : (n : ℕ) → n < cfg1.N → FVec F S1024x1 .f32
  | 0, h => k1_pay10 (iblk1 V c 0 ⟨0, h⟩) (iblk1 V c 1 ⟨0, h⟩) (iblk1 V c 3 ⟨0, h⟩) (iblk1 V c 4 ⟨0, h⟩) (iblk1 V c 5 ⟨0, h⟩) k1_pay5
  | n + 1, h => k1_pay10 (iblk1 V c 0 ⟨n + 1, h⟩) (iblk1 V c 1 ⟨n + 1, h⟩) (iblk1 V c 3 ⟨n + 1, h⟩) (iblk1 V c 4 ⟨n + 1, h⟩) (iblk1 V c 5 ⟨n + 1, h⟩)
      (if (n + 1) % 8 = 0 then k1_pay5 else accMax c n (Nat.lt_of_succ_lt h))

/-- The carried column of minima after the point at position `n`, likewise from +∞. -/
def accMin (c : Dev nD) : (n : ℕ) → n < cfg1.N → FVec F S1024x1 .f32
  | 0, h => k1_pay1 (k1_pay9 (iblk1 V c 0 ⟨0, h⟩) (iblk1 V c 1 ⟨0, h⟩) (iblk1 V c 3 ⟨0, h⟩) (iblk1 V c 4 ⟨0, h⟩) (iblk1 V c 5 ⟨0, h⟩)) k1_pay6
  | n + 1, h => k1_pay1 (k1_pay9 (iblk1 V c 0 ⟨n + 1, h⟩) (iblk1 V c 1 ⟨n + 1, h⟩) (iblk1 V c 3 ⟨n + 1, h⟩) (iblk1 V c 4 ⟨n + 1, h⟩) (iblk1 V c 5 ⟨n + 1, h⟩))
      (if (n + 1) % 8 = 0 then k1_pay6 else accMin c n (Nat.lt_of_succ_lt h))

/-- The scoped buffers call 1 neither stages nor carries (call 0's staging buffers), each at some contents. -/
def rest1 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f))

/-- Call 1's invariant before the point at position `n`: the two carried columns at some contents — where the point
    is not a first column tile, at what the point before left —, the other scoped buffers and the generator
    register at anything. -/
def Phi1 (c : Dev nD) (n : ℕ) (hn : n ≤ cfg1.N) : sProp 𝕄 :=
  iprop(∃ (f0 f1 : Vec F S1024x1 .f32),
    ⌜∀ (h0 : n % 8 ≠ 0), f0 = accMax V c (n - 1) (by have := N_1; omega) ∧ f1 = accMin V c (n - 1) (by have := N_1; omega)⌝
    ∗ owns (c : Thread nD τ) (Memref.whole cc1_scratch0) fullShare f0
    ∗ owns (c : Thread nD τ) (Memref.whole cc1_scratch1) fullShare f1
    ∗ rest1 c ∗ ∃ r, prngReg c r)

/-- Call 1's proof data: the six inputs' buffers keep their blocks; at a last column tile the two outputs get
    √(max ε (sq_i + carried)) of the two carried columns (elsewhere the outputs are idle and the field is not read).
    The shared array of windows 0 and 1 is held at the two halves of the full share. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => k1_pay3 (iblk1 V c 2 t) (accMax V c t.val t.isLt)
    | ⟨7, _⟩ => k1_pay4 (iblk1 V c 2 t) (accMin V c t.val t.isLt)
  Φ t := Phi1 V c t.val (Nat.le_of_lt_succ t.isLt)
  q w := match w with
    | ⟨0, _⟩ => fullShare.left
    | ⟨1, _⟩ => fullShare.right
    | ⟨2, _⟩ => fullShare
    | ⟨3, _⟩ => fullShare
    | ⟨4, _⟩ => fullShare
    | ⟨5, _⟩ => fullShare
    | ⟨6, _⟩ => fullShare
    | ⟨7, _⟩ => fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = k1_pay3 (iblk1 V c 2 t) (accMax V c t.val t.isLt) := by dsimp only [dat1]
theorem after1_7 (c : Dev nD) (t : Fin cfg1.N) : (dat1 V c).after 7 t = k1_pay4 (iblk1 V c 2 t) (accMin V c t.val t.isLt) := by dsimp only [dat1]
theorem Phi1_eq (c : Dev nD) (t : Fin (cfg1.N + 1)) : (dat1 V c).Φ t = Phi1 V c t.val (Nat.le_of_lt_succ t.isLt) := by dsimp only [dat1]
theorem share1_0 (c : Dev nD) : (dat1 V c).q 0 = fullShare.left := by dsimp only [dat1]
theorem share1_1 (c : Dev nD) : (dat1 V c).q 1 = fullShare.right := by dsimp only [dat1]

end Cert.KernelIdeal.Hand

end
-- ==== Proof.KI.Run.lean ====
/-
  The run of the idealized kernel's @main, at any float instance: the two pipelined calls and the host operations
  between and after them, chained from the launch memory to the return, with every unscoped buffer's final
  contents named.
-/
import proofs.«126033_j28338194219418_2_alg».proof.Proof.KI.Data
import proofs.«126033_j28338194219418_2_alg».proof.Proof.Gen.KernelIdeal.Regions

set_option maxRecDepth 16384

noncomputable section

namespace Cert.KernelIdeal.Hand

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ)

/-! ## The buffers' contents between @main's items -/

/-- A valuation read at the TensorCore's references. -/
abbrev rd (W : Dev nD → Valuation τ sig (Elt F)) : (c : Dev nD) → (b : Ref sig .tc) → Buf (Elt F) ((c : Thread nD τ).loc b) :=
  fun c b => W c b

/-- What call 0 leaves in its two output arrays. -/
def X0 (c : Dev nD) : Buf (Elt F) ((c : Thread nD τ).loc main_v0_0) := (dat0 (rd (Gen.V0 m)) c).arrAt 2 cfg0.N
def SQ0 (c : Dev nD) : Buf (Elt F) ((c : Thread nD τ).loc main_v0_1) := (dat0 (rd (Gen.V0 m)) c).arrAt 3 cfg0.N
/-- The buffers after call 0, and after the three reshapes that follow it. -/
abbrev W1 (c : Dev nD) : Valuation τ sig (Elt F) := Function.update (Function.update (Gen.V0 m c) main_v0_0 (X0 m c)) main_v0_1 (SQ0 m c)
abbrev W2 (c : Dev nD) : Valuation τ sig (Elt F) := StableHlo.after hostOps1 (W1 m c)
/-- What call 1 leaves in its two output arrays. -/
def AP (c : Dev nD) : Buf (Elt F) ((c : Thread nD τ).loc main_v4_0) := (dat1 (rd (W2 m)) c).arrAt 6 cfg1.N
def AN (c : Dev nD) : Buf (Elt F) ((c : Thread nD τ).loc main_v4_1) := (dat1 (rd (W2 m)) c).arrAt 7 cfg1.N

/-- The calls' outputs as the unknowns of the generated valuations `Gen.V1 … Gen.V6`. -/
def outs : Gen.Outs (F := F) := fun _ r c =>
  if h : r = main_v0_0 then h ▸ X0 m c
  else if h : r = main_v0_1 then h ▸ SQ0 m c
  else if h : r = main_v4_0 then h ▸ AP m c
  else if h : r = main_v4_1 then h ▸ AN m c
  else m ((c : Thread nD τ).loc r)

theorem outs_v0_0 (J : ℕ) (c : Dev nD) : outs m J main_v0_0 c = X0 m c := by unfold outs; rw [dif_pos rfl]
theorem outs_v0_1 (J : ℕ) (c : Dev nD) : outs m J main_v0_1 c = SQ0 m c := by
  unfold outs; rw [dif_neg (by decide), dif_pos rfl]
theorem outs_v4_0 (J : ℕ) (c : Dev nD) : outs m J main_v4_0 c = AP m c := by
  unfold outs; rw [dif_neg (by decide), dif_neg (by decide), dif_pos rfl]
theorem outs_v4_1 (J : ℕ) (c : Dev nD) : outs m J main_v4_1 c = AN m c := by
  unfold outs; rw [dif_neg (by decide), dif_neg (by decide), dif_neg (by decide), dif_pos rfl]

theorem V1_eq (c : Dev nD) : Gen.V1 m (outs m) c = W1 m c := by
  show Function.update (Function.update (Gen.V0 m c) main_v0_0 (outs m 1 main_v0_0 c)) main_v0_1 (outs m 1 main_v0_1 c) = _
  rw [outs_v0_0, outs_v0_1]
theorem V2_eq (c : Dev nD) : Gen.V2 m (outs m) c = W2 m c := by
  show StableHlo.after hostOps1 (Gen.V1 m (outs m) c) = _
  rw [V1_eq]

/-! ## The proof data family and what rides beside the buffers -/

abbrev adm : (p : Fin 2) → (pcfgs (F := F) p).Adm := fun p => (cfgs p).toPCfg_adm
/-- Every call's proof data, each at its entry contents. -/
def pdats : (p : Fin 2) → (c : Dev nD) → Dat τ (Elt F) Unit ℕ (UR sig nD τ) ℕ (cfgs p) c
  | ⟨0, _⟩ => fun c => dat0 (rd (Gen.V0 m)) c
  | ⟨1, _⟩ => fun c => dat1 (rd (W2 m)) c
abbrev 𝒱₀ : Variants := Variants.none
abbrev L : GSem nD τ sig → Finset Unit := fun _ => ∅
abbrev lv : GSem nD τ sig → Unit → ℕ := fun _ _ => 0
/-- The generator register at some state and the core owing nothing. -/
abbrev R (c : Dev nD) : sProp 𝕄 := iprop((∃ r, prngReg c r) ∗ ∃ W, owes (c : Thread nD τ) (0 : CellTallies nD τ sig Unit) W)
abbrev E : Fin 3 → Dev nD → sProp 𝕄 := fun _ c => R c

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-! ## Call 0 as a segment -/

section Reg0
variable (hb0 : ∀ (V : (c : Dev nD) → (b : Ref sig .tc) → Buf (Elt F) ((c : Thread nD τ).loc b)) (c : Dev nD),
  BodyObligation (dat0 (F := F) V c) (defs₀ (F := F)) Variants.none () Set.univ)

theorem W1_of (c : Dev nD) (r : Ref sig .tc) (h : r ∉ ([main_v0_0, main_v0_1] : List (Ref sig .tc))) : W1 m c r = Gen.V0 m c r :=
  (congrFun (V1_eq m c).symm _).trans (Gen.V1_of m (outs m) c r h)
theorem W1_v0_0 (c : Dev nD) : W1 m c main_v0_0 = X0 m c := by
  show Function.update (Function.update (Gen.V0 m c) main_v0_0 (X0 m c)) main_v0_1 (SQ0 m c) main_v0_0 = _
  rw [Function.update_of_ne (StableHlo.devRef_ne_of_ne (by decide) : (Proc.devRef .tc main_v0_0 : DevRef τ sig) ≠ Proc.devRef .tc main_v0_1), Function.update_self]
theorem W1_v0_1 (c : Dev nD) : W1 m c main_v0_1 = SQ0 m c := by
  show Function.update (Function.update (Gen.V0 m c) main_v0_0 (X0 m c)) main_v0_1 (SQ0 m c) main_v0_1 = _
  rw [Function.update_self]

theorem hF0 (c : Dev nD) (w : Fin cfg0.W) : (pdats m 0 c).arrAt w cfg0.N = rd (W1 m) c (Pipeline.arrRef spec0 w) := by
  match w with
  | ⟨0, _⟩ => exact ((pdats m 0 c).arrAt_in 0 rfl _).trans (W1_of m c main_arg0 (by decide)).symm
  | ⟨1, _⟩ => exact ((pdats m 0 c).arrAt_in 1 rfl _).trans (W1_of m c main_arg1 (by decide)).symm
  | ⟨2, _⟩ => exact (W1_v0_0 m c).symm
  | ⟨3, _⟩ => exact (W1_v0_1 m c).symm
theorem hrest0 (c : Dev nD) : ∀ b, b ∉ Finset.univ.image (Pipeline.arrRef spec0) → rd (W1 m) c b = rd (Gen.V0 m) c b := fun b hb =>
  W1_of m c b fun hmem => hb (by
    rcases List.mem_cons.mp hmem with rfl | hmem
    · exact Finset.mem_image.mpr ⟨2, Finset.mem_univ _, rfl⟩
    · rcases List.mem_cons.mp hmem with rfl | hmem
      · exact Finset.mem_image.mpr ⟨3, Finset.mem_univ _, rfl⟩
      · cases hmem)

set_option backward.isDefEq.respectTransparency.types false in
def reg0 : RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (hb0 (rd (Gen.V0 m)) c).loose
  hwaits := Pipeline.hwaits_of_owed_zero _ _ _ _ L lv 0 fun _ _ => rfl
  pre c := iprop(StableHlo.held (c : Thread nD τ) (Pipeline.ucRefs τ sig) (Gen.V0 m c) ∗ R c)
  post c := iprop(StableHlo.held (c : Thread nD τ) (Pipeline.ucRefs τ sig) (W1 m c) ∗ R c)
  X c := iprop(∃ r, prngReg c r)
  Y c := iprop(∃ r, prngReg c r)
  Z c := Pipeline.unscopedRest (Ix := Unit) (Name := ℕ) (U := UR sig nD τ) (Lvl := ℕ) spec0 c (rd (Gen.V0 m) c)
  hentry c := by
    rw [Pipeline.ownSems0_none]
    have hsplit := Pipeline.arrays_of_unscopedBufs (p := 0) (pcfgs (F := F)) adm (pdats m) launch0.win launch0.arr_whole c
      ((pdats m 0 c).share_full fun _ => rfl) (rd (Gen.V0 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (rd (Gen.V0 m) c) (rd (W1 m) c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO
end Reg0

/-! ## Call 1: two of its windows read one array -/

section Shared
variable (V : (c : Dev nD) → (b : Ref sig .tc) → Buf (Elt F) ((c : Thread nD τ).loc b))

/-- The seven distinct buffers behind call 1's eight windows, one by one. -/
theorem arrBufs1_eq (c : Dev nD) (V : (b : Ref sig .tc) → Buf (Elt F) ((c : Thread nD τ).loc b)) :
    (Pipeline.arrBufs (Ix := Unit) (Name := ℕ) (U := UR sig nD τ) (Lvl := ℕ) spec1 c V : sProp 𝕄)
      = iprop((((c : Thread nD τ).loc main_v0_0) ↦{fullShare} V main_v0_0) ∗ (((c : Thread nD τ).loc main_v0_1) ↦{fullShare} V main_v0_1)
        ∗ (((c : Thread nD τ).loc main_v3) ↦{fullShare} V main_v3) ∗ (((c : Thread nD τ).loc main_v1) ↦{fullShare} V main_v1)
        ∗ (((c : Thread nD τ).loc main_v2) ↦{fullShare} V main_v2) ∗ (((c : Thread nD τ).loc main_v4_0) ↦{fullShare} V main_v4_0)
        ∗ (((c : Thread nD τ).loc main_v4_1) ↦{fullShare} V main_v4_1)) := by
  unfold Pipeline.arrBufs
  exact bigSep_eq_bigSepL_of_eq [main_v0_0, main_v0_1, main_v3, main_v1, main_v2, main_v4_0, main_v4_1] (by decide) (by decide) _

/-- Call 1's eight windows' holdings, one by one: the array the first two windows share is held at the two halves of
    the full share. -/
theorem arrays1_eq (c : Dev nD) (G : (w : Fin cfg1.W) → Buf (Elt F) ((cfg1.win w).arr.view.loc (c : Thread nD τ))) :
    (dat1 V c).arrays G
      = iprop((((c : Thread nD τ).loc main_v0_0) ↦{fullShare.left} G 0) ∗ (((c : Thread nD τ).loc main_v0_0) ↦{fullShare.right} G 1)
        ∗ (((c : Thread nD τ).loc main_v0_1) ↦{fullShare} G 2) ∗ (((c : Thread nD τ).loc main_v3) ↦{fullShare} G 3)
        ∗ (((c : Thread nD τ).loc main_v1) ↦{fullShare} G 4) ∗ (((c : Thread nD τ).loc main_v2) ↦{fullShare} G 5)
        ∗ (((c : Thread nD τ).loc main_v4_0) ↦{fullShare} G 6) ∗ (((c : Thread nD τ).loc main_v4_1) ↦{fullShare} G 7)) := by
  unfold Pipeline.Dat.arrays
  rw [bigSep_W1]
  rw [(arr_whole1 0).set_eq_univ, (arr_whole1 2).set_eq_univ, (arr_whole1 3).set_eq_univ,
    (arr_whole1 4).set_eq_univ, (arr_whole1 5).set_eq_univ, (arr_whole1 6).set_eq_univ, (arr_whole1 7).set_eq_univ]
  rfl
end Shared

section Shared2
variable (V : (c : Dev nD) → (b : Ref sig .tc) → Buf (Elt F) ((c : Thread nD τ).loc b))

/-- ENTRY: the core's unscoped buffers are call 1's windows' holdings at the entry contents and the rest; the array
    two windows read is split into its two half shares. -/
theorem entry1 (c : Dev nD) :
    (unscopedBufs c (V c) : sProp 𝕄) ⊢ iprop((dat1 V c).arrays ((dat1 V c).arrAt · 0)
      ∗ Pipeline.unscopedRest (Ix := Unit) (Name := ℕ) (U := UR sig nD τ) (Lvl := ℕ) spec1 c (V c)) := by
  rw [Pipeline.unscopedBufs_split₀ (cfgs) (1 : Fin 2) (by decide) c (V c)]
  refine sep_mono ?_ .rfl
  show (Pipeline.arrBufs (Ix := Unit) (Name := ℕ) (U := UR sig nD τ) (Lvl := ℕ) spec1 c (V c) : sProp 𝕄) ⊢ _
  rw [arrays1_eq, arrBufs1_eq]
  iintro ⟨H0, H1, H3, H4, H5, H6, H7⟩
  ihave H0' := (pointsTo_share (PosShare.mem_left_op_right fullShare)).1 $$ H0
  icases H0' with ⟨H0l, H0r⟩
  isplitl [H0l]; · iexact H0l
  isplitl [H0r]; · iexact H0r
  isplitl [H1]; · iexact H1
  isplitl [H3]; · iexact H3
  isplitl [H4]; · iexact H4
  isplitl [H5]; · iexact H5
  isplitl [H6]; · iexact H6
  iexact H7

/-- EXIT: the windows' holdings at the final contents and the rest are the core's unscoped buffers at any
    valuation that has the arrays at those contents and agrees with the entry contents off them; the two halves of the
    shared array, both unchanged, are rejoined. -/
theorem exit1 (c : Dev nD) (V' : (b : Ref sig .tc) → Buf (Elt F) ((c : Thread nD τ).loc b))
    (hF : ∀ w, (dat1 V c).arrAt w cfg1.N = V' (Pipeline.arrRef spec1 w))
    (hrest : ∀ b, b ∉ Finset.univ.image (Pipeline.arrRef spec1) → V' b = V c b) :
    iprop((dat1 V c).arrays ((dat1 V c).arrAt · cfg1.N)
      ∗ Pipeline.unscopedRest (Ix := Unit) (Name := ℕ) (U := UR sig nD τ) (Lvl := ℕ) spec1 c (V c)) ⊢ (unscopedBufs c V' : sProp 𝕄) := by
  rw [Pipeline.unscopedBufs_split₀ (cfgs) (1 : Fin 2) (by decide) c V']
  refine sep_mono ?_ (Entails.of_eq ?_)
  · show _ ⊢ (Pipeline.arrBufs (Ix := Unit) (Name := ℕ) (U := UR sig nD τ) (Lvl := ℕ) spec1 c V' : sProp 𝕄)
    rw [arrays1_eq, arrBufs1_eq]
    rw [hF 0, hF 1, hF 2, hF 3, hF 4, hF 5, hF 6, hF 7]
    iintro ⟨H0l, H0r, H1, H3, H4, H5, H6, H7⟩
    isplitl [H0l H0r]
    · iapply (pointsTo_share (PosShare.mem_left_op_right fullShare)).2
      isplitl [H0l]; · iexact H0l
      iexact H0r
    isplitl [H1]; · iexact H1
    isplitl [H3]; · iexact H3
    isplitl [H4]; · iexact H4
    isplitl [H5]; · iexact H5
    isplitl [H6]; · iexact H6
    iexact H7
  · unfold Pipeline.unscopedRest
    exact bigSep_congr fun b hb => by rw [hrest b (Finset.mem_sdiff.mp hb).2]
end Shared2

/-! ## Call 1 as a segment -/

/-- The buffers after call 1. -/
abbrev W3 (c : Dev nD) : Valuation τ sig (Elt F) := Function.update (Function.update (W2 m c) main_v4_0 (AP m c)) main_v4_1 (AN m c)
theorem V3_eq (c : Dev nD) : Gen.V3 m (outs m) c = W3 m c := by
  show Function.update (Function.update (Gen.V2 m (outs m) c) main_v4_0 (outs m 3 main_v4_0 c)) main_v4_1 (outs m 3 main_v4_1 c) = _
  rw [V2_eq, outs_v4_0, outs_v4_1]
theorem W3_of (c : Dev nD) (r : Ref sig .tc) (h : r ∉ ([main_v4_0, main_v4_1] : List (Ref sig .tc))) : W3 m c r = W2 m c r :=
  (congrFun (V3_eq m c).symm _).trans ((Gen.V3_of m (outs m) c r h).trans (congrFun (V2_eq m c) _))
theorem W3_v4_0 (c : Dev nD) : W3 m c main_v4_0 = AP m c := by
  show Function.update (Function.update (W2 m c) main_v4_0 (AP m c)) main_v4_1 (AN m c) main_v4_0 = _
  rw [Function.update_of_ne (StableHlo.devRef_ne_of_ne (by decide) : (Proc.devRef .tc main_v4_0 : DevRef τ sig) ≠ Proc.devRef .tc main_v4_1), Function.update_self]
theorem W3_v4_1 (c : Dev nD) : W3 m c main_v4_1 = AN m c := by
  show Function.update (Function.update (W2 m c) main_v4_0 (AP m c)) main_v4_1 (AN m c) main_v4_1 = _
  rw [Function.update_self]

theorem hF1 (c : Dev nD) (w : Fin cfg1.W) : (dat1 (rd (W2 m)) c).arrAt w cfg1.N = rd (W3 m) c (Pipeline.arrRef spec1 w) := by
  match w with
  | ⟨0, _⟩ => exact ((dat1 (rd (W2 m)) c).arrAt_in 0 rfl _).trans (W3_of m c main_v0_0 (by decide)).symm
  | ⟨1, _⟩ => exact ((dat1 (rd (W2 m)) c).arrAt_in 1 rfl _).trans (W3_of m c main_v0_0 (by decide)).symm
  | ⟨2, _⟩ => exact ((dat1 (rd (W2 m)) c).arrAt_in 2 rfl _).trans (W3_of m c main_v0_1 (by decide)).symm
  | ⟨3, _⟩ => exact ((dat1 (rd (W2 m)) c).arrAt_in 3 rfl _).trans (W3_of m c main_v3 (by decide)).symm
  | ⟨4, _⟩ => exact ((dat1 (rd (W2 m)) c).arrAt_in 4 rfl _).trans (W3_of m c main_v1 (by decide)).symm
  | ⟨5, _⟩ => exact ((dat1 (rd (W2 m)) c).arrAt_in 5 rfl _).trans (W3_of m c main_v2 (by decide)).symm
  | ⟨6, _⟩ => exact (W3_v4_0 m c).symm
  | ⟨7, _⟩ => exact (W3_v4_1 m c).symm
theorem hrest1 (c : Dev nD) : ∀ b, b ∉ Finset.univ.image (Pipeline.arrRef spec1) → rd (W3 m) c b = rd (W2 m) c b := fun b hb =>
  W3_of m c b fun hmem => hb (by
    rcases List.mem_cons.mp hmem with rfl | hmem
    · exact Finset.mem_image.mpr ⟨6, Finset.mem_univ _, rfl⟩
    · rcases List.mem_cons.mp hmem with rfl | hmem
      · exact Finset.mem_image.mpr ⟨7, Finset.mem_univ _, rfl⟩
      · cases hmem)

section Reg1
variable (hb1 : ∀ (V : (c : Dev nD) → (b : Ref sig .tc) → Buf (Elt F) ((c : Thread nD τ).loc b)) (c : Dev nD),
  BodyObligation (dat1 (F := F) V c) (defs₀ (F := F)) Variants.none () Set.univ)
variable (hin1 : ∀ (V : (c : Dev nD) → (b : Ref sig .tc) → Buf (Elt F) ((c : Thread nD τ).loc b)) (c : Dev nD),
  iprop((∃ r, prngReg c r) ∗ Pipeline.scopedRest (Ix := Unit) (Name := ℕ) (U := UR sig nD τ) (Lvl := ℕ) (Val := Elt F) spec1 c) ⊢ (dat1 V c).Φ 0)
variable (hout1 : ∀ (V : (c : Dev nD) → (b : Ref sig .tc) → Buf (Elt F) ((c : Thread nD τ).loc b)) (c : Dev nD),
  (dat1 V c).Φ (Fin.last cfg1.N) ⊢ iprop((∃ r, prngReg c r) ∗ Pipeline.scopedRest (Ix := Unit) (Name := ℕ) (U := UR sig nD τ) (Lvl := ℕ) (Val := Elt F) spec1 c))

set_option backward.isDefEq.respectTransparency.types false in
def reg1 : RegionSeg (pcfgs (F := F)) adm (pdats m) () defs₀ 𝒱₀ L lv 1 where
  win := winFacts₀1
  block_pos := block_pos1
  stage_whole := stage_whole1
  K := PEmpty
  osem k := k.elim
  ho := Pipeline.OwnSemFacts.none _
  hbody c := (hb1 (rd (W2 m)) c).loose
  hwaits := Pipeline.hwaits_of_owed_zero _ _ _ _ L lv 1 fun _ _ => rfl
  pre c := iprop(StableHlo.held (c : Thread nD τ) (Pipeline.ucRefs τ sig) (W2 m c) ∗ R c)
  post c := iprop(StableHlo.held (c : Thread nD τ) (Pipeline.ucRefs τ sig) (W3 m c) ∗ R c)
  X c := iprop(∃ r, prngReg c r)
  Y c := iprop(∃ r, prngReg c r)
  Z c := Pipeline.unscopedRest (Ix := Unit) (Name := ℕ) (U := UR sig nD τ) (Lvl := ℕ) spec1 c (rd (W2 m) c)
  hentry c := by
    rw [Pipeline.ownSems0_none]
    have hsplit := entry1 (F := F) (rd (W2 m)) c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = (dat1 (rd (W2 m)) c).Φ 0 from rfl]
    iintro ⟨Hp, -, Hr⟩
    iapply (hin1 (rd (W2 m)) c)
    isplitl [Hp]; · iexact Hp
    iexact Hr
  hout c := by
    rw [Pipeline.ownSems0_none, show (pdats m 1 c).Φ (Fin.last _) = (dat1 (rd (W2 m)) c).Φ (Fin.last cfg1.N) from rfl]
    iintro H
    ihave H' := (hout1 (rd (W2 m)) c) $$ H
    icases H' with ⟨Hp, Hr⟩
    isplitl [Hp]; · iexact Hp
    isplitr; · iempintro
    iexact Hr
  hexit c := by
    have hjoin := exit1 (F := F) (rd (W2 m)) c (rd (W3 m) c) (hF1 m c) (hrest1 m c)
    rw [Pipeline.unscopedBufs_held] at hjoin
    iintro ⟨Ha, HO, HY, Hrest⟩
    imodintro
    isplitl [Ha Hrest]
    · iapply hjoin
      isplitl [Ha]; · iexact Ha
      iexact Hrest
    isplitl [HY]; · iexact HY
    unfold Pipeline.Dat.owesAt Pipeline.owesWithin
    icases HO with ⟨%W, -, HO⟩; iexists W; iexact HO
end Reg1

/-! ## @main from the launch to the return -/

section Run
variable (ρ : Dev nD → PrngReg)
variable (hb0 : ∀ (V : (c : Dev nD) → (b : Ref sig .tc) → Buf (Elt F) ((c : Thread nD τ).loc b)) (c : Dev nD),
  BodyObligation (dat0 (F := F) V c) (defs₀ (F := F)) Variants.none () Set.univ)
variable (hb1 : ∀ (V : (c : Dev nD) → (b : Ref sig .tc) → Buf (Elt F) ((c : Thread nD τ).loc b)) (c : Dev nD),
  BodyObligation (dat1 (F := F) V c) (defs₀ (F := F)) Variants.none () Set.univ)
variable (hin1 : ∀ (V : (c : Dev nD) → (b : Ref sig .tc) → Buf (Elt F) ((c : Thread nD τ).loc b)) (c : Dev nD),
  iprop((∃ r, prngReg c r) ∗ Pipeline.scopedRest (Ix := Unit) (Name := ℕ) (U := UR sig nD τ) (Lvl := ℕ) (Val := Elt F) spec1 c) ⊢ (dat1 V c).Φ 0)
variable (hout1 : ∀ (V : (c : Dev nD) → (b : Ref sig .tc) → Buf (Elt F) ((c : Thread nD τ).loc b)) (c : Dev nD),
  (dat1 V c).Φ (Fin.last cfg1.N) ⊢ iprop((∃ r, prngReg c r) ∗ Pipeline.scopedRest (Ix := Unit) (Name := ℕ) (U := UR sig nD τ) (Lvl := ℕ) (Val := Elt F) spec1 c))

include hb0 hb1 hin1 hout1 in
set_option backward.isDefEq.respectTransparency.types false in
/-- Every weakly fair execution of @main from memory `m` with zero counters terminates, nothing faulting, and every final
    memory holds each unscoped buffer at the last valuation: the launch memory, the two calls' outputs at what their
    write-backs leave, the host operations folded over them. -/
theorem run : θ_run defs (onTc (τ := τ) (main (F := F))) ⟨m, fun _ => 0, ρ⟩ (fun r => ∀ c : Dev nD,
      ∀ b ∈ Pipeline.ucRefs τ sig, r.2.mem (((c : Thread nD τ)).1, b) = Gen.V6 m (outs m) c b) := by
  refine Pipeline.θ_run_regions_kit_dev (pcfgs (F := F)) adm (pdats m) () cellOf_inj emb₁ defs₀ 𝒱₀ L lv m ρ main
    (Gen.segs m (outs m) 𝒱₀ L lv E () (pdats m) (reg0 m hb0) (reg1 m hb1 hin1 hout1))
    (fun c Q => by
      rewrite [main_chain c, Seg.run_eq_chain,
        show (Gen.segs m (outs m) 𝒱₀ L lv E () (pdats m) (reg0 m hb0) (reg1 m hb1 hin1 hout1) c).map Seg.prog = [
          Prog.lift (.customCall (Pipeline.entry 0) ()),
          StableHlo.seq hostOps1,
          Prog.lift (.customCall (Pipeline.entry 1) ()),
          StableHlo.seq hostOps2,
          StableHlo.seq hostOps2_1,
          StableHlo.seq hostOps2_2 ] from rfl]
      exact .rfl)
    (fun c => by simp only [Gen.segs, Seg.pipes_host, Seg.pipes_region, Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Gen.V0 m c) ∗ R c))
    (Tₙ := fun c => StableHlo.held (c : Thread nD τ) (Pipeline.ucRefs τ sig) (Gen.V6 m (outs m) c))
    (hch := fun c => ⟨.rfl,
      (show iprop(StableHlo.held (c : Thread nD τ) (Pipeline.ucRefs τ sig) (W1 m c) ∗ R c) ⊢ iprop(StableHlo.held (c : Thread nD τ) (Pipeline.ucRefs τ sig) (Gen.V1 m (outs m) c) ∗ R c) from by rw [V1_eq]),
      (show iprop(StableHlo.held (c : Thread nD τ) (Pipeline.ucRefs τ sig) (Gen.V2 m (outs m) c) ∗ R c) ⊢ iprop(StableHlo.held (c : Thread nD τ) (Pipeline.ucRefs τ sig) (W2 m c) ∗ R c) from by rw [V2_eq]),
      (show iprop(StableHlo.held (c : Thread nD τ) (Pipeline.ucRefs τ sig) (W3 m c) ∗ R c) ⊢ iprop(StableHlo.held (c : Thread nD τ) (Pipeline.ucRefs τ sig) (Gen.V3 m (outs m) c) ∗ R c) from by rw [V3_eq]),
      .rfl, .rfl,
      sep_mono .rfl (by iintro ⟨-, H⟩; iexact H)⟩)
    (hinit := by
      refine Pipeline.initEach L lv fun c => ?_
      rw [show unscopedBufs c (fun b => m ((c : Thread nD τ).loc b)) = StableHlo.held (c : Thread nD τ) (Pipeline.ucRefs τ sig) (Gen.V0 m c)
        from Pipeline.unscopedBufs_held c (Gen.V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = Gen.V6 m (outs m) c b)
    (hfin := fun c s' => by
      iintro ⟨Hh, HSI⟩
      unfold StableHlo.held
      imodintro
      iapply (pointsTo_read_all (Pipeline.ucRefs τ sig) (fun b => (((c : Thread nD τ)).1, b)) (Gen.V6 m (outs m) c) s')
      isplitl [Hh] <;> iassumption)
    (hQ := fun s h c => h c)

end Run

end Cert.KernelIdeal.Hand

end
-- ==== Proof.KI.Body0.lean ====
/-
  The body obligation of call 0: at every point of its grid the body, handed the two argument tiles a, b in its
  input buffers, leaves the product a·b (in the narrow format) in the first output buffer and the column of the
  rows' sums of squares of that product in the second; the input buffers are read only, the invariant and what the
  core owes pass through untouched.
-/
import proofs.«126033_j28338194219418_2_alg».proof.Proof.KI.Data
import Idealize.ShloMosaic.Lib.Pipeline.Value

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- the core's buffer contents when a call is entered
variable (V : (c : Dev nD) → (b : Ref sig .tc) → Buf (Elt F) ((c : Thread nD τ).loc b))

/-! ## What the body finds in the two input buffers -/

/-- An input's current buffer holds its block at every point, fetched there or not. -/
theorem before0_0 (c : Dev nD) (t : Fin cfg0.N) (d) : (dat0 V c).before 0 t d = iblk0 V c 0 t :=
  ((dat0 V c).before_in_eq_fetched 0 rfl (fun _ => rfl) (fun _ _ _ => rfl)
      (fun t => by rw [after0_0]; unfold Dat.blockOf iblk0; rw [A_eq0]; try rfl) t d).trans
    (by unfold Dat.fetched Dat.blockOf iblk0; rw [A_eq0]; try rfl)

theorem before0_1 (c : Dev nD) (t : Fin cfg0.N) (d) : (dat0 V c).before 1 t d = iblk0 V c 1 t :=
  ((dat0 V c).before_in_eq_fetched 1 rfl (fun _ => rfl) (fun _ _ _ => rfl)
      (fun t => by rw [after0_1]; unfold Dat.blockOf iblk0; rw [A_eq0]; try rfl) t d).trans
    (by unfold Dat.fetched Dat.blockOf iblk0; rw [A_eq0]; try rfl)

/-! ## The body's triple -/

/-- The offsets of every access of the body are zero. -/
theorem zero_offsets : (![0, 0] : Fin 2 → Nat) = fun _ => 0 := funext fun a => by fin_cases a <;> rfl

/-- One store through the whole-shape rectangle at zero offsets leaves its payload, whatever the buffer held. -/
theorem read_write_unit_zero {sg : RefSig} {κ : Kind} {sp : Space} {S : Shape} {e : EltTy} {Val : EltTy → Type}
    [∀ e, Nonempty (Val e)] (v : View sg κ sp S e) (f : v.ty.Contents Val) {off : Fin S.rank → Nat}
    (h : off = fun _ => 0) (inb : ∀ a, off a + S.size a ≤ S.size a) (w : S.Idx → Val e) :
    v.read Val (v.writes Val f [(⟨Rect.unit off S.size inb, w⟩ : View.Piece Val S e)]) = w := by
  rw [View.read_writes_eq_canon _ _ _ (fun y => ⟨_, List.mem_singleton_self _, View.mem_set_unit_zero h inb y⟩),
    View.canon_unit_zero h]

set_option maxHeartbeats 1000000 in
/-- The body on whole buffers, the inputs' at contents `x0`, `x1` and the outputs' at anything, runs to the
    continuation holding the inputs' as they were, the first output's at the narrowed product and the second's at
    the column of sums of squares: every load reads a whole buffer and every store fills one. -/
theorem sound_kernel0 (c : Dev nD) (E : Set ℕ) (i : grid0.Coords)
    (arg1 : Memref sig .tc .vmem S1024x512 .f32) (harg1 : arg1.IsWhole)
    (arg2 : Memref sig .tc .vmem S1024x512 .f32) (harg2 : arg2.IsWhole)
    (arg3 : Memref sig .tc .vmem S1024x512 .bf16) (harg3 : arg3.IsWhole)
    (arg4 : Memref sig .tc .vmem S1024x1 .f32) (harg4 : arg4.IsWhole)
    (x0 x1 : Vec F S1024x512 .f32) (K : PUnit → sProp 𝕄) :
    iprop(owns (c : Thread nD τ) arg1 fullShare x0 ∗ owns (c : Thread nD τ) arg2 fullShare x1
        ∗ (∃ d, owns (c : Thread nD τ) arg3 fullShare d) ∗ (∃ d, owns (c : Thread nD τ) arg4 fullShare d)
        ∗ (iprop(owns (c : Thread nD τ) arg1 fullShare x0 ∗ owns (c : Thread nD τ) arg2 fullShare x1
            ∗ owns (c : Thread nD τ) arg3 fullShare (k0_pay2 x0 x1)
            ∗ owns (c : Thread nD τ) arg4 fullShare (k0_pay3 x0 x1)) -∗ K ⟨⟩))
      ⊢ wp frame (wpE (defs₀ (F := F)) Variants.none c none) E (cc0__preprocess_kernel i arg1 harg1 arg2 harg2 arg3 harg3 arg4 harg4) K := by
  simp only [cc0__preprocess_kernel_eq_skeleton]; unfold cc0__preprocess_kernel_skel
  unfold owns
  iintro ⟨⟨%f0, %hf0, H0⟩, ⟨%f1, %hf1, H1⟩, ⟨%d2, %f2, -, H2⟩, ⟨%d3, %f3, -, H3⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    rw [read_write_unit_zero _ _ zero_offsets]
    simp only [View.readAt_eq_ld, View.ld_unit_zero (S := S1024x512) zero_offsets]
  iexists _; isplitr
  swap; · iexact H3
  ipureintro
  rw [read_write_unit_zero _ _ zero_offsets]
  simp only [View.readAt_eq_ld, View.ld_unit_zero (S := S1024x512) zero_offsets]

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' buffers hold their blocks, so the body's triple applies; the invariant and
    what the core owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) _)
  isplitl [H0]; · iexact H0
  isplitl [H1]; · iexact H1
  isplitl [H2]; · iexists _; iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation of call 0, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KI.Body1.lean ====
/-
  The body obligation of call 1. At the point with row tile i and column tile j the body folds the tile's masked
  row maxima and minima into the two carried columns — first re-starting them at −∞ and +∞ where j = 0 — and, where
  j = 7, writes √(max ε (sq_i + carried)) of each into the two outputs; elsewhere the outputs' buffers are handed
  back as found. Three cases by the column tile: j = 0, 0 < j < 7, j = 7.
-/
import proofs.«126033_j28338194219418_2_alg».proof.Proof.KI.Body0

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- the core's buffer contents when a call is entered
variable (V : (c : Dev nD) → (b : Ref sig .tc) → Buf (Elt F) ((c : Thread nD τ).loc b))

/-! ## The body's two conditions, in closed form over the grid -/

/-- The condition under which the carried columns are re-started (the column tile is the first). -/
abbrev cond1 (i : grid1.Coords) : Prop := (Scalar.cmpi .ne (Scalar.extui (Scalar.cmpi .eq (BitVec.ofNat 32 (i 1).val) 0#32)) 0#32) = 1#1
theorem hcond1 : ∀ t : Fin cfg1.N, cond1 (grid1.coords t) ↔ t.val % 8 = 0 :=
  (by decide +kernel : ∀ t : Fin grid1.N, cond1 (grid1.coords t) ↔ t.val % 8 = 0)

/-- The condition under which the outputs are written (the column tile is the last). -/
abbrev cond2 (i : grid1.Coords) : Prop := k1_cond2 i = 1#1
theorem hcond2 : ∀ t : Fin cfg1.N, cond2 (grid1.coords t) ↔ t.val % 8 = 7 :=
  (by decide +kernel : ∀ t : Fin grid1.N, cond2 (grid1.coords t) ↔ t.val % 8 = 7)

/-! ## The body's triple, case by case -/

/-- A store through the whole-shape rectangle at zero offsets, LAST, leaves its payload whatever came before. -/
theorem read_writes_cons_unit_zero {sg : RefSig} {κ : Kind} {sp : Space} {S : Shape} {e : EltTy} {Val : EltTy → Type}
    [∀ e, Nonempty (Val e)] (v : View sg κ sp S e) (f : v.ty.Contents Val) {off : Fin S.rank → Nat}
    (h : off = fun _ => 0) (inb : ∀ a, off a + S.size a ≤ S.size a) (w : S.Idx → Val e) (L : List (View.Piece Val S e)) :
    v.read Val (v.writes Val f ((⟨Rect.unit off S.size inb, w⟩ : View.Piece Val S e) :: L)) = w := by
  rw [View.read_writes_eq_canon _ _ _ (fun y => ⟨_, List.mem_cons_self, View.mem_set_unit_zero h inb y⟩),
    View.canon_cons_unit_zero h]

set_option maxHeartbeats 1000000 in
/-- First column tile: the two carried columns, whatever they held, are re-started at −∞ and +∞ and the tile folded
    in; the outputs' buffers are untouched. -/
theorem sound_kernel1_first (c : Dev nD) (E : Set ℕ) (i : grid1.Coords)
    (arg2 : Memref sig .tc .vmem S1024x512 .bf16) (harg2 : arg2.IsWhole)
    (arg3 : Memref sig .tc .vmem S1024x512 .bf16) (harg3 : arg3.IsWhole)
    (arg4 : Memref sig .tc .vmem S1024x1 .f32) (harg4 : arg4.IsWhole)
    (arg5 : Memref sig .tc .vmem S1x1024 .f32) (harg5 : arg5.IsWhole)
    (arg6 : Memref sig .tc .vmem S1024x1 .i32) (harg6 : arg6.IsWhole)
    (arg7 : Memref sig .tc .vmem S1x1024 .i32) (harg7 : arg7.IsWhole)
    (arg8 : Memref sig .tc .vmem S1024x1 .f32) (harg8 : arg8.IsWhole)
    (arg9 : Memref sig .tc .vmem S1024x1 .f32) (harg9 : arg9.IsWhole)
    (arg10 : Memref sig .tc .vmem S1024x1 .f32) (harg10 : arg10.IsWhole)
    (arg11 : Memref sig .tc .vmem S1024x1 .f32) (harg11 : arg11.IsWhole)
    (hc1 : cond1 i) (hc2 : ¬cond2 i)
    (x0 x1 : Vec F S1024x512 .bf16) (x2 : Vec F S1024x1 .f32) (x3 : Vec F S1x1024 .f32) (x4 : Vec F S1024x1 .i32) (x5 : Vec F S1x1024 .i32)
    (xi6 xi7 : Vec F S1024x1 .f32) (K : PUnit → sProp 𝕄) :
    iprop(owns (c : Thread nD τ) arg2 fullShare x0 ∗ owns (c : Thread nD τ) arg3 fullShare x1
        ∗ owns (c : Thread nD τ) arg4 fullShare x2 ∗ owns (c : Thread nD τ) arg5 fullShare x3
        ∗ owns (c : Thread nD τ) arg6 fullShare x4 ∗ owns (c : Thread nD τ) arg7 fullShare x5
        ∗ owns (c : Thread nD τ) arg8 fullShare xi6 ∗ owns (c : Thread nD τ) arg9 fullShare xi7
        ∗ (∃ d, owns (c : Thread nD τ) arg10 fullShare d) ∗ (∃ d, owns (c : Thread nD τ) arg11 fullShare d)
        ∗ (iprop(owns (c : Thread nD τ) arg2 fullShare x0 ∗ owns (c : Thread nD τ) arg3 fullShare x1
        ∗ owns (c : Thread nD τ) arg4 fullShare x2 ∗ owns (c : Thread nD τ) arg5 fullShare x3
        ∗ owns (c : Thread nD τ) arg6 fullShare x4 ∗ owns (c : Thread nD τ) arg7 fullShare x5
            ∗ owns (c : Thread nD τ) arg8 fullShare xi6 ∗ owns (c : Thread nD τ) arg9 fullShare xi7
            ∗ owns (c : Thread nD τ) arg10 fullShare (k1_pay10 x0 x1 x3 x4 x5 k1_pay5)
            ∗ owns (c : Thread nD τ) arg11 fullShare (k1_pay1 (k1_pay9 x0 x1 x3 x4 x5) k1_pay6)) -∗ K ⟨⟩))
      ⊢ wp frame (wpE (defs₀ (F := F)) Variants.none c none) E (cc1__pairwise_kernel i arg2 harg2 arg3 harg3 arg4 harg4 arg5 harg5 arg6 harg6 arg7 harg7 arg8 harg8 arg9 harg9 arg10 harg10 arg11 harg11) K := by
  simp only [cc1__pairwise_kernel_eq_skeleton]; unfold cc1__pairwise_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d10, %g0, -, S0⟩, ⟨%d11, %g1, -, S1⟩, Hk⟩
  subst hf0; subst hf1; subst hf2; subst hf3; subst hf4; subst hf5; subst hf6; subst hf7
  sl_exec (disch := first | exact hc1 | exact hc2)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [S0]
  · iexists _; isplitr
    swap; · iexact S0
    ipureintro
    try sl_unfold_run_names
    rw [read_writes_cons_unit_zero _ _ zero_offsets]
    simp only [View.readAt_eq_ld, View.ld_unit_zero (S := S1024x512) zero_offsets, View.ld_unit_zero (S := S1x1024) zero_offsets,
      View.ld_unit_zero (S := S1024x1) zero_offsets, View.readCov_unit_zero (S := S1024x1) _ zero_offsets]
  iexists _; isplitr
  swap; · iexact S1
  ipureintro
  try sl_unfold_run_names
  rw [read_writes_cons_unit_zero _ _ zero_offsets]
  simp only [View.readAt_eq_ld, View.ld_unit_zero (S := S1024x512) zero_offsets, View.ld_unit_zero (S := S1x1024) zero_offsets,
      View.ld_unit_zero (S := S1024x1) zero_offsets, View.readCov_unit_zero (S := S1024x1) _ zero_offsets]

set_option maxHeartbeats 1000000 in
/-- A middle column tile: the tile is folded into the two carried columns; the outputs' buffers are untouched. -/
theorem sound_kernel1_mid (c : Dev nD) (E : Set ℕ) (i : grid1.Coords)
    (arg2 : Memref sig .tc .vmem S1024x512 .bf16) (harg2 : arg2.IsWhole)
    (arg3 : Memref sig .tc .vmem S1024x512 .bf16) (harg3 : arg3.IsWhole)
    (arg4 : Memref sig .tc .vmem S1024x1 .f32) (harg4 : arg4.IsWhole)
    (arg5 : Memref sig .tc .vmem S1x1024 .f32) (harg5 : arg5.IsWhole)
    (arg6 : Memref sig .tc .vmem S1024x1 .i32) (harg6 : arg6.IsWhole)
    (arg7 : Memref sig .tc .vmem S1x1024 .i32) (harg7 : arg7.IsWhole)
    (arg8 : Memref sig .tc .vmem S1024x1 .f32) (harg8 : arg8.IsWhole)
    (arg9 : Memref sig .tc .vmem S1024x1 .f32) (harg9 : arg9.IsWhole)
    (arg10 : Memref sig .tc .vmem S1024x1 .f32) (harg10 : arg10.IsWhole)
    (arg11 : Memref sig .tc .vmem S1024x1 .f32) (harg11 : arg11.IsWhole)
    (hc1 : ¬cond1 i) (hc2 : ¬cond2 i)
    (x0 x1 : Vec F S1024x512 .bf16) (x2 : Vec F S1024x1 .f32) (x3 : Vec F S1x1024 .f32) (x4 : Vec F S1024x1 .i32) (x5 : Vec F S1x1024 .i32)
    (xi6 xi7 s0 s1 : Vec F S1024x1 .f32) (K : PUnit → sProp 𝕄) :
    iprop(owns (c : Thread nD τ) arg2 fullShare x0 ∗ owns (c : Thread nD τ) arg3 fullShare x1
        ∗ owns (c : Thread nD τ) arg4 fullShare x2 ∗ owns (c : Thread nD τ) arg5 fullShare x3
        ∗ owns (c : Thread nD τ) arg6 fullShare x4 ∗ owns (c : Thread nD τ) arg7 fullShare x5
        ∗ owns (c : Thread nD τ) arg8 fullShare xi6 ∗ owns (c : Thread nD τ) arg9 fullShare xi7
        ∗ owns (c : Thread nD τ) arg10 fullShare s0 ∗ owns (c : Thread nD τ) arg11 fullShare s1
        ∗ (iprop(owns (c : Thread nD τ) arg2 fullShare x0 ∗ owns (c : Thread nD τ) arg3 fullShare x1
        ∗ owns (c : Thread nD τ) arg4 fullShare x2 ∗ owns (c : Thread nD τ) arg5 fullShare x3
        ∗ owns (c : Thread nD τ) arg6 fullShare x4 ∗ owns (c : Thread nD τ) arg7 fullShare x5
            ∗ owns (c : Thread nD τ) arg8 fullShare xi6 ∗ owns (c : Thread nD τ) arg9 fullShare xi7
            ∗ owns (c : Thread nD τ) arg10 fullShare (k1_pay10 x0 x1 x3 x4 x5 s0)
            ∗ owns (c : Thread nD τ) arg11 fullShare (k1_pay1 (k1_pay9 x0 x1 x3 x4 x5) s1)) -∗ K ⟨⟩))
      ⊢ wp frame (wpE (defs₀ (F := F)) Variants.none c none) E (cc1__pairwise_kernel i arg2 harg2 arg3 harg3 arg4 harg4 arg5 harg5 arg6 harg6 arg7 harg7 arg8 harg8 arg9 harg9 arg10 harg10 arg11 harg11) K := by
  simp only [cc1__pairwise_kernel_eq_skeleton]; unfold cc1__pairwise_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%g0, %hg0, S0⟩, ⟨%g1, %hg1, S1⟩, Hk⟩
  subst hf0; subst hf1; subst hf2; subst hf3; subst hf4; subst hf5; subst hf6; subst hf7; subst hg0; subst hg1
  sl_exec (disch := first | exact hc1 | exact hc2)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [S0]
  · iexists _; isplitr
    swap; · iexact S0
    ipureintro
    try sl_unfold_run_names
    rw [read_writes_cons_unit_zero _ _ zero_offsets]
    simp only [View.readAt_eq_ld, View.ld_unit_zero (S := S1024x512) zero_offsets, View.ld_unit_zero (S := S1x1024) zero_offsets,
      View.ld_unit_zero (S := S1024x1) zero_offsets, View.readCov_unit_zero (S := S1024x1) _ zero_offsets]
  iexists _; isplitr
  swap; · iexact S1
  ipureintro
  try sl_unfold_run_names
  rw [read_writes_cons_unit_zero _ _ zero_offsets]
  simp only [View.readAt_eq_ld, View.ld_unit_zero (S := S1024x512) zero_offsets, View.ld_unit_zero (S := S1x1024) zero_offsets,
      View.ld_unit_zero (S := S1024x1) zero_offsets, View.readCov_unit_zero (S := S1024x1) _ zero_offsets]

set_option maxHeartbeats 1000000 in
/-- Last column tile: the tile is folded into the two carried columns, and each output gets √(max ε (sq_i + column)). -/
theorem sound_kernel1_last (c : Dev nD) (E : Set ℕ) (i : grid1.Coords)
    (arg2 : Memref sig .tc .vmem S1024x512 .bf16) (harg2 : arg2.IsWhole)
    (arg3 : Memref sig .tc .vmem S1024x512 .bf16) (harg3 : arg3.IsWhole)
    (arg4 : Memref sig .tc .vmem S1024x1 .f32) (harg4 : arg4.IsWhole)
    (arg5 : Memref sig .tc .vmem S1x1024 .f32) (harg5 : arg5.IsWhole)
    (arg6 : Memref sig .tc .vmem S1024x1 .i32) (harg6 : arg6.IsWhole)
    (arg7 : Memref sig .tc .vmem S1x1024 .i32) (harg7 : arg7.IsWhole)
    (arg8 : Memref sig .tc .vmem S1024x1 .f32) (harg8 : arg8.IsWhole)
    (arg9 : Memref sig .tc .vmem S1024x1 .f32) (harg9 : arg9.IsWhole)
    (arg10 : Memref sig .tc .vmem S1024x1 .f32) (harg10 : arg10.IsWhole)
    (arg11 : Memref sig .tc .vmem S1024x1 .f32) (harg11 : arg11.IsWhole)
    (hc1 : ¬cond1 i) (hc2 : cond2 i)
    (x0 x1 : Vec F S1024x512 .bf16) (x2 : Vec F S1024x1 .f32) (x3 : Vec F S1x1024 .f32) (x4 : Vec F S1024x1 .i32) (x5 : Vec F S1x1024 .i32)
    (s0 s1 : Vec F S1024x1 .f32) (K : PUnit → sProp 𝕄) :
    iprop(owns (c : Thread nD τ) arg2 fullShare x0 ∗ owns (c : Thread nD τ) arg3 fullShare x1
        ∗ owns (c : Thread nD τ) arg4 fullShare x2 ∗ owns (c : Thread nD τ) arg5 fullShare x3
        ∗ owns (c : Thread nD τ) arg6 fullShare x4 ∗ owns (c : Thread nD τ) arg7 fullShare x5
        ∗ (∃ d, owns (c : Thread nD τ) arg8 fullShare d) ∗ (∃ d, owns (c : Thread nD τ) arg9 fullShare d)
        ∗ owns (c : Thread nD τ) arg10 fullShare s0 ∗ owns (c : Thread nD τ) arg11 fullShare s1
        ∗ (iprop(owns (c : Thread nD τ) arg2 fullShare x0 ∗ owns (c : Thread nD τ) arg3 fullShare x1
        ∗ owns (c : Thread nD τ) arg4 fullShare x2 ∗ owns (c : Thread nD τ) arg5 fullShare x3
        ∗ owns (c : Thread nD τ) arg6 fullShare x4 ∗ owns (c : Thread nD τ) arg7 fullShare x5
            ∗ owns (c : Thread nD τ) arg8 fullShare (k1_pay3 x2 (k1_pay10 x0 x1 x3 x4 x5 s0))
            ∗ owns (c : Thread nD τ) arg9 fullShare (k1_pay4 x2 (k1_pay1 (k1_pay9 x0 x1 x3 x4 x5) s1))
            ∗ owns (c : Thread nD τ) arg10 fullShare (k1_pay10 x0 x1 x3 x4 x5 s0)
            ∗ owns (c : Thread nD τ) arg11 fullShare (k1_pay1 (k1_pay9 x0 x1 x3 x4 x5) s1)) -∗ K ⟨⟩))
      ⊢ wp frame (wpE (defs₀ (F := F)) Variants.none c none) E (cc1__pairwise_kernel i arg2 harg2 arg3 harg3 arg4 harg4 arg5 harg5 arg6 harg6 arg7 harg7 arg8 harg8 arg9 harg9 arg10 harg10 arg11 harg11) K := by
  simp only [cc1__pairwise_kernel_eq_skeleton]; unfold cc1__pairwise_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%g0, %hg0, S0⟩, ⟨%g1, %hg1, S1⟩, Hk⟩
  subst hf0; subst hf1; subst hf2; subst hf3; subst hf4; subst hf5; subst hg0; subst hg1
  sl_exec (disch := first | exact hc1 | exact hc2)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    try sl_unfold_run_names
    rw [read_writes_cons_unit_zero _ _ zero_offsets]
    simp only [View.readAt_eq_ld, View.ld_unit_zero (S := S1024x512) zero_offsets, View.ld_unit_zero (S := S1x1024) zero_offsets,
      View.ld_unit_zero (S := S1024x1) zero_offsets, View.readCov_unit_zero (S := S1024x1) _ zero_offsets]
  isplitl [H7]
  · iexists _; isplitr
    swap; · iexact H7
    ipureintro
    try sl_unfold_run_names
    rw [read_writes_cons_unit_zero _ _ zero_offsets]
    simp only [View.readAt_eq_ld, View.ld_unit_zero (S := S1024x512) zero_offsets, View.ld_unit_zero (S := S1x1024) zero_offsets,
      View.ld_unit_zero (S := S1024x1) zero_offsets, View.readCov_unit_zero (S := S1024x1) _ zero_offsets]
  isplitl [S0]
  · iexists _; isplitr
    swap; · iexact S0
    ipureintro
    try sl_unfold_run_names
    rw [read_writes_cons_unit_zero _ _ zero_offsets]
    simp only [View.readAt_eq_ld, View.ld_unit_zero (S := S1024x512) zero_offsets, View.ld_unit_zero (S := S1x1024) zero_offsets,
      View.ld_unit_zero (S := S1024x1) zero_offsets, View.readCov_unit_zero (S := S1024x1) _ zero_offsets]
  iexists _; isplitr
  swap; · iexact S1
  ipureintro
  try sl_unfold_run_names
  rw [read_writes_cons_unit_zero _ _ zero_offsets]
  simp only [View.readAt_eq_ld, View.ld_unit_zero (S := S1024x512) zero_offsets, View.ld_unit_zero (S := S1x1024) zero_offsets,
      View.ld_unit_zero (S := S1024x1) zero_offsets, View.readCov_unit_zero (S := S1024x1) _ zero_offsets]

/-! ## What the body finds in the six input buffers -/

/-- An input's current buffer holds its block at every point, fetched there or not (a block not fetched at a point
    is the block of the point before: its index has not moved). -/
theorem before1_0 (c : Dev nD) (t : Fin cfg1.N) (d) : (dat1 V c).before 0 t d = iblk1 V c 0 t :=
  ((dat1 V c).before_in_eq_fetched 0 rfl (fun _ => rfl) (fun _ _ _ => rfl)
      (fun t => by rw [after1_0]; unfold Dat.blockOf iblk1; rw [A_eq1]; try rfl) t d).trans
    (by unfold Dat.fetched Dat.blockOf iblk1; rw [A_eq1]; try rfl)

theorem before1_1 (c : Dev nD) (t : Fin cfg1.N) (d) : (dat1 V c).before 1 t d = iblk1 V c 1 t :=
  ((dat1 V c).before_in_eq_fetched 1 rfl (fun _ => rfl) (fun _ _ _ => rfl)
      (fun t => by rw [after1_1]; unfold Dat.blockOf iblk1; rw [A_eq1]; try rfl) t d).trans
    (by unfold Dat.fetched Dat.blockOf iblk1; rw [A_eq1]; try rfl)

theorem before1_2 (c : Dev nD) (t : Fin cfg1.N) (d) : (dat1 V c).before 2 t d = iblk1 V c 2 t :=
  ((dat1 V c).before_in_eq_fetched 2 rfl (fun _ => rfl) (fun _ _ _ => rfl)
      (fun t => by rw [after1_2]; unfold Dat.blockOf iblk1; rw [A_eq1]; try rfl) t d).trans
    (by unfold Dat.fetched Dat.blockOf iblk1; rw [A_eq1]; try rfl)

theorem before1_3 (c : Dev nD) (t : Fin cfg1.N) (d) : (dat1 V c).before 3 t d = iblk1 V c 3 t :=
  ((dat1 V c).before_in_eq_fetched 3 rfl (fun _ => rfl) (fun _ _ _ => rfl)
      (fun t => by rw [after1_3]; unfold Dat.blockOf iblk1; rw [A_eq1]; try rfl) t d).trans
    (by unfold Dat.fetched Dat.blockOf iblk1; rw [A_eq1]; try rfl)

theorem before1_4 (c : Dev nD) (t : Fin cfg1.N) (d) : (dat1 V c).before 4 t d = iblk1 V c 4 t :=
  ((dat1 V c).before_in_eq_fetched 4 rfl (fun _ => rfl) (fun _ _ _ => rfl)
      (fun t => by rw [after1_4]; unfold Dat.blockOf iblk1; rw [A_eq1]; try rfl) t d).trans
    (by unfold Dat.fetched Dat.blockOf iblk1; rw [A_eq1]; try rfl)

theorem before1_5 (c : Dev nD) (t : Fin cfg1.N) (d) : (dat1 V c).before 5 t d = iblk1 V c 5 t :=
  ((dat1 V c).before_in_eq_fetched 5 rfl (fun _ => rfl) (fun _ _ _ => rfl)
      (fun t => by rw [after1_5]; unfold Dat.blockOf iblk1; rw [A_eq1]; try rfl) t d).trans
    (by unfold Dat.fetched Dat.blockOf iblk1; rw [A_eq1]; try rfl)

/-! ## Where the two outputs are idle -/

/-- Away from the last column tile the outputs are idle and not written back; at it they are live. -/
theorem idleAt1_6 : ∀ t : Fin cfg1.N, ¬cond2 (grid1.coords t) → cfg1.idle 6 (grid1.coords t) = true := by decide +kernel
theorem idleAt1_7 : ∀ t : Fin cfg1.N, ¬cond2 (grid1.coords t) → cfg1.idle 7 (grid1.coords t) = true := by decide +kernel
theorem noFlush1_6 : ∀ t : Fin cfg1.N, ¬cond2 (grid1.coords t) → (cfg1.win 6).flush t = false := by decide +kernel
theorem noFlush1_7 : ∀ t : Fin cfg1.N, ¬cond2 (grid1.coords t) → (cfg1.win 7).flush t = false := by decide +kernel
theorem liveAt1_6 : ∀ t : Fin cfg1.N, cond2 (grid1.coords t) → cfg1.idle 6 (grid1.coords t) = false := by decide +kernel
theorem liveAt1_7 : ∀ t : Fin cfg1.N, cond2 (grid1.coords t) → cfg1.idle 7 (grid1.coords t) = false := by decide +kernel

/-! ## The carried columns, one step unrolled -/

theorem accMax_first (c : Dev nD) (t : Fin cfg1.N) (h0 : t.val % 8 = 0) :
    accMax V c t.val t.isLt = k1_pay10 (iblk1 V c 0 t) (iblk1 V c 1 t) (iblk1 V c 3 t) (iblk1 V c 4 t) (iblk1 V c 5 t) k1_pay5 := by
  obtain ⟨n, hn⟩ := t
  cases n with
  | zero => rfl
  | succ n => exact congrArg (k1_pay10 _ _ _ _ _) (if_pos h0)

theorem accMax_next (c : Dev nD) (t : Fin cfg1.N) (h0 : t.val % 8 ≠ 0) :
    accMax V c t.val t.isLt = k1_pay10 (iblk1 V c 0 t) (iblk1 V c 1 t) (iblk1 V c 3 t) (iblk1 V c 4 t) (iblk1 V c 5 t)
      (accMax V c (t.val - 1) (Nat.lt_of_le_of_lt (Nat.sub_le _ _) t.isLt)) := by
  obtain ⟨n, hn⟩ := t
  cases n with
  | zero => exact absurd (Nat.zero_mod 8) h0
  | succ n => exact congrArg (k1_pay10 _ _ _ _ _) (if_neg h0)

theorem accMin_first (c : Dev nD) (t : Fin cfg1.N) (h0 : t.val % 8 = 0) :
    accMin V c t.val t.isLt = k1_pay1 (k1_pay9 (iblk1 V c 0 t) (iblk1 V c 1 t) (iblk1 V c 3 t) (iblk1 V c 4 t) (iblk1 V c 5 t)) k1_pay6 := by
  obtain ⟨n, hn⟩ := t
  cases n with
  | zero => rfl
  | succ n => exact congrArg (k1_pay1 _) (if_pos h0)

theorem accMin_next (c : Dev nD) (t : Fin cfg1.N) (h0 : t.val % 8 ≠ 0) :
    accMin V c t.val t.isLt = k1_pay1 (k1_pay9 (iblk1 V c 0 t) (iblk1 V c 1 t) (iblk1 V c 3 t) (iblk1 V c 4 t) (iblk1 V c 5 t))
      (accMin V c (t.val - 1) (Nat.lt_of_le_of_lt (Nat.sub_le _ _) t.isLt)) := by
  obtain ⟨n, hn⟩ := t
  cases n with
  | zero => exact absurd (Nat.zero_mod 8) h0
  | succ n => exact congrArg (k1_pay1 _) (if_neg h0)

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d)))

/-- and what it returns: every input's buffer as found; an output's at what the body stored, or as found where the
    output is idle. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t
    ∗ (dat1 V c).leavesExact 6 t
    ∗ (dat1 V c).leavesExact 7 t)

/-- An input is never idle: its buffer is left at its block. -/
theorem leaves1_0 (c : Dev nD) (t : Fin cfg1.N) :
    (dat1 V c).leavesExact 0 t = owns (c : Thread nD τ) (st1_0 t) fullShare (iblk1 V c 0 t) := by
  unfold Dat.leavesExact; rw [show cfg1.idle 0 (cfg1.grid.coords t) = false from rfl, after1_0]

theorem leaves1_1 (c : Dev nD) (t : Fin cfg1.N) :
    (dat1 V c).leavesExact 1 t = owns (c : Thread nD τ) (st1_1 t) fullShare (iblk1 V c 1 t) := by
  unfold Dat.leavesExact; rw [show cfg1.idle 1 (cfg1.grid.coords t) = false from rfl, after1_1]

theorem leaves1_2 (c : Dev nD) (t : Fin cfg1.N) :
    (dat1 V c).leavesExact 2 t = owns (c : Thread nD τ) (st1_2 t) fullShare (iblk1 V c 2 t) := by
  unfold Dat.leavesExact; rw [show cfg1.idle 2 (cfg1.grid.coords t) = false from rfl, after1_2]

theorem leaves1_3 (c : Dev nD) (t : Fin cfg1.N) :
    (dat1 V c).leavesExact 3 t = owns (c : Thread nD τ) (st1_3 t) fullShare (iblk1 V c 3 t) := by
  unfold Dat.leavesExact; rw [show cfg1.idle 3 (cfg1.grid.coords t) = false from rfl, after1_3]

theorem leaves1_4 (c : Dev nD) (t : Fin cfg1.N) :
    (dat1 V c).leavesExact 4 t = owns (c : Thread nD τ) (st1_4 t) fullShare (iblk1 V c 4 t) := by
  unfold Dat.leavesExact; rw [show cfg1.idle 4 (cfg1.grid.coords t) = false from rfl, after1_4]

theorem leaves1_5 (c : Dev nD) (t : Fin cfg1.N) :
    (dat1 V c).leavesExact 5 t = owns (c : Thread nD τ) (st1_5 t) fullShare (iblk1 V c 5 t) := by
  unfold Dat.leavesExact; rw [show cfg1.idle 5 (cfg1.grid.coords t) = false from rfl, after1_5]

theorem Phi1_castSucc (c : Dev nD) (t : Fin cfg1.N) : (dat1 V c).Φ t.castSucc = Phi1 V c t.val (Nat.le_of_lt t.isLt) := rfl
theorem Phi1_succ (c : Dev nD) (t : Fin cfg1.N) : (dat1 V c).Φ t.succ = Phi1 V c (t.val + 1) t.isLt := rfl

set_option maxHeartbeats 4000000 in
/-- The body at any point: the inputs' buffers hold their blocks; the point's column tile says which case it is in;
    the invariant hands the body the two carried columns — at what the point before left unless the column tile is
    the first, where they are re-started — and takes them back at this point's; the other scoped buffers, the
    generator register and what the core owes pass through untouched. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5]
  rw [show (dat1 V c).owesAt () t.succ = (dat1 V c).owesAt () t.castSucc from rfl,
    Phi1_castSucc, Phi1_succ, leaves1_0, leaves1_1, leaves1_2, leaves1_3, leaves1_4, leaves1_5]
  have hN : t.val < 64 := lt_of_lt_of_eq t.isLt (show cfg1.N = 64 from N_1)
  by_cases h0 : t.val % 8 = 0
  · have h7 : ¬t.val % 8 = 7 := by omega
    have hc1 : cond1 (grid1.coords t) := (hcond1 t).mpr h0
    have hc2 : ¬cond2 (grid1.coords t) := fun h => h7 ((hcond2 t).mp h)
    rw [Dat.leavesExact_idle (dat1 V c) 6 t (idleAt1_6 t hc2) (noFlush1_6 t hc2),
      Dat.leavesExact_idle (dat1 V c) 7 t (idleAt1_7 t hc2) (noFlush1_7 t hc2)]
    unfold Phi1
    iintro ⟨⟨%f0, %f1, -, S0, S1, Hr, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply (sound_kernel1_first c Set.univ (grid1.coords t) _ _ _ _ _ _ _ _ _ _ _ _ _ _ _ _ _ _ _ _ hc1 hc2
      (iblk1 V c 0 t) (iblk1 V c 1 t) (iblk1 V c 2 t) (iblk1 V c 3 t) (iblk1 V c 4 t) (iblk1 V c 5 t)
      ((dat1 V c).before 6 t d6) ((dat1 V c).before 7 t d7) _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [S0]; · iexists _; iexact S0
    isplitl [S1]; · iexists _; iexact S1
    iintro ⟨H0, H1, H2, H3, H4, H5, H6, H7, S0, S1⟩
    isplitl [S0 S1 Hr Hg]
    · iexists _; iexists _
      isplitr
      swap
      · isplitl [S0]; · iexact S0
        isplitl [S1]; · iexact S1
        isplitl [Hr]; · iexact Hr
        iexact Hg
      ipureintro; intro _
      exact ⟨(accMax_first V c t h0).symm, (accMin_first V c t h0).symm⟩
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexists d6; iexact H6
    iexists d7; iexact H7
  · have hc1 : ¬cond1 (grid1.coords t) := fun h => h0 ((hcond1 t).mp h)
    by_cases h7 : t.val % 8 = 7
    · have hc2 : cond2 (grid1.coords t) := (hcond2 t).mpr h7
      rw [show (dat1 V c).leavesExact 6 t = owns (c : Thread nD τ) (st1_6 t) fullShare ((dat1 V c).after 6 t) from by
          unfold Dat.leavesExact; rw [liveAt1_6 t hc2],
        show (dat1 V c).leavesExact 7 t = owns (c : Thread nD τ) (st1_7 t) fullShare ((dat1 V c).after 7 t) from by
          unfold Dat.leavesExact; rw [liveAt1_7 t hc2],
        after1_6, after1_7, accMax_next V c t h0, accMin_next V c t h0]
      unfold Phi1
      iintro ⟨⟨%f0, %f1, %hf, S0, S1, Hr, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      obtain ⟨rfl, rfl⟩ := hf h0
      iapply (sound_kernel1_last c Set.univ (grid1.coords t) _ _ _ _ _ _ _ _ _ _ _ _ _ _ _ _ _ _ _ _ hc1 hc2
        (iblk1 V c 0 t) (iblk1 V c 1 t) (iblk1 V c 2 t) (iblk1 V c 3 t) (iblk1 V c 4 t) (iblk1 V c 5 t) _ _ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [H7]; · iexists _; iexact H7
      isplitl [S0]; · iexact S0
      isplitl [S1]; · iexact S1
      iintro ⟨H0, H1, H2, H3, H4, H5, H6, H7, S0, S1⟩
      isplitl [S0 S1 Hr Hg]
      · iexists _; iexists _
        isplitr
        swap
        · isplitl [S0]; · iexact S0
          isplitl [S1]; · iexact S1
          isplitl [Hr]; · iexact Hr
          iexact Hg
        ipureintro; intro _
        exact ⟨(accMax_next V c t h0).symm, (accMin_next V c t h0).symm⟩
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexact H7
    · have hc2 : ¬cond2 (grid1.coords t) := fun h => h7 ((hcond2 t).mp h)
      rw [Dat.leavesExact_idle (dat1 V c) 6 t (idleAt1_6 t hc2) (noFlush1_6 t hc2),
        Dat.leavesExact_idle (dat1 V c) 7 t (idleAt1_7 t hc2) (noFlush1_7 t hc2)]
      unfold Phi1
      iintro ⟨⟨%f0, %f1, %hf, S0, S1, Hr, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      obtain ⟨rfl, rfl⟩ := hf h0
      iapply (sound_kernel1_mid c Set.univ (grid1.coords t) _ _ _ _ _ _ _ _ _ _ _ _ _ _ _ _ _ _ _ _ hc1 hc2
        (iblk1 V c 0 t) (iblk1 V c 1 t) (iblk1 V c 2 t) (iblk1 V c 3 t) (iblk1 V c 4 t) (iblk1 V c 5 t)
        ((dat1 V c).before 6 t d6) ((dat1 V c).before 7 t d7) _ _ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [S0]; · iexact S0
      isplitl [S1]; · iexact S1
      iintro ⟨H0, H1, H2, H3, H4, H5, H6, H7, S0, S1⟩
      isplitl [S0 S1 Hr Hg]
      · iexists _; iexists _
        isplitr
        swap
        · isplitl [S0]; · iexact S0
          isplitl [S1]; · iexact S1
          isplitl [Hr]; · iexact Hr
          iexact Hg
        ipureintro; intro _
        exact ⟨(accMax_next V c t h0).symm, (accMin_next V c t h0).symm⟩
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexists d6; iexact H6
      iexists d7; iexact H7

/-- The body obligation of call 1, at every point. -/
theorem body_obligation1 (c : Dev nD) : BodyObligation (dat1 (F := F) V c) (defs₀ (F := F)) Variants.none () Set.univ := fun t => by
  rw [bigSep_W1, bigSep_W1]
  exact sound_body1 V c t

/-! ## The invariant at the two ends of the call -/

/-- What the launch hands the call — the generator register and every scoped buffer that is no staging buffer of
    the call, each at some contents — is the invariant before the first point: the two carried columns are among
    those buffers, and before the first point nothing is said of what they hold. -/
theorem phi1_in (c : Dev nD) : iprop((∃ r, prngReg c r) ∗ Pipeline.scopedRest (Ix := Unit) (Name := ℕ) (U := UR sig nD τ) (Lvl := ℕ) (Val := Elt F) spec1 c) ⊢ (dat1 V c).Φ 0 := by
  rw [Phi1_eq, scopedRest1_eq]; unfold Phi1 rest1
  simp only [owns_whole]
  iintro ⟨Hg, A1, A2, A3, A4, A5, A6, A7, A8, ⟨%f0, S0⟩, ⟨%f1, S1⟩⟩
  iexists f0; iexists f1
  isplitr
  · ipureintro; intro h; exact absurd (Nat.zero_mod 8) h
  isplitl [S0]; · iexact S0
  isplitl [S1]; · iexact S1
  isplitr [Hg]
  · isplitl [A1]; · iexact A1
    isplitl [A2]; · iexact A2
    isplitl [A3]; · iexact A3
    isplitl [A4]; · iexact A4
    isplitl [A5]; · iexact A5
    isplitl [A6]; · iexact A6
    isplitl [A7]; · iexact A7
    iexact A8
  iexact Hg

/-- After the last point the invariant gives the same back: what the two carried columns hold is forgotten. -/
theorem phi1_out (c : Dev nD) : (dat1 V c).Φ (Fin.last cfg1.N) ⊢ iprop((∃ r, prngReg c r) ∗ Pipeline.scopedRest (Ix := Unit) (Name := ℕ) (U := UR sig nD τ) (Lvl := ℕ) (Val := Elt F) spec1 c) := by
  rw [Phi1_eq, scopedRest1_eq]; unfold Phi1 rest1
  simp only [owns_whole]
  iintro ⟨%f0, %f1, -, S0, S1, ⟨A1, A2, A3, A4, A5, A6, A7, A8⟩, Hg⟩
  isplitl [Hg]; · iexact Hg
  isplitl [A1]; · iexact A1
  isplitl [A2]; · iexact A2
  isplitl [A3]; · iexact A3
  isplitl [A4]; · iexact A4
  isplitl [A5]; · iexact A5
  isplitl [A6]; · iexact A6
  isplitl [A7]; · iexact A7
  isplitl [A8]; · iexact A8
  isplitl [S0]; · iexists f0; iexact S0
  iexists f1; iexact S1

end Cert.KernelIdeal.Hand

end
-- ==== Proof.KI.Tail.lean ====
/-
  The host operations of the idealized kernel's @main read as functions: the three reshapes between the two calls
  (the labels as a column and as a row, the squared norms' column as a row), and the operations after the second
  call — the difference of its two output vectors plus 1/2, clipped below at 0, summed from 0 and divided by 8192.
-/
import proofs.«126033_j28338194219418_2_alg».proof.Proof.Gen.KernelIdeal.Regions
import Idealize.ShloMosaic.Lib.StableHlo.Run

noncomputable section

namespace Cert.KernelIdeal.Hand

open Idealize.ShloMosaic Idealize.ShloMosaic.TcCoe Idealize.SL.Sem
open Cert.KernelIdeal Cert.KernelIdeal.Gen

variable {F : FTy → Type} [FloatOps F]

/-- The loss of two distance vectors: mean over the 8192 rows of max 0 (ap − an + 1/2). -/
def tailK (v5 v6 : FVec F S8192 .f32) : FVec F S_ .f32 :=
  Host.divf (Host.reduceAdd (maximumf (addf (subf v5 v6) (broadcastInDim S8192 ![] bcast_S_S8192 (constant S_ .f32 0x3F000000#32)))
      (broadcastInDim S8192 ![] bcast_S_S8192 (constant S_ .f32 0x00000000#32))) (constant S_ .f32 0x00000000#32) reducesTo_S8192_S_d0 h_S_)
    (constant S_ .f32 0x46000000#32)

/-- The result buffer after the last three stretches of host operations, from any contents before them: the loss of
    the second call's two output columns read as vectors. -/
theorem tail_eq (W : Valuation τ sig (Elt F)) :
    (StableHlo.after hostOps2_2 (StableHlo.after hostOps2_1 (StableHlo.after hostOps2 W)) (Proc.devRef .tc main_v12) : FVec F S_ .f32)
      = tailK (shapeCast S8192 (W (Proc.devRef .tc main_v4_0) : FVec F S8192x1 .f32) shapeCasts_S8192x1_S8192)
          (shapeCast S8192 (W (Proc.devRef .tc main_v4_1) : FVec F S8192x1 .f32) shapeCasts_S8192x1_S8192) := by
  after_results
  rfl

/-- The squared norms' column re-laid as a row. -/
theorem host1_v3 (W : Valuation τ sig (Elt F)) :
    (StableHlo.after hostOps1 W (Proc.devRef .tc main_v3) : FVec F S1x8192 .f32)
      = shapeCast S1x8192 (W (Proc.devRef .tc main_v0_1) : FVec F S8192x1 .f32) shapeCasts_S8192x1_S1x8192 := by
  after_results
  rfl
/-- The labels as a column. -/
theorem host1_v1 (W : Valuation τ sig (Elt F)) :
    (StableHlo.after hostOps1 W (Proc.devRef .tc main_v1) : IVec S8192x1 32)
      = shapeCast S8192x1 (W (Proc.devRef .tc main_arg2) : IVec S8192 32) shapeCasts_S8192_S8192x1 := by
  after_results
  rfl
/-- The labels as a row. -/
theorem host1_v2 (W : Valuation τ sig (Elt F)) :
    (StableHlo.after hostOps1 W (Proc.devRef .tc main_v2) : IVec S1x8192 32)
      = shapeCast S1x8192 (W (Proc.devRef .tc main_arg2) : IVec S8192 32) shapeCasts_S8192_S1x8192 := by
  after_results
  rfl

end Cert.KernelIdeal.Hand

end
-- ==== Proof.Spec.lean ====
/-
  The mathematics of the kernel and of the reference over the extended reals, on plain index types.

  x is the re-weighted feature matrix (8192 rows of 512 features), tg the rows' labels. Row n's squared norm is
  sqv n, its inner product with row j is dotv n j. Two rows are a positive pair when their labels agree.

  The kernel mines on  tv n j = sqv j − 2·dotv n j  (the row's own squared norm left out): per column tile J of
  1024 rows it takes the maximum over the positives and the minimum over the negatives, folds the eight tiles
  from −∞ and +∞, and only then adds sqv n, clips below at ε and takes the square root (apK, anK).

  The reference computes every distance  √(max ε (sqv n + sqv j − 2·dotv n j))  first and takes the row's maximum
  over the positives and minimum over the negatives (apR, anR).
-/
import Idealize.ShloMosaic.PureOps.Ideal

noncomputable section

namespace Cert.Spec

open Idealize.ShloMosaic

/-- The float words 2.0 and ε = f32(1e-12) as extended reals. -/
def two : EReal := Ideal.ofBits .f32 0x40000000#32
def eps : EReal := Ideal.ofBits .f32 0x2B8CBCCC#32

variable (x : Fin 8192 → Fin 512 → EReal) (tg : Fin 8192 → BitVec 32)

/-- Row n's sum of squares (the sum taken from the zero a reduction starts at). -/
def sqv (n : Fin 8192) : EReal := 0 + ∑ k : Fin 512, x n k * x n k
/-- Rows n and j's inner product. -/
def dotv (n j : Fin 8192) : EReal := ∑ k : Fin 512, x n k * x j k
/-- What the kernel mines on: the squared distance less row n's own squared norm. -/
def tv (n j : Fin 8192) : EReal := sqv x j - two * dotv x n j
/-- The positives' candidates (−∞ off the mask) and the negatives' (+∞ on the mask). -/
def posv (n j : Fin 8192) : EReal := if tg n = tg j then tv x n j else ⊥
def negv (n j : Fin 8192) : EReal := if tg n = tg j then ⊤ else tv x n j
/-- Row l of column tile J. -/
def col (J : Fin 8) (l : Fin 1024) : Fin 8192 := ⟨J.val * 1024 + l.val, by omega⟩
/-- One tile's row maximum / minimum. -/
def tileMax (n : Fin 8192) (J : Fin 8) : EReal := Finset.univ.sup fun l : Fin 1024 => posv x tg n (col J l)
def tileMin (n : Fin 8192) (J : Fin 8) : EReal := Finset.univ.inf fun l : Fin 1024 => negv x tg n (col J l)
/-- The carried maximum / minimum after the first J tiles. -/
def runMax (n : Fin 8192) : ℕ → EReal
  | 0 => ⊥
  | J + 1 => max (runMax n J) (if h : J < 8 then tileMax x tg n ⟨J, h⟩ else ⊥)
def runMin (n : Fin 8192) : ℕ → EReal
  | 0 => ⊤
  | J + 1 => min (runMin n J) (if h : J < 8 then tileMin x tg n ⟨J, h⟩ else ⊤)
/-- The kernel's hardest-positive and hardest-negative distances of row n. -/
def apK (n : Fin 8192) : EReal := Ideal.sqrt (max eps (sqv x n + runMax x tg n 8))
def anK (n : Fin 8192) : EReal := Ideal.sqrt (max eps (sqv x n + runMin x tg n 8))
/-- The reference's distance of rows n and j, and its hardest positive and negative of row n. -/
def distv (n j : Fin 8192) : EReal := Ideal.sqrt (max eps ((sqv x n + sqv x j) - two * dotv x n j))
def apR (n : Fin 8192) : EReal := Finset.univ.sup fun j : Fin 8192 => if tg n = tg j then distv x n j else ⊥
def anR (n : Fin 8192) : EReal := Finset.univ.inf fun j : Fin 8192 => if tg n = tg j then ⊤ else distv x n j

end Cert.Spec

end
-- ==== Proof.LibColumn.lean ====
/-
  A vector as a column. A length-`a` vector reshaped to `[a, 1]` reads, at `(i, 0)`, the vector at `i`; and an
  `[a, 1]` column broadcast across `b` columns reads, at `(p, c)`, the column at `(p, 0)`. (The companions for
  a row `[1, a]` are the library's.)
-/
import Idealize.ShloMosaic.Lib.ValueLayout
import Idealize.ShloMosaic.Lib.Pipeline.Value

noncomputable section

namespace Cert.Column

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array broadcast to `[a, b]` reads, at `(p, c)`, the operand's one column at `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Column

end
-- ==== Proof.LibAxisFold.lean ====
/-
  The maximum down a column, the maximum along a row and the sum along a row of a matrix, each read at one
  index.

  An [a, b] array of extended reals reduced by `max` along axis 0 (down its rows), from the value a starting
  word denotes, holds at column l the fold of `max` from that value over the entries (k, l), k < a; reduced
  along axis 1 it holds at row p the fold over the entries (p, k), k < b; and reduced by addition along axis 1
  from a zero starting value it holds at row p the finite sum of the entries (p, k). (The sum down a column is
  the companion file's.) Stated with the operation's own proof arguments as variables, so that a printed
  reduction meets each lemma in term mode whatever proofs it carries. Depends on no program.
-/
import Idealize.ShloMosaic.Lib.ValueIdx
import Idealize.ShloMosaic.PureOps.Ideal.Laws

noncomputable section

namespace Cert.AxisFold

open Idealize.ShloMosaic Idealize.ShloMosaic.ValueIdx

/-- The maximum of column `l` of an [a, b] array over its `a` rows, folded from the value of the word `acc`. -/
theorem column_max {a b : ℕ} (v : FVec Ideal ⟨2, ![a, b]⟩ .f32) (acc : BitVec (FTy.f32).bits)
    (h : (⟨2, ![a, b]⟩ : Shape).Reduces [0] ⟨1, ![b]⟩)
    (hφ : FKind.Formats .f32) (hacc : acc = FKind.maximumf.neutral .f32 hφ) (l : Fin b) :
    multiReduction .maximumf [0] ⟨1, ![b]⟩ v acc h hφ hacc (ix1 l)
      = (Finset.univ : Finset (Fin a)).fold max (Ideal.ofBits .f32 acc) fun k => v (ix2 k l) :=
  (Ideal.multiReduction_maximumf_single v acc h hφ hacc (ix1 l)).trans
    (congrArg (fun f => Finset.fold max (Ideal.ofBits .f32 acc) f (Finset.univ : Finset (Fin a)))
      (funext fun k => congrArg v (funext fun c => Fin.ext (by
        match c with
        | ⟨0, _⟩ => rfl
        | ⟨1, _⟩ => rfl))))

/-- The maximum of row `p` of an [a, b] array over its `b` columns, folded from the value of the word `acc`. -/
theorem row_max {a b : ℕ} (v : FVec Ideal ⟨2, ![a, b]⟩ .f32) (acc : BitVec (FTy.f32).bits)
    (h : (⟨2, ![a, b]⟩ : Shape).Reduces [1] ⟨1, ![a]⟩)
    (hφ : FKind.Formats .f32) (hacc : acc = FKind.maximumf.neutral .f32 hφ) (p : Fin a) :
    multiReduction .maximumf [1] ⟨1, ![a]⟩ v acc h hφ hacc (ix1 p)
      = (Finset.univ : Finset (Fin b)).fold max (Ideal.ofBits .f32 acc) fun k => v (ix2 p k) :=
  (Ideal.multiReduction_maximumf_single v acc h hφ hacc (ix1 p)).trans
    (congrArg (fun f => Finset.fold max (Ideal.ofBits .f32 acc) f (Finset.univ : Finset (Fin b)))
      (funext fun k => congrArg v (funext fun c => Fin.ext (by
        match c with
        | ⟨0, _⟩ => rfl
        | ⟨1, _⟩ => rfl))))

/-- The sum of row `p` of an [a, b] array over its `b` columns, from a zero initial value. -/
theorem row_sum {a b : ℕ} (v : FVec Ideal ⟨2, ![a, b]⟩ .f32) (h : (⟨2, ![a, b]⟩ : Shape).Reduces [1] ⟨1, ![a]⟩)
    (hφ : FKind.Formats .f32) (hacc : (0x00000000#32 : BitVec (FTy.f32).bits) = FKind.add.neutral .f32 hφ) (p : Fin a) :
    multiReduction .add [1] ⟨1, ![a]⟩ v 0x00000000#32 h hφ hacc (ix1 p) = ∑ k : Fin b, v (ix2 p k) :=
  (Ideal.multiReduction_add_single v 0x00000000#32 h hφ hacc (ix1 p)).trans
    (Finset.sum_congr rfl fun k _ => congrArg v (funext fun c => Fin.ext (by
      match c with
      | ⟨0, _⟩ => rfl
      | ⟨1, _⟩ => rfl)))

end Cert.AxisFold

end
-- ==== Proof.KI.Val0.lean ====
/-
  What the first call leaves in its two output arrays, index by index, on the extended reals.

  The first call runs over eight row tiles of 1024 rows. At tile t it multiplies the two argument blocks
  entrywise and writes the product to rows 1024·t … 1024·t + 1023 of the first output, and the rows' sums of
  squares of that product to the same rows of the one-column second output. So after the call the first output
  holds the entrywise product of the two argument arrays, and the second holds, at row n, the sum over the 512
  features k of the square of that product at (n, k).
-/
import proofs.«126033_j28338194219418_2_alg».proof.Proof.KI.Data
import proofs.«126033_j28338194219418_2_alg».proof.Proof.Spec
import proofs.«126033_j28338194219418_2_alg».proof.Proof.LibColumn
import proofs.«126033_j28338194219418_2_alg».proof.Proof.LibAxisFold
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.HandVal

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen

variable (V : (c : Dev nD) → (b : Ref sig .tc) → Buf (Elt Ideal) ((c : Thread nD τ).loc b))

/-- The entrywise product of the two argument arrays, by row and feature. -/
def xw (c : Dev nD) (n : Fin 8192) (k : Fin 512) : EReal :=
  @HMul.hMul EReal EReal EReal _ (V c main_arg0 (ix2 n k)) (V c main_arg1 (ix2 n k))

/-- The first output after the call: the product at every index. -/
abbrev G2 (c : Dev nD) : S8192x512.Idx → EReal := fun i => @HMul.hMul EReal EReal EReal _ (V c main_arg0 i) (V c main_arg1 i)

/-- The second output after the call: at row n the sum of squares of the product's row n. -/
abbrev G3 (c : Dev nD) : S8192x1.Idx → EReal := fun i => Cert.Spec.sqv (xw V c) (i 0)

/-- The four windows' block indices at tile t: (t, 0). -/
theorem idx0 : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0 :=
  (by decide +kernel : ∀ t : Fin grid0.N, _)

/-- The first argument's block at tile t is rows 1024·t … of the argument. -/
theorem iblk0_0_apply (c : Dev nD) (t : Fin cfg0.N) (y : S1024x512.Idx) (i : S8192x512.Idx)
    (h0 : (i 0).val = 1024 * t.val + (y 0).val) (h1 : (i 1).val = (y 1).val) :
    (Hand.iblk0 V c 0 t : Vec Ideal S1024x512 .f32) y = (V c main_arg0 : S8192x512.Idx → EReal) i := by
  obtain ⟨e0, e1, -⟩ := idx0 t
  unfold Hand.iblk0
  rw [View.read_apply]
  show V c main_arg0 _ = V c main_arg0 _
  congr 1
  funext a
  apply Fin.ext
  match a with
  | ⟨0, _⟩ => show win0_0.index t (0 : Fin 2) * 1024 + 1 * (y 0).val = (i 0).val; omega
  | ⟨1, _⟩ => show win0_0.index t (1 : Fin 2) * 512 + 1 * (y 1).val = (i 1).val; omega

/-- The second argument's block at tile t is rows 1024·t … of the argument. -/
theorem iblk0_1_apply (c : Dev nD) (t : Fin cfg0.N) (y : S1024x512.Idx) (i : S8192x512.Idx)
    (h0 : (i 0).val = 1024 * t.val + (y 0).val) (h1 : (i 1).val = (y 1).val) :
    (Hand.iblk0 V c 1 t : Vec Ideal S1024x512 .f32) y = (V c main_arg1 : S8192x512.Idx → EReal) i := by
  obtain ⟨-, -, e0, e1, -⟩ := idx0 t
  unfold Hand.iblk0
  rw [View.read_apply]
  show V c main_arg1 _ = V c main_arg1 _
  congr 1
  funext a
  apply Fin.ext
  match a with
  | ⟨0, _⟩ => show win0_1.index t (0 : Fin 2) * 1024 + 1 * (y 0).val = (i 0).val; omega
  | ⟨1, _⟩ => show win0_1.index t (1 : Fin 2) * 512 + 1 * (y 1).val = (i 1).val; omega

/-- The product payload at an index (the narrowing is the identity on the extended reals). -/
theorem pay0_2_at (v0 v1 : Vec Ideal S1024x512 .f32) (y : S1024x512.Idx) :
    k0_pay2 v0 v1 y = @HMul.hMul EReal EReal EReal _ (v0 y) (v1 y) := rfl

/-- The sums-of-squares payload at row r: the sum over the features of the squared product. -/
theorem pay0_3_at (v0 v1 : Vec Ideal S1024x512 .f32) (y : S1024x1.Idx) :
    k0_pay3 v0 v1 y = ∑ k : Fin 512, @HMul.hMul EReal EReal EReal _
      (@HMul.hMul EReal EReal EReal _ (v0 (ix2 (y 0) k)) (v1 (ix2 (y 0) k)))
      (@HMul.hMul EReal EReal EReal _ (v0 (ix2 (y 0) k)) (v1 (ix2 (y 0) k))) := by
  obtain ⟨r, u, rfl⟩ : ∃ (r : Fin 1024) (u : Fin 1), y = ix2 r u := ⟨y 0, y 1, eq_ix2 y⟩
  unfold k0_pay3 k0_pay1
  exact (Cert.Column.shapeCast_a_a1_apply _ _ r u).trans (Cert.AxisFold.row_sum _ _ _ _ r)

/-- What tile t writes back to the first output is block t of the product array. -/
theorem flushed0_2_eq (c : Dev nD) (t : Fin cfg0.N) :
    (Hand.dat0 (F := Ideal) V c).flushed 2 t = ((cfg0.win 2).blk t).view.read (Elt Ideal) (G2 V c) := by
  show (cfg0.win 2).cut (grid0.coords t) ((Hand.dat0 V c).after 2 t) = _
  rw [Hand.after0_2]
  funext j
  obtain ⟨-, -, -, -, e0, e1, -⟩ := idx0 t
  show k0_pay2 (Hand.iblk0 V c 0 t) (Hand.iblk0 V c 1 t) j = G2 V c (((cfg0.win 2).blk t).view.emb j)
  rw [pay0_2_at]
  have hj0 : (j 0).val < 1024 := (j 0).isLt
  have hj1 : (j 1).val < 512 := (j 1).isLt
  have hk0 : ((((cfg0.win 2).blk t).view.emb j) 0).val = 1024 * t.val + (j 0).val := by
    show win0_2.index t (0 : Fin 2) * 1024 + 1 * (j 0).val = _; omega
  have hk1 : ((((cfg0.win 2).blk t).view.emb j) 1).val = (j 1).val := by
    show win0_2.index t (1 : Fin 2) * 512 + 1 * (j 1).val = _; omega
  rw [iblk0_0_apply V c t j _ hk0 hk1, iblk0_1_apply V c t j _ hk0 hk1]

/-- What tile t writes back to the second output is block t of the sums-of-squares column. -/
theorem flushed0_3_eq (c : Dev nD) (t : Fin cfg0.N) :
    (Hand.dat0 (F := Ideal) V c).flushed 3 t = ((cfg0.win 3).blk t).view.read (Elt Ideal) (G3 V c) := by
  show (cfg0.win 3).cut (grid0.coords t) ((Hand.dat0 V c).after 3 t) = _
  rw [Hand.after0_3]
  funext j
  obtain ⟨-, -, -, -, -, -, e0, e1⟩ := idx0 t
  show k0_pay3 (Hand.iblk0 V c 0 t) (Hand.iblk0 V c 1 t) j = G3 V c (((cfg0.win 3).blk t).view.emb j)
  rw [pay0_3_at]
  have hj0 : (j 0).val < 1024 := (j 0).isLt
  have hk0 : ((((cfg0.win 3).blk t).view.emb j) 0).val = 1024 * t.val + (j 0).val := by
    show win0_3.index t (0 : Fin 2) * 1024 + 1 * (j 0).val = _; omega
  show _ = Cert.Spec.sqv (xw V c) ((((cfg0.win 3).blk t).view.emb j) 0)
  unfold Cert.Spec.sqv
  rw [zero_add]
  refine Finset.sum_congr rfl fun k _ => ?_
  rw [iblk0_0_apply V c t (ix2 (j 0) k) (ix2 ((((cfg0.win 3).blk t).view.emb j) 0) k) hk0 rfl,
    iblk0_1_apply V c t (ix2 (j 0) k) (ix2 ((((cfg0.win 3).blk t).view.emb j) 0) k) hk0 rfl]
  rfl

/-- An index of the first output is in tile t's block iff each coordinate is in the block's range. -/
theorem mem_blk0_2 (t : Fin cfg0.N) (i : S8192x512.Idx) :
    i ∈ ((cfg0.win 2).blk t).view.set ↔ ∀ a : Fin 2, win0_2.index t a * S1024x512.size a ≤ (i a).val ∧ (i a).val < win0_2.index t a * S1024x512.size a + S1024x512.size a := by
  show i ∈ ((View.whole main_v0_0).slice (win0_2.rect t)).set ↔ _
  rw [View.set_slice_whole, Rect.mem_set_unit]
  exact Iff.rfl

/-- An index of the second output is in tile t's block iff each coordinate is in the block's range. -/
theorem mem_blk0_3 (t : Fin cfg0.N) (i : S8192x1.Idx) :
    i ∈ ((cfg0.win 3).blk t).view.set ↔ ∀ a : Fin 2, win0_3.index t a * S1024x1.size a ≤ (i a).val ∧ (i a).val < win0_3.index t a * S1024x1.size a + S1024x1.size a := by
  show i ∈ ((View.whole main_v0_1).slice (win0_3.rect t)).set ↔ _
  rw [View.set_slice_whole, Rect.mem_set_unit]
  exact Iff.rfl

/-- Every index of the first output is in the block of the tile its row falls in. -/
theorem cover0_2 (i : S8192x512.Idx) :
    ∃ t : Fin cfg0.N, (cfg0.win 2).flush t = true ∧ i ∈ ((cfg0.win 2).blk t).view.set := by
  have hi0 : (i 0).val < 8192 := (i 0).isLt
  have hi1 : (i 1).val < 512 := (i 1).isLt
  have hN : cfg0.N = 8 := N_0
  let t : Fin cfg0.N := ⟨(i 0).val / 1024, by omega⟩
  obtain ⟨-, -, -, -, e0, e1, -⟩ := idx0 t
  have ht : t.val = (i 0).val / 1024 := rfl
  refine ⟨t, flush0_2 t, ?_⟩
  rw [mem_blk0_2]
  intro a
  match a with
  | ⟨0, _⟩ => show win0_2.index t (0 : Fin 2) * 1024 ≤ (i 0).val ∧ (i 0).val < win0_2.index t (0 : Fin 2) * 1024 + 1024; omega
  | ⟨1, _⟩ => show win0_2.index t (1 : Fin 2) * 512 ≤ (i 1).val ∧ (i 1).val < win0_2.index t (1 : Fin 2) * 512 + 512; omega

/-- Every index of the second output is in the block of the tile its row falls in. -/
theorem cover0_3 (i : S8192x1.Idx) :
    ∃ t : Fin cfg0.N, (cfg0.win 3).flush t = true ∧ i ∈ ((cfg0.win 3).blk t).view.set := by
  have hi0 : (i 0).val < 8192 := (i 0).isLt
  have hi1 : (i 1).val < 1 := (i 1).isLt
  have hN : cfg0.N = 8 := N_0
  let t : Fin cfg0.N := ⟨(i 0).val / 1024, by omega⟩
  obtain ⟨-, -, -, -, -, -, e0, e1⟩ := idx0 t
  have ht : t.val = (i 0).val / 1024 := rfl
  refine ⟨t, flush0_3 t, ?_⟩
  rw [mem_blk0_3]
  intro a
  match a with
  | ⟨0, _⟩ => show win0_3.index t (0 : Fin 2) * 1024 ≤ (i 0).val ∧ (i 0).val < win0_3.index t (0 : Fin 2) * 1024 + 1024; omega
  | ⟨1, _⟩ => show win0_3.index t (1 : Fin 2) * 1 ≤ (i 1).val ∧ (i 1).val < win0_3.index t (1 : Fin 2) * 1 + 1; omega

/-- THE FIRST OUTPUT after the call: the entrywise product of the two argument arrays. -/
theorem arr0_2 (c : Dev nD) (i : S8192x512.Idx) :
    (Hand.dat0 (F := Ideal) V c).arrAt 2 cfg0.N i = @HMul.hMul EReal EReal EReal _ (V c main_arg0 i) (V c main_arg1 i) :=
  congrFun ((Hand.dat0 (F := Ideal) V c).arrAt_eq_of_cover 2 (G2 V c) (fun t _ => flushed0_2_eq V c t) cover0_2) i

/-- THE SECOND OUTPUT after the call: at row n the sum of squares of the product's row n. -/
theorem arr0_3 (c : Dev nD) (n : Fin 8192) :
    (Hand.dat0 (F := Ideal) V c).arrAt 3 cfg0.N (ix2 n (0 : Fin 1)) = Cert.Spec.sqv (xw V c) n :=
  congrFun ((Hand.dat0 (F := Ideal) V c).arrAt_eq_of_cover 3 (G3 V c) (fun t _ => flushed0_3_eq V c t) cover0_3) (ix2 n (0 : Fin 1))

end Cert.KernelIdeal.HandVal

end
-- ==== Proof.LibDotNT.lean ====
/-
  A matrix product against a transposed right operand, read at an index, on the extended reals.

  For dimension numbers that contract the left operand's second axis against the right operand's
  SECOND axis, with no batch axes (an `M×K` matrix times the transpose of an `N×K` matrix), entry
  `(p, c)` of the product is `Σ_{q < K} l[p, q] · r[c, q]`. The library states a product as a sum over
  the contraction shape's multi-indices; here that sum is re-indexed by the one contracted coordinate,
  once, for every record of this form and every extent.
-/
import Idealize.ShloMosaic.PureOps.Ideal.Laws
import Idealize.ShloMosaic.Lib.ValueIdx

noncomputable section

open scoped BigOperators

namespace Cert.DotNT

open Idealize.ShloMosaic Idealize.ShloMosaic.ValueIdx

variable {M K N : Nat} (d : DotDims ⟨2, ![M, K]⟩ ⟨2, ![N, K]⟩ ⟨2, ![M, N]⟩)

/-- The dimension numbers of a product with a transposed right operand: contract left axis 1 with right
    axis 1, keep left axis 0 and right axis 0 in that order, no batch axes. -/
structure IsNT : Prop where
  lc : d.lhsContracting = [1]
  rc : d.rhsContracting = [1]
  ln : d.lhsNonContracting = [0]
  rn : d.rhsNonContracting = [0]
  lb : d.lhsBatch = []
  rb : d.rhsBatch = []

variable {d}

/-- The contraction shape has one axis. -/
theorem contr_rank (h : IsNT d) : d.contr.rank = 1 := by rw [d.rank_contr, h.lc]; rfl

/-- That axis has the shared extent `K`. -/
theorem contr_size (h : IsNT d) : d.contr.size ⟨0, by rw [contr_rank h]; exact Nat.one_pos⟩ = K := by
  rw [d.size_contr 0 (by rw [h.lc]; exact Nat.one_pos), List.getElem_of_eq h.lc]
  rfl

/-- A coordinate of an index depends only on the axis number. -/
private theorem coord_congr {s : Shape} (j : s.Idx) (p q : Nat) (hp : p < s.rank) (hq : q < s.rank) (e : p = q) :
    (j ⟨p, hp⟩).val = (j ⟨q, hq⟩).val := by subst e; rfl

/-- The left operand is read at the result's row. -/
theorem lhs_row (h : IsNT d) (j : (⟨2, ![M, N]⟩ : Shape).Idx) (k : d.contr.Idx) : (d.lhsIdx j k 0).val = (j 0).val := by
  unfold DotDims.lhsIdx
  rw [dif_neg (by rw [h.lb]; exact List.not_mem_nil), dif_pos (by rw [h.ln]; exact List.mem_singleton.mpr rfl)]
  simp only [Fin.val_cast]
  exact coord_congr j _ _ _ _ (by rw [h.lb, h.ln]; rfl)

/-- The right operand's ROW is the result's column. -/
theorem rhs_row (h : IsNT d) (j : (⟨2, ![M, N]⟩ : Shape).Idx) (k : d.contr.Idx) : (d.rhsIdx j k 0).val = (j 1).val := by
  unfold DotDims.rhsIdx
  rw [dif_neg (by rw [h.rb]; exact List.not_mem_nil), dif_pos (by rw [h.rn]; exact List.mem_singleton.mpr rfl)]
  simp only [Fin.val_cast]
  exact coord_congr j _ _ _ _ (by rw [h.lb, h.ln, h.rn]; rfl)

/-- The library's sum over contraction multi-indices is the sum over the contracted coordinate. -/
theorem sum_contr (h : IsNT d) (l : (⟨2, ![M, K]⟩ : Shape).Idx → EReal) (r : (⟨2, ![N, K]⟩ : Shape).Idx → EReal)
    (j : (⟨2, ![M, N]⟩ : Shape).Idx) :
    ∑ k : d.contr.Idx, l (d.lhsIdx j k) * r (d.rhsIdx j k) = ∑ q : Fin K, l (ix2 (j 0) q) * r (ix2 (j 1) q) := by
  have hr : d.contr.rank = 1 := contr_rank h
  have hs : d.contr.size ⟨0, by omega⟩ = K := contr_size h
  rw [← Equiv.sum_comp (contrEquiv1 d K hr hs).symm]
  refine Finset.sum_congr rfl fun q _ => ?_
  have hq := contrEquiv1_symm_val d K hr hs q
  have el : d.lhsIdx j ((contrEquiv1 d K hr hs).symm q) = ix2 (j 0) q := funext fun a => Fin.ext (by
    match a with
    | ⟨0, _⟩ => exact lhs_row h j _
    | ⟨1, _⟩ => exact (d.lhsIdx_val_of_single h.lc j _).trans hq)
  have er : d.rhsIdx j ((contrEquiv1 d K hr hs).symm q) = ix2 (j 1) q := funext fun a => Fin.ext (by
    match a with
    | ⟨0, _⟩ => exact rhs_row h j _
    | ⟨1, _⟩ => exact (d.rhsIdx_val_of_single h.rc j _).trans hq)
  rw [el, er]
  rfl

/-- A `tpu.matmul` into a zero accumulator, at entry `(p, c)`. -/
theorem matmul_zero_apply (h : IsNT d) (prec : Option ContractPrecision) {φ₁ φ₂ : FTy}
    (l : FVec Ideal ⟨2, ![M, K]⟩ φ₁) (r : FVec Ideal ⟨2, ![N, K]⟩ φ₂) (p : Fin M) (c : Fin N) :
    matmul d prec l r (constant ⟨2, ![M, N]⟩ .f32 0x00000000#32) (ix2 p c) = ∑ q : Fin K, l (ix2 p q) * r (ix2 c q) :=
  (Ideal.matmul_constant_zero_apply d prec l r (ix2 p c)).trans (sum_contr h l r (ix2 p c))

/-- The host's `dot_general` of the same form, at entry `(p, c)`. -/
theorem dotGeneral_apply (h : IsNT d) (prec : Option ContractPrecision) {φ₁ φ₂ : FTy}
    (l : FVec Ideal ⟨2, ![M, K]⟩ φ₁) (r : FVec Ideal ⟨2, ![N, K]⟩ φ₂) (p : Fin M) (c : Fin N) :
    Host.dotGeneral d prec l r (ix2 p c) = ∑ q : Fin K, l (ix2 p q) * r (ix2 c q) :=
  (Ideal.dotGeneral_apply d prec .single l r (ix2 p c)).trans (sum_contr h l r (ix2 p c))

end Cert.DotNT

end
-- ==== Proof.KI.Val1Pay.lean ====
/-
  The second call's pure values read at an index, on the extended reals.

  For row p of the row tile and row q of the column tile the mined quantity is  s_q − 2·Σ_k a[p,k]·b[q,k]  (s the
  column tile's squared norms, a and b the two feature blocks); the mask is on where the two labels agree. The
  tile's masked maximum folds the mined quantity over q from −∞ (−∞ off the mask), the masked minimum from +∞
  (+∞ on the mask); each is then folded into the carried column. The last column tile adds the row tile's own
  squared norm to the carried value, clips below at ε and takes the square root.
-/
import proofs.«126033_j28338194219418_2_alg».proof.Proof.Gen.KernelIdeal.Skeleton
import proofs.«126033_j28338194219418_2_alg».proof.Proof.Spec
import proofs.«126033_j28338194219418_2_alg».proof.Proof.LibColumn
import proofs.«126033_j28338194219418_2_alg».proof.Proof.LibAxisFold
import proofs.«126033_j28338194219418_2_alg».proof.Proof.LibDotNT
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.HandVal

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen

/-- The f32 words of −∞ and +∞. -/
theorem ofBits_neg_inf : Ideal.ofBits .f32 0xFF800000#32 = (⊥ : EReal) := by simp [Ideal.ofBits, Ideal.ieee]
theorem ofBits_pos_inf : Ideal.ofBits .f32 0x7F800000#32 = (⊤ : EReal) := by simp [Ideal.ofBits, Ideal.ieee]

/-- A fold of max from −∞ is the supremum; a fold of min from +∞ the infimum. -/
theorem fold_max_bot {ι : Type} (s : Finset ι) (f : ι → EReal) : s.fold max ⊥ f = s.sup f := by
  classical
  induction s using Finset.induction_on with
  | empty => simp
  | insert a s ha ih => rw [Finset.fold_insert ha, Finset.sup_insert, ih]
theorem fold_min_top {ι : Type} (s : Finset ι) (f : ι → EReal) : s.fold min ⊤ f = s.inf f := by
  classical
  induction s using Finset.induction_on with
  | empty => simp
  | insert a s ha ih => rw [Finset.fold_insert ha, Finset.inf_insert, ih]

/-- The minimum of row p of an [a, b] array over its b columns, folded from the value of the word acc. -/
theorem row_min {a b : ℕ} (v : FVec Ideal ⟨2, ![a, b]⟩ .f32) (acc : BitVec (FTy.f32).bits)
    (h : (⟨2, ![a, b]⟩ : Shape).Reduces [1] ⟨1, ![a]⟩)
    (hφ : FKind.Formats .f32) (hacc : acc = FKind.minimumf.neutral .f32 hφ) (p : Fin a) :
    multiReduction .minimumf [1] ⟨1, ![a]⟩ v acc h hφ hacc (ix1 p)
      = (Finset.univ : Finset (Fin b)).fold min (Ideal.ofBits .f32 acc) fun k => v (ix2 p k) :=
  ((multiReduction_minimumf_eq_fold v acc h hφ hacc (ix1 p)).trans (h.fold_filter_drop_single _ _ v (ix1 p))).trans
    (congrArg (fun f => Finset.fold min (Ideal.ofBits .f32 acc) f (Finset.univ : Finset (Fin b)))
      (funext fun k => congrArg v (funext fun c => Fin.ext (by
        match c with
        | ⟨0, _⟩ => rfl
        | ⟨1, _⟩ => rfl))))

section Tile

variable (a b : S1024x512.Idx → EReal) (s : S1x1024.Idx → EReal) (la : S1024x1.Idx → BitVec 32) (lb : S1x1024.Idx → BitVec 32)

/-- The mined quantity at (p, q). -/
theorem pay7_at (p q : Fin 1024) :
    k1_pay7 (F := Ideal) a b s (ix2 p q) = s (ix2 (0 : Fin 1) q) - Cert.Spec.two * ∑ k : Fin 512, a (ix2 p k) * b (ix2 q k) := by
  have e1 : broadcastTo S1024x1024 (shapeCast S1x1024 s shapeCasts_S1x1024_S1x1024) broadcasts_S1x1024_S1024x1024 (ix2 p q) = s (ix2 (0 : Fin 1) q) := by
    rw [shapeCast_self]; exact broadcastTo_1b_ab_apply _ _ p q
  have e2 : matmul (F := Ideal) (φ₁ := .bf16) (φ₂ := .bf16) dot_S1024x512_S1024x512_S1024x1024_1_1_0_0_n_n none (shapeCast S1024x512 a shapeCasts_S1024x512_S1024x512) (shapeCast S1024x512 b shapeCasts_S1024x512_S1024x512) (constant (F := Ideal) S1024x1024 .f32 0x00000000#32) (ix2 p q) = ∑ k : Fin 512, a (ix2 p k) * b (ix2 q k) := by
    rw [shapeCast_self, shapeCast_self]
    exact Cert.DotNT.matmul_zero_apply (d := dot_S1024x512_S1024x512_S1024x1024_1_1_0_0_n_n) ⟨rfl, rfl, rfl, rfl, rfl, rfl⟩ none (φ₁ := .bf16) (φ₂ := .bf16) a b p q
  unfold k1_pay7
  exact congrArg₂ (fun u w : EReal => u - Cert.Spec.two * w) e1 e2

/-- The mask at (p, q): on exactly where the two labels agree. -/
theorem pay8_at (p q : Fin 1024) :
    k1_pay8 (F := Ideal) la lb (ix2 p q) = if la (ix2 p (0 : Fin 1)) = lb (ix2 (0 : Fin 1) q) then 1#1 else 0#1 := by
  have e1 : broadcastTo S1024x1024 (shapeCast S1024x1 la shapeCasts_S1024x1_S1024x1) broadcasts_S1024x1_S1024x1024 (ix2 p q) = la (ix2 p (0 : Fin 1)) := by
    rw [shapeCast_self]; exact Cert.Column.broadcastTo_a1_ab_apply _ _ p q
  have e2 : broadcastTo S1024x1024 (shapeCast S1x1024 lb shapeCasts_S1x1024_S1x1024) broadcasts_S1x1024_S1024x1024 (ix2 p q) = lb (ix2 (0 : Fin 1) q) := by
    rw [shapeCast_self]; exact broadcastTo_1b_ab_apply _ _ p q
  unfold k1_pay8
  refine (congrArg₂ (fun u w : BitVec 32 => IntOp.cmpi .eq u w) e1 e2).trans ?_
  unfold IntOp.cmpi
  by_cases h : la (ix2 p (0 : Fin 1)) = lb (ix2 (0 : Fin 1) q)
  · rw [if_pos h, h]; simp
  · rw [if_neg h, show (la (ix2 p (0 : Fin 1)) == lb (ix2 (0 : Fin 1) q)) = false from beq_eq_false_iff_ne.mpr h]; rfl

/-- The masked tile maximum of row p, folded into a carried column. -/
theorem pay10_at (acc : S1024x1.Idx → EReal) (p : Fin 1024) (u : Fin 1) :
    k1_pay10 (F := Ideal) a b s la lb acc (ix2 p u)
      = max (acc (ix2 p u)) (Finset.univ.sup fun q : Fin 1024 =>
          if la (ix2 p (0 : Fin 1)) = lb (ix2 (0 : Fin 1) q)
            then s (ix2 (0 : Fin 1) q) - Cert.Spec.two * ∑ k : Fin 512, a (ix2 p k) * b (ix2 q k) else ⊥) := by
  have e : shapeCast S1024x1 (multiReduction (F := Ideal) .maximumf [1] S1024
        (select (k1_pay8 (F := Ideal) la lb) (k1_pay7 (F := Ideal) a b s) (broadcast S1024x1024 (Scalar.ofBits (F := Ideal) .f32 0xFF800000#32)))
        0xFF800000#32 reduces_S1024x1024_S1024 (.inl rfl) rfl) shapeCasts_S1024_S1024x1 (ix2 p u)
      = Finset.univ.sup fun q : Fin 1024 =>
          if la (ix2 p (0 : Fin 1)) = lb (ix2 (0 : Fin 1) q)
            then s (ix2 (0 : Fin 1) q) - Cert.Spec.two * ∑ k : Fin 512, a (ix2 p k) * b (ix2 q k) else ⊥ := by
    refine (Cert.Column.shapeCast_a_a1_apply _ _ p u).trans ((Cert.AxisFold.row_max _ _ _ _ _ p).trans ?_)
    rw [ofBits_neg_inf, fold_max_bot]
    refine congrArg (Finset.univ.sup) (funext fun q => ?_)
    show Scalar.select (k1_pay8 (F := Ideal) la lb (ix2 p q)) (k1_pay7 (F := Ideal) a b s (ix2 p q)) (Ideal.ofBits .f32 0xFF800000#32) = _
    rw [pay8_at, pay7_at, ofBits_neg_inf]
    by_cases h : la (ix2 p (0 : Fin 1)) = lb (ix2 (0 : Fin 1) q)
    · rw [if_pos h, if_pos h]; exact select_one _ _
    · rw [if_neg h, if_neg h]; exact select_zero _ _
  unfold k1_pay10
  exact (congrFun (shapeCast_self _ _) (ix2 p u)).trans (congrArg (fun w : EReal => max (acc (ix2 p u)) w) e)

/-- The masked tile minimum of row p. -/
theorem pay9_at (p : Fin 1024) (u : Fin 1) :
    k1_pay9 (F := Ideal) a b s la lb (ix2 p u)
      = Finset.univ.inf fun q : Fin 1024 =>
          if la (ix2 p (0 : Fin 1)) = lb (ix2 (0 : Fin 1) q)
            then ⊤ else s (ix2 (0 : Fin 1) q) - Cert.Spec.two * ∑ k : Fin 512, a (ix2 p k) * b (ix2 q k) := by
  unfold k1_pay9
  refine (Cert.Column.shapeCast_a_a1_apply _ _ p u).trans ((row_min _ _ _ _ _ p).trans ?_)
  rw [ofBits_pos_inf, fold_min_top]
  refine congrArg (Finset.univ.inf) (funext fun q => ?_)
  show Scalar.select (k1_pay8 (F := Ideal) la lb (ix2 p q)) (Ideal.ofBits .f32 0x7F800000#32) (k1_pay7 (F := Ideal) a b s (ix2 p q)) = _
  rw [pay8_at, pay7_at, ofBits_pos_inf]
  by_cases h : la (ix2 p (0 : Fin 1)) = lb (ix2 (0 : Fin 1) q)
  · rw [if_pos h, if_pos h]; exact select_one _ _
  · rw [if_neg h, if_neg h]; exact select_zero _ _

end Tile

/-- A tile minimum folded into a carried column. -/
theorem pay1_at (m acc : S1024x1.Idx → EReal) (y : S1024x1.Idx) : k1_pay1 (F := Ideal) m acc y = min (acc y) (m y) := by
  unfold k1_pay1
  exact congrFun (shapeCast_self _ _) y

/-- The two carried columns start at −∞ and at +∞. -/
theorem pay5_at (y : S1024x1.Idx) : k1_pay5 (F := Ideal) y = (⊥ : EReal) := by
  unfold k1_pay5
  exact (congrFun (shapeCast_self _ _) y).trans ofBits_neg_inf
theorem pay6_at (y : S1024x1.Idx) : k1_pay6 (F := Ideal) y = (⊤ : EReal) := by
  unfold k1_pay6
  exact (congrFun (shapeCast_self _ _) y).trans ofBits_pos_inf

/-- What the last column tile writes: the square root of the squared norm plus the carried value, clipped below at ε. -/
theorem pay3_at (sq acc : S1024x1.Idx → EReal) (y : S1024x1.Idx) :
    k1_pay3 (F := Ideal) sq acc y = Ideal.sqrt (max Cert.Spec.eps (sq y + acc y)) := by
  have e : k1_pay2 (F := Ideal) sq = sq := shapeCast_self _ _
  unfold k1_pay3
  rw [e]
  rfl
theorem pay4_at (sq acc : S1024x1.Idx → EReal) (y : S1024x1.Idx) :
    k1_pay4 (F := Ideal) sq acc y = Ideal.sqrt (max Cert.Spec.eps (sq y + acc y)) := by
  have e : k1_pay2 (F := Ideal) sq = sq := shapeCast_self _ _
  unfold k1_pay4
  rw [e]
  rfl

end Cert.KernelIdeal.HandVal

end
-- ==== Proof.KI.Val1Acc.lean ====
/-
  The second call's blocks as rows of its entry arrays, and its two carried columns in closed form.

  At point t = 8·I + J the call reads row tile I and column tile J (rows 1024·I … and 1024·J … of the feature
  array, of the squared-norm column and row, of the label column and row). When the squared-norm row and the label
  row agree with the feature array and the label column, the carried column of maxima after point 8·I + J holds
  at row p the running maximum over the first J + 1 column tiles of row 1024·I + p, and the carried column of
  minima the running minimum: by induction on the point, each step folding one tile's masked extremum.
-/
import proofs.«126033_j28338194219418_2_alg».proof.Proof.KI.Data
import proofs.«126033_j28338194219418_2_alg».proof.Proof.KI.Val1Pay
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.HandVal

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen

variable (V : (c : Dev nD) → (b : Ref sig .tc) → Buf (Elt Ideal) ((c : Thread nD τ).loc b))

/-- The feature array and the label column as the second call finds them. -/
def xf (c : Dev nD) (n : Fin 8192) (k : Fin 512) : EReal := V c main_v0_0 (ix2 n k)
def tgf (c : Dev nD) (n : Fin 8192) : BitVec 32 := V c main_v1 (ix2 n (0 : Fin 1))

/-- The six input blocks at point t: the row and column tiles' features, the row tile's squared norms (a column), the
    column tile's (a row), the row tile's labels (a column), the column tile's (a row). -/
abbrev bA (c : Dev nD) (t : Fin cfg1.N) : S1024x512.Idx → EReal := Hand.iblk1 V c 0 t
abbrev bB (c : Dev nD) (t : Fin cfg1.N) : S1024x512.Idx → EReal := Hand.iblk1 V c 1 t
abbrev bSq (c : Dev nD) (t : Fin cfg1.N) : S1024x1.Idx → EReal := Hand.iblk1 V c 2 t
abbrev bS (c : Dev nD) (t : Fin cfg1.N) : S1x1024.Idx → EReal := Hand.iblk1 V c 3 t
abbrev bLa (c : Dev nD) (t : Fin cfg1.N) : S1024x1.Idx → BitVec 32 := Hand.iblk1 V c 4 t
abbrev bLb (c : Dev nD) (t : Fin cfg1.N) : S1x1024.Idx → BitVec 32 := Hand.iblk1 V c 5 t

/-- The eight windows' block indices at point t: row tile t / 8, column tile t % 8. -/
theorem idx1 : ∀ t : Fin cfg1.N,
    win1_0.index t (0 : Fin 2) = t.val / 8 ∧ win1_0.index t (1 : Fin 2) = 0
    ∧ win1_1.index t (0 : Fin 2) = t.val % 8 ∧ win1_1.index t (1 : Fin 2) = 0
    ∧ win1_2.index t (0 : Fin 2) = t.val / 8 ∧ win1_2.index t (1 : Fin 2) = 0
    ∧ win1_3.index t (0 : Fin 2) = 0 ∧ win1_3.index t (1 : Fin 2) = t.val % 8
    ∧ win1_4.index t (0 : Fin 2) = t.val / 8 ∧ win1_4.index t (1 : Fin 2) = 0
    ∧ win1_5.index t (0 : Fin 2) = 0 ∧ win1_5.index t (1 : Fin 2) = t.val % 8
    ∧ win1_6.index t (0 : Fin 2) = t.val / 8 ∧ win1_6.index t (1 : Fin 2) = 0
    ∧ win1_7.index t (0 : Fin 2) = t.val / 8 ∧ win1_7.index t (1 : Fin 2) = 0 :=
  (by decide +kernel : ∀ t : Fin grid1.N, _)

section Blocks

variable (c : Dev nD) (t : Fin cfg1.N) (I J : Fin 8) (hI : I.val = t.val / 8) (hJ : J.val = t.val % 8)
include hI in
/-- Window 0: the row tile's features. -/
theorem iblk1_0_at (p : Fin 1024) (k : Fin 512) :
    bA V c t (ix2 p k) = xf V c (Cert.Spec.col I p) k := by
  obtain ⟨e0, e1, -⟩ := idx1 t
  unfold bA Hand.iblk1 xf
  rw [View.read_apply]
  show V c main_v0_0 _ = V c main_v0_0 _
  congr 1
  funext a
  apply Fin.ext
  match a with
  | ⟨0, _⟩ => show win1_0.index t (0 : Fin 2) * 1024 + 1 * p.val = I.val * 1024 + p.val; rw [e0, hI]; omega
  | ⟨1, _⟩ => show win1_0.index t (1 : Fin 2) * 512 + 1 * k.val = k.val; omega

include hJ in
/-- Window 1: the column tile's features. -/
theorem iblk1_1_at (q : Fin 1024) (k : Fin 512) :
    bB V c t (ix2 q k) = xf V c (Cert.Spec.col J q) k := by
  obtain ⟨-, -, e0, e1, -⟩ := idx1 t
  unfold bB Hand.iblk1 xf
  rw [View.read_apply]
  show V c main_v0_0 _ = V c main_v0_0 _
  congr 1
  funext a
  apply Fin.ext
  match a with
  | ⟨0, _⟩ => show win1_1.index t (0 : Fin 2) * 1024 + 1 * q.val = J.val * 1024 + q.val; rw [e0, hJ]; omega
  | ⟨1, _⟩ => show win1_1.index t (1 : Fin 2) * 512 + 1 * k.val = k.val; omega

include hI in
/-- Window 2: the row tile's squared norms. -/
theorem iblk1_2_at (p : Fin 1024) (u : Fin 1) :
    bSq V c t (ix2 p u) = (V c main_v0_1 : S8192x1.Idx → EReal) (ix2 (Cert.Spec.col I p) (0 : Fin 1)) := by
  obtain ⟨-, -, -, -, e0, e1, -⟩ := idx1 t
  unfold bSq Hand.iblk1
  rw [View.read_apply]
  show V c main_v0_1 _ = V c main_v0_1 _
  congr 1
  funext a
  apply Fin.ext
  have hu : u.val = 0 := by omega
  match a with
  | ⟨0, _⟩ => show win1_2.index t (0 : Fin 2) * 1024 + 1 * p.val = I.val * 1024 + p.val; rw [e0, hI]; omega
  | ⟨1, _⟩ => show win1_2.index t (1 : Fin 2) * 1 + 1 * u.val = 0; omega

include hJ in
/-- Window 3: the column tile's squared norms, as a row. -/
theorem iblk1_3_at (q : Fin 1024) :
    bS V c t (ix2 (0 : Fin 1) q) = (V c main_v3 : S1x8192.Idx → EReal) (ix2 (0 : Fin 1) (Cert.Spec.col J q)) := by
  obtain ⟨-, -, -, -, -, -, e0, e1, -⟩ := idx1 t
  unfold bS Hand.iblk1
  rw [View.read_apply]
  show V c main_v3 _ = V c main_v3 _
  congr 1
  funext a
  apply Fin.ext
  match a with
  | ⟨0, _⟩ => show win1_3.index t (0 : Fin 2) * 1 + 1 * 0 = 0; omega
  | ⟨1, _⟩ => show win1_3.index t (1 : Fin 2) * 1024 + 1 * q.val = J.val * 1024 + q.val; rw [e1, hJ]; omega

include hI in
/-- Window 4: the row tile's labels. -/
theorem iblk1_4_at (p : Fin 1024) :
    bLa V c t (ix2 p (0 : Fin 1)) = tgf V c (Cert.Spec.col I p) := by
  obtain ⟨-, -, -, -, -, -, -, -, e0, e1, -⟩ := idx1 t
  unfold bLa Hand.iblk1 tgf
  rw [View.read_apply]
  show V c main_v1 _ = V c main_v1 _
  congr 1
  funext a
  apply Fin.ext
  match a with
  | ⟨0, _⟩ => show win1_4.index t (0 : Fin 2) * 1024 + 1 * p.val = I.val * 1024 + p.val; rw [e0, hI]; omega
  | ⟨1, _⟩ => show win1_4.index t (1 : Fin 2) * 1 + 1 * 0 = 0; omega

include hJ in
/-- Window 5: the column tile's labels, as a row. -/
theorem iblk1_5_at (q : Fin 1024) :
    bLb V c t (ix2 (0 : Fin 1) q) = (V c main_v2 : S1x8192.Idx → BitVec 32) (ix2 (0 : Fin 1) (Cert.Spec.col J q)) := by
  obtain ⟨-, -, -, -, -, -, -, -, -, -, e0, e1, -⟩ := idx1 t
  unfold bLb Hand.iblk1
  rw [View.read_apply]
  show V c main_v2 _ = V c main_v2 _
  congr 1
  funext a
  apply Fin.ext
  match a with
  | ⟨0, _⟩ => show win1_5.index t (0 : Fin 2) * 1 + 1 * 0 = 0; omega
  | ⟨1, _⟩ => show win1_5.index t (1 : Fin 2) * 1024 + 1 * q.val = J.val * 1024 + q.val; rw [e1, hJ]; omega

end Blocks

/-- The running maximum / minimum after one more column tile. -/
theorem runMax_succ (x : Fin 8192 → Fin 512 → EReal) (tg : Fin 8192 → BitVec 32) (n : Fin 8192) (m : ℕ) (J : Fin 8) (hJ : J.val = m) :
    Cert.Spec.runMax x tg n (m + 1) = max (Cert.Spec.runMax x tg n m) (Cert.Spec.tileMax x tg n J) := by
  subst hJ
  rw [Cert.Spec.runMax, dif_pos J.isLt]
theorem runMin_succ (x : Fin 8192 → Fin 512 → EReal) (tg : Fin 8192 → BitVec 32) (n : Fin 8192) (m : ℕ) (J : Fin 8) (hJ : J.val = m) :
    Cert.Spec.runMin x tg n (m + 1) = min (Cert.Spec.runMin x tg n m) (Cert.Spec.tileMin x tg n J) := by
  subst hJ
  rw [Cert.Spec.runMin, dif_pos J.isLt]

section Acc

variable (c : Dev nD)
    (h3 : ∀ n : Fin 8192, (V c main_v3 : S1x8192.Idx → EReal) (ix2 (0 : Fin 1) n) = Cert.Spec.sqv (xf V c) n)
    (h2 : ∀ n : Fin 8192, (V c main_v2 : S1x8192.Idx → BitVec 32) (ix2 (0 : Fin 1) n) = tgf V c n)

include h3 in
/-- The mined quantity of the two blocks at (p, q) is the specification's at rows 1024·I + p and 1024·J + q. -/
theorem tile_tv (t : Fin cfg1.N) (I J : Fin 8) (hI : I.val = t.val / 8) (hJ : J.val = t.val % 8) (p q : Fin 1024) :
    bS V c t (ix2 (0 : Fin 1) q) - Cert.Spec.two * ∑ k : Fin 512, bA V c t (ix2 p k) * bB V c t (ix2 q k)
      = Cert.Spec.tv (xf V c) (Cert.Spec.col I p) (Cert.Spec.col J q) := by
  have es : ∑ k : Fin 512, bA V c t (ix2 p k) * bB V c t (ix2 q k)
      = Cert.Spec.dotv (xf V c) (Cert.Spec.col I p) (Cert.Spec.col J q) :=
    show _ = ∑ k : Fin 512, xf V c (Cert.Spec.col I p) k * xf V c (Cert.Spec.col J q) k from
      Finset.sum_congr rfl fun k _ => by rw [iblk1_0_at V c t I hI p k, iblk1_1_at V c t J hJ q k]
  rw [es, iblk1_3_at V c t J hJ q, h3]
  rfl

include h3 h2 in
/-- One point folds its tile's masked maximum into the carried column. -/
theorem step_max (t : Fin cfg1.N) (I J : Fin 8) (hI : I.val = t.val / 8) (hJ : J.val = t.val % 8)
    (acc : S1024x1.Idx → EReal) (p : Fin 1024) (u : Fin 1) :
    k1_pay10 (F := Ideal) (Hand.iblk1 V c 0 t) (Hand.iblk1 V c 1 t) (Hand.iblk1 V c 3 t) (Hand.iblk1 V c 4 t) (Hand.iblk1 V c 5 t) acc (ix2 p u)
      = max (acc (ix2 p u)) (Cert.Spec.tileMax (xf V c) (tgf V c) (Cert.Spec.col I p) J) := by
  refine (pay10_at (bA V c t) (bB V c t) (bS V c t) (bLa V c t) (bLb V c t) acc p u).trans ?_
  unfold Cert.Spec.tileMax
  refine congrArg (fun w : EReal => max (acc (ix2 p u)) w) (congrArg Finset.univ.sup (funext fun q => ?_))
  rw [tile_tv V c h3 t I J hI hJ p q, iblk1_4_at V c t I hI p, iblk1_5_at V c t J hJ q, h2]
  rfl

include h3 h2 in
/-- One point folds its tile's masked minimum into the carried column. -/
theorem step_min (t : Fin cfg1.N) (I J : Fin 8) (hI : I.val = t.val / 8) (hJ : J.val = t.val % 8)
    (acc : S1024x1.Idx → EReal) (p : Fin 1024) (u : Fin 1) :
    k1_pay1 (F := Ideal) (k1_pay9 (F := Ideal) (Hand.iblk1 V c 0 t) (Hand.iblk1 V c 1 t) (Hand.iblk1 V c 3 t) (Hand.iblk1 V c 4 t) (Hand.iblk1 V c 5 t)) acc (ix2 p u)
      = min (acc (ix2 p u)) (Cert.Spec.tileMin (xf V c) (tgf V c) (Cert.Spec.col I p) J) := by
  refine (pay1_at _ acc (ix2 p u)).trans ?_
  refine congrArg (fun w : EReal => min (acc (ix2 p u)) w) ((pay9_at (bA V c t) (bB V c t) (bS V c t) (bLa V c t) (bLb V c t) p u).trans ?_)
  unfold Cert.Spec.tileMin
  refine congrArg Finset.univ.inf (funext fun q => ?_)
  rw [tile_tv V c h3 t I J hI hJ p q, iblk1_4_at V c t I hI p, iblk1_5_at V c t J hJ q, h2]
  rfl

include h3 h2 in
/-- THE CARRIED MAXIMA after the point at position n = 8·I + J: the running maximum over the first J + 1 column tiles. -/
theorem accMax_eq : ∀ (n : ℕ) (h : n < cfg1.N) (I : Fin 8) (hI : I.val = n / 8) (p : Fin 1024) (u : Fin 1),
    Hand.accMax V c n h (ix2 p u) = Cert.Spec.runMax (xf V c) (tgf V c) (Cert.Spec.col I p) (n % 8 + 1)
  | 0, h, I, hI, p, u => by
    show Hand.accMax V c 0 h (ix2 p u) = Cert.Spec.runMax (xf V c) (tgf V c) (Cert.Spec.col I p) (0 + 1)
    rw [Hand.accMax, step_max V c h3 h2 ⟨0, h⟩ I (0 : Fin 8) hI rfl, pay5_at, runMax_succ _ _ _ 0 (0 : Fin 8) rfl]
    rfl
  | n + 1, h, I, hI, p, u => by
    have hN : cfg1.N = 64 := N_1
    have hJlt : (n + 1) % 8 < 8 := Nat.mod_lt _ (by omega)
    rw [Hand.accMax, step_max V c h3 h2 ⟨n + 1, h⟩ I ⟨(n + 1) % 8, hJlt⟩ hI rfl,
      runMax_succ _ _ _ ((n + 1) % 8) ⟨(n + 1) % 8, hJlt⟩ rfl]
    refine congrArg (fun w : EReal => max w _) ?_
    by_cases h0 : (n + 1) % 8 = 0
    · rw [if_pos h0, pay5_at, h0]; rfl
    · rw [if_neg h0, accMax_eq n (Nat.lt_of_succ_lt h) I (by omega) p u, show (n + 1) % 8 = n % 8 + 1 by omega]

include h3 h2 in
/-- THE CARRIED MINIMA after the point at position n = 8·I + J: the running minimum over the first J + 1 column tiles. -/
theorem accMin_eq : ∀ (n : ℕ) (h : n < cfg1.N) (I : Fin 8) (hI : I.val = n / 8) (p : Fin 1024) (u : Fin 1),
    Hand.accMin V c n h (ix2 p u) = Cert.Spec.runMin (xf V c) (tgf V c) (Cert.Spec.col I p) (n % 8 + 1)
  | 0, h, I, hI, p, u => by
    show Hand.accMin V c 0 h (ix2 p u) = Cert.Spec.runMin (xf V c) (tgf V c) (Cert.Spec.col I p) (0 + 1)
    rw [Hand.accMin, step_min V c h3 h2 ⟨0, h⟩ I (0 : Fin 8) hI rfl, pay6_at, runMin_succ _ _ _ 0 (0 : Fin 8) rfl]
    rfl
  | n + 1, h, I, hI, p, u => by
    have hN : cfg1.N = 64 := N_1
    have hJlt : (n + 1) % 8 < 8 := Nat.mod_lt _ (by omega)
    rw [Hand.accMin, step_min V c h3 h2 ⟨n + 1, h⟩ I ⟨(n + 1) % 8, hJlt⟩ hI rfl,
      runMin_succ _ _ _ ((n + 1) % 8) ⟨(n + 1) % 8, hJlt⟩ rfl]
    refine congrArg (fun w : EReal => min w _) ?_
    by_cases h0 : (n + 1) % 8 = 0
    · rw [if_pos h0, pay6_at, h0]; rfl
    · rw [if_neg h0, accMin_eq n (Nat.lt_of_succ_lt h) I (by omega) p u, show (n + 1) % 8 = n % 8 + 1 by omega]

end Acc

end Cert.KernelIdeal.HandVal

end
-- ==== Proof.KI.Val1.lean ====
/-
  What the second call leaves in its two output arrays, index by index, on the extended reals.

  The second call runs over an 8 × 8 grid of row tiles I and column tiles J, J fastest. Each output is a column
  of 8192 rows; block I of it is written once, at the last column tile (point 8·I + 7), with the square root of
  the row's squared norm plus the carried extremum, clipped below at ε. When the squared-norm column and row and
  the label row agree with the feature array and the label column, row n of the first output is the kernel's
  hardest-positive distance of row n, and row n of the second its hardest-negative distance.
-/
import proofs.«126033_j28338194219418_2_alg».proof.Proof.KI.Val1Acc
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.HandVal

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen

variable (V : (c : Dev nD) → (b : Ref sig .tc) → Buf (Elt Ideal) ((c : Thread nD τ).loc b))

/-- The two outputs after the call. -/
abbrev G6 (c : Dev nD) : S8192x1.Idx → EReal := fun i => Cert.Spec.apK (xf V c) (tgf V c) (i 0)
abbrev G7 (c : Dev nD) : S8192x1.Idx → EReal := fun i => Cert.Spec.anK (xf V c) (tgf V c) (i 0)

/-- An index of an output column is in point t's block iff each coordinate is in the block's range. -/
theorem mem_blk1_6 (t : Fin cfg1.N) (i : S8192x1.Idx) :
    i ∈ ((cfg1.win 6).blk t).view.set ↔ ∀ a : Fin 2, win1_6.index t a * S1024x1.size a ≤ (i a).val ∧ (i a).val < win1_6.index t a * S1024x1.size a + S1024x1.size a := by
  show i ∈ ((View.whole main_v4_0).slice (win1_6.rect t)).set ↔ _
  rw [View.set_slice_whole, Rect.mem_set_unit]
  exact Iff.rfl
theorem mem_blk1_7 (t : Fin cfg1.N) (i : S8192x1.Idx) :
    i ∈ ((cfg1.win 7).blk t).view.set ↔ ∀ a : Fin 2, win1_7.index t a * S1024x1.size a ≤ (i a).val ∧ (i a).val < win1_7.index t a * S1024x1.size a + S1024x1.size a := by
  show i ∈ ((View.whole main_v4_1).slice (win1_7.rect t)).set ↔ _
  rw [View.set_slice_whole, Rect.mem_set_unit]
  exact Iff.rfl

/-- Every row of an output column is in the block written at the last column tile of its row tile. -/
theorem cover1_6 (i : S8192x1.Idx) :
    ∃ t : Fin cfg1.N, (cfg1.win 6).flush t = true ∧ i ∈ ((cfg1.win 6).blk t).view.set := by
  have hi0 : (i 0).val < 8192 := (i 0).isLt
  have hi1 : (i 1).val < 1 := (i 1).isLt
  have hN : cfg1.N = 64 := N_1
  let t : Fin cfg1.N := ⟨8 * ((i 0).val / 1024) + 7, by omega⟩
  have ht : t.val = 8 * ((i 0).val / 1024) + 7 := rfl
  obtain ⟨-, -, -, -, -, -, -, -, -, -, -, -, e0, e1, -⟩ := idx1 t
  refine ⟨t, (flush1_6 t).mpr (by omega), ?_⟩
  rw [mem_blk1_6]
  intro a
  match a with
  | ⟨0, _⟩ => show win1_6.index t (0 : Fin 2) * 1024 ≤ (i 0).val ∧ (i 0).val < win1_6.index t (0 : Fin 2) * 1024 + 1024; omega
  | ⟨1, _⟩ => show win1_6.index t (1 : Fin 2) * 1 ≤ (i 1).val ∧ (i 1).val < win1_6.index t (1 : Fin 2) * 1 + 1; omega
theorem cover1_7 (i : S8192x1.Idx) :
    ∃ t : Fin cfg1.N, (cfg1.win 7).flush t = true ∧ i ∈ ((cfg1.win 7).blk t).view.set := by
  have hi0 : (i 0).val < 8192 := (i 0).isLt
  have hi1 : (i 1).val < 1 := (i 1).isLt
  have hN : cfg1.N = 64 := N_1
  let t : Fin cfg1.N := ⟨8 * ((i 0).val / 1024) + 7, by omega⟩
  have ht : t.val = 8 * ((i 0).val / 1024) + 7 := rfl
  obtain ⟨-, -, -, -, -, -, -, -, -, -, -, -, -, -, e0, e1⟩ := idx1 t
  refine ⟨t, (flush1_7 t).mpr (by omega), ?_⟩
  rw [mem_blk1_7]
  intro a
  match a with
  | ⟨0, _⟩ => show win1_7.index t (0 : Fin 2) * 1024 ≤ (i 0).val ∧ (i 0).val < win1_7.index t (0 : Fin 2) * 1024 + 1024; omega
  | ⟨1, _⟩ => show win1_7.index t (1 : Fin 2) * 1 ≤ (i 1).val ∧ (i 1).val < win1_7.index t (1 : Fin 2) * 1 + 1; omega

section Outputs

variable (c : Dev nD)
    (h01 : ∀ n : Fin 8192, (V c main_v0_1 : S8192x1.Idx → EReal) (ix2 n (0 : Fin 1)) = Cert.Spec.sqv (xf V c) n)
    (h3 : ∀ n : Fin 8192, (V c main_v3 : S1x8192.Idx → EReal) (ix2 (0 : Fin 1) n) = Cert.Spec.sqv (xf V c) n)
    (h2 : ∀ n : Fin 8192, (V c main_v2 : S1x8192.Idx → BitVec 32) (ix2 (0 : Fin 1) n) = tgf V c n)

include h01 h3 h2 in
/-- What a last column tile stores to the first output, at row p of row tile I. -/
theorem out_max_at (t : Fin cfg1.N) (h7 : t.val % 8 = 7) (I : Fin 8) (hI : I.val = t.val / 8) (y : S1024x1.Idx) :
    k1_pay3 (F := Ideal) (Hand.iblk1 V c 2 t) (Hand.accMax V c t.val t.isLt) y
      = Cert.Spec.apK (xf V c) (tgf V c) (Cert.Spec.col I (y 0)) := by
  obtain ⟨p, u, rfl⟩ : ∃ (p : Fin 1024) (u : Fin 1), y = ix2 p u := ⟨y 0, y 1, eq_ix2 y⟩
  refine (pay3_at (bSq V c t) (Hand.accMax V c t.val t.isLt) (ix2 p u)).trans ?_
  rw [iblk1_2_at V c t I hI p u, h01, accMax_eq V c h3 h2 t.val t.isLt I hI p u, h7]
  rfl

include h01 h3 h2 in
/-- What a last column tile stores to the second output, at row p of row tile I. -/
theorem out_min_at (t : Fin cfg1.N) (h7 : t.val % 8 = 7) (I : Fin 8) (hI : I.val = t.val / 8) (y : S1024x1.Idx) :
    k1_pay4 (F := Ideal) (Hand.iblk1 V c 2 t) (Hand.accMin V c t.val t.isLt) y
      = Cert.Spec.anK (xf V c) (tgf V c) (Cert.Spec.col I (y 0)) := by
  obtain ⟨p, u, rfl⟩ : ∃ (p : Fin 1024) (u : Fin 1), y = ix2 p u := ⟨y 0, y 1, eq_ix2 y⟩
  refine (pay4_at (bSq V c t) (Hand.accMin V c t.val t.isLt) (ix2 p u)).trans ?_
  rw [iblk1_2_at V c t I hI p u, h01, accMin_eq V c h3 h2 t.val t.isLt I hI p u, h7]
  rfl

include h01 h3 h2 in
/-- What a last column tile writes back to the first output is its block of the hardest-positive column. -/
theorem flushed1_6_eq (t : Fin cfg1.N) (hf : (cfg1.win 6).flush t = true) :
    (Hand.dat1 (F := Ideal) V c).flushed 6 t = ((cfg1.win 6).blk t).view.read (Elt Ideal) (G6 V c) := by
  have h7 : t.val % 8 = 7 := (flush1_6 t).mp hf
  have hN : cfg1.N = 64 := N_1
  have htl : t.val < cfg1.N := t.isLt
  show (cfg1.win 6).cut (grid1.coords t) ((Hand.dat1 V c).after 6 t) = _
  rw [Hand.after1_6]
  funext j
  obtain ⟨-, -, -, -, -, -, -, -, -, -, -, -, e0, e1, -⟩ := idx1 t
  have hI : (⟨t.val / 8, by omega⟩ : Fin 8).val = t.val / 8 := rfl
  show k1_pay3 (F := Ideal) (Hand.iblk1 V c 2 t) (Hand.accMax V c t.val t.isLt) j = G6 V c (((cfg1.win 6).blk t).view.emb j)
  refine (out_max_at V c h01 h3 h2 t h7 ⟨t.val / 8, by omega⟩ hI j).trans ?_
  refine congrArg (Cert.Spec.apK (xf V c) (tgf V c)) (Fin.ext ?_)
  show t.val / 8 * 1024 + (j 0).val = win1_6.index t (0 : Fin 2) * 1024 + 1 * (j 0).val
  omega

include h01 h3 h2 in
/-- What a last column tile writes back to the second output is its block of the hardest-negative column. -/
theorem flushed1_7_eq (t : Fin cfg1.N) (hf : (cfg1.win 7).flush t = true) :
    (Hand.dat1 (F := Ideal) V c).flushed 7 t = ((cfg1.win 7).blk t).view.read (Elt Ideal) (G7 V c) := by
  have h7 : t.val % 8 = 7 := (flush1_7 t).mp hf
  have hN : cfg1.N = 64 := N_1
  have htl : t.val < cfg1.N := t.isLt
  show (cfg1.win 7).cut (grid1.coords t) ((Hand.dat1 V c).after 7 t) = _
  rw [Hand.after1_7]
  funext j
  obtain ⟨-, -, -, -, -, -, -, -, -, -, -, -, -, -, e0, e1⟩ := idx1 t
  have hI : (⟨t.val / 8, by omega⟩ : Fin 8).val = t.val / 8 := rfl
  show k1_pay4 (F := Ideal) (Hand.iblk1 V c 2 t) (Hand.accMin V c t.val t.isLt) j = G7 V c (((cfg1.win 7).blk t).view.emb j)
  refine (out_min_at V c h01 h3 h2 t h7 ⟨t.val / 8, by omega⟩ hI j).trans ?_
  refine congrArg (Cert.Spec.anK (xf V c) (tgf V c)) (Fin.ext ?_)
  show t.val / 8 * 1024 + (j 0).val = win1_7.index t (0 : Fin 2) * 1024 + 1 * (j 0).val
  omega

include h01 h3 h2 in
/-- THE FIRST OUTPUT after the call: row n holds the kernel's hardest-positive distance of row n. -/
theorem arr1_6 (n : Fin 8192) :
    (Hand.dat1 (F := Ideal) V c).arrAt 6 cfg1.N (ix2 n (0 : Fin 1)) = Cert.Spec.apK (xf V c) (tgf V c) n :=
  congrFun ((Hand.dat1 (F := Ideal) V c).arrAt_eq_of_cover 6 (G6 V c) (flushed1_6_eq V c h01 h3 h2) cover1_6) (ix2 n (0 : Fin 1))

include h01 h3 h2 in
/-- THE SECOND OUTPUT after the call: row n holds the kernel's hardest-negative distance of row n. -/
theorem arr1_7 (n : Fin 8192) :
    (Hand.dat1 (F := Ideal) V c).arrAt 7 cfg1.N (ix2 n (0 : Fin 1)) = Cert.Spec.anK (xf V c) (tgf V c) n :=
  congrFun ((Hand.dat1 (F := Ideal) V c).arrAt_eq_of_cover 7 (G7 V c) (flushed1_7_eq V c h01 h3 h2) cover1_7) (ix2 n (0 : Fin 1))

end Outputs

end Cert.KernelIdeal.HandVal

end
-- ==== Proof.KI.KVal.lean ====
/-
  The idealized kernel's result as one function of the three argument arrays.

  After the run every unscoped buffer holds the last valuation. Read backwards: the result is the loss of the second
  call's two output columns; those are the kernel's hardest-positive and hardest-negative distances `Spec.apK`,
  `Spec.anK` of the re-weighted features x = inputs · A and the labels — the first call leaves x and its rows' squared
  norms, and the three reshapes between the calls only re-lay the squared norms as a row and the labels as a column
  and a row.
-/
import proofs.«126033_j28338194219418_2_alg».proof.Proof.KI.Run
import proofs.«126033_j28338194219418_2_alg».proof.Proof.KI.Tail
import proofs.«126033_j28338194219418_2_alg».proof.Proof.KI.Val0
import proofs.«126033_j28338194219418_2_alg».proof.Proof.KI.Val1

set_option maxRecDepth 16384

noncomputable section

namespace Cert.KernelIdeal.HandVal

open Idealize.ShloMosaic Idealize.ShloMosaic.TcCoe Idealize.ShloMosaic.ValueIdx
open Idealize.SL Idealize.SL.Sem
open Cert.KernelIdeal Cert.KernelIdeal.Gen Cert.KernelIdeal.Hand

variable (m : (ℓ : Loc nD τ sig) → Buf (Elt Ideal) ℓ)

/-- The re-weighted features and the labels, read off the launch memory. -/
def xm (c : Dev nD) (n : Fin 8192) (k : Fin 512) : EReal :=
  @HMul.hMul EReal EReal EReal _ (m ((c : Thread nD τ).loc main_arg0) (ix2 n k)) (m ((c : Thread nD τ).loc main_arg1) (ix2 n k))
def tgm (c : Dev nD) (n : Fin 8192) : BitVec 32 := m ((c : Thread nD τ).loc main_arg2) (ix1 n)

/-- The three reshapes write only their own results. -/
theorem W2_of (c : Dev nD) (r : Ref sig .tc) (h : r ∉ Gen.hostOps1_W) : W2 m c r = W1 m c r :=
  (congrFun (V2_eq m c).symm _).trans ((Gen.V2_of m (outs m) c r h).trans (congrFun (V1_eq m c) _))

/-- Entering the second call, the feature array holds x, -/
theorem x_at (c : Dev nD) (n : Fin 8192) (k : Fin 512) : xf (rd (W2 m)) c n k = xm m c n k :=
  (congrFun ((W2_of m c main_v0_0 (by decide)).trans (W1_v0_0 m c)) _).trans (arr0_2 (rd (Gen.V0 m)) c (ix2 n k))
theorem xf_eq (c : Dev nD) : xf (rd (W2 m)) c = xm m c := funext fun n => funext fun k => x_at m c n k

/-- the squared norms' column holds its rows' squared norms, -/
theorem sq_col_at (c : Dev nD) (n : Fin 8192) : rd (W2 m) c main_v0_1 (ix2 n (0 : Fin 1)) = Cert.Spec.sqv (xm m c) n :=
  (congrFun ((W2_of m c main_v0_1 (by decide)).trans (W1_v0_1 m c)) _).trans (arr0_3 (rd (Gen.V0 m)) c n)

/-- and so does the row re-laid from it; -/
theorem sq_row_at (c : Dev nD) (n : Fin 8192) : rd (W2 m) c main_v3 (ix2 (0 : Fin 1) n) = Cert.Spec.sqv (xm m c) n := by
  have h := host1_v3 (F := Ideal) (W1 m c)
  refine (congrFun h _).trans ?_
  refine (shapeCast_apply _ _ (ix2 (0 : Fin 1) n) (ix2 n (0 : Fin 1)) ?_).trans ?_
  · rw [Shape.rowMajor_val_two, Shape.rowMajor_val_two]; simp [ix2]
  · exact (congrFun (W1_v0_1 m c) _).trans (arr0_3 (rd (Gen.V0 m)) c n)

/-- the label column and the label row hold the labels. -/
theorem tg_col_at (c : Dev nD) (n : Fin 8192) : tgf (rd (W2 m)) c n = tgm m c n := by
  have h := host1_v1 (F := Ideal) (W1 m c)
  refine (congrFun h _).trans ?_
  refine (shapeCast_apply _ _ (ix2 n (0 : Fin 1)) (ix1 n) ?_).trans ?_
  · rw [Shape.rowMajor_val_two]; simp [ix2, ix1, Shape.rowMajor_val_one]
  · exact congrFun (W1_of m c main_arg2 (by decide)) _
theorem tgf_eq (c : Dev nD) : tgf (rd (W2 m)) c = tgm m c := funext fun n => tg_col_at m c n
theorem tg_row_at (c : Dev nD) (n : Fin 8192) : rd (W2 m) c main_v2 (ix2 (0 : Fin 1) n) = tgm m c n := by
  have h := host1_v2 (F := Ideal) (W1 m c)
  refine (congrFun h _).trans ?_
  refine (shapeCast_apply _ _ (ix2 (0 : Fin 1) n) (ix1 n) ?_).trans ?_
  · rw [Shape.rowMajor_val_two]; simp [ix2, ix1, Shape.rowMajor_val_one]
  · exact congrFun (W1_of m c main_arg2 (by decide)) _

/-- The second call's two output columns, row by row. -/
theorem ap_at (c : Dev nD) (n : Fin 8192) : AP m c (ix2 n (0 : Fin 1)) = Cert.Spec.apK (xm m c) (tgm m c) n := by
  have h := arr1_6 (rd (W2 m)) c (fun n => by rw [xf_eq]; exact sq_col_at m c n) (fun n => by rw [xf_eq]; exact sq_row_at m c n)
    (fun n => by rw [tgf_eq]; exact tg_row_at m c n) n
  rw [xf_eq, tgf_eq] at h
  exact h
theorem an_at (c : Dev nD) (n : Fin 8192) : AN m c (ix2 n (0 : Fin 1)) = Cert.Spec.anK (xm m c) (tgm m c) n := by
  have h := arr1_7 (rd (W2 m)) c (fun n => by rw [xf_eq]; exact sq_col_at m c n) (fun n => by rw [xf_eq]; exact sq_row_at m c n)
    (fun n => by rw [tgf_eq]; exact tg_row_at m c n) n
  rw [xf_eq, tgf_eq] at h
  exact h

/-- A column re-laid as a vector, entry by entry. -/
theorem col_as_vec (v : FVec Ideal S8192x1 .f32) (i : S8192.Idx) :
    shapeCast S8192 v shapeCasts_S8192x1_S8192 i = v (ix2 (i 0) (0 : Fin 1)) := by
  refine shapeCast_apply _ _ i (ix2 (i 0) (0 : Fin 1)) ?_
  rw [Shape.rowMajor_val_two]; simp [ix2, Shape.rowMajor_val_one]

/-- THE KERNEL'S RESULT: the loss of the kernel's hardest-positive and hardest-negative distances. -/
theorem kernel_value (c : Dev nD) :
    (Gen.V6 m (outs m) c (Proc.devRef .tc main_v12) : FVec Ideal S_ .f32)
      = tailK (F := Ideal) (fun i => Cert.Spec.apK (xm m c) (tgm m c) (i 0)) (fun i => Cert.Spec.anK (xm m c) (tgm m c) (i 0)) := by
  show (StableHlo.after hostOps2_2 (StableHlo.after hostOps2_1 (StableHlo.after hostOps2 (Gen.V3 m (outs m) c))) (Proc.devRef .tc main_v12) : FVec Ideal S_ .f32) = _
  rw [V3_eq, tail_eq]
  congr 1
  · funext i
    refine (col_as_vec _ i).trans ?_
    exact (congrFun (W3_v4_0 m c) _).trans (ap_at m c (i 0))
  · funext i
    refine (col_as_vec _ i).trans ?_
    exact (congrFun (W3_v4_1 m c) _).trans (an_at m c (i 0))

end Cert.KernelIdeal.HandVal

end
-- ==== Proof.Law.lean ====
/-
  The law that joins the two sides: mining on  tv n j = sqv j − 2·dotv n j  tile by tile and applying
  u ↦ √(max ε (sqv n + u))  once at the end gives the same hardest positive and hardest negative as
  applying the distance to every pair first.

  Three facts carry it. (1) Addition on the extended reals is associative, so
  sqv n + (sqv j − 2·dotv n j) = (sqv n + sqv j) − 2·dotv n j. (2) gK n u := √(max ε (sqv n + u)) is
  monotone on all of the extended reals, and a monotone map on a linear order sends the maximum (minimum) of
  a nonempty finite family to the maximum (minimum) of the images. (3) Off the mask the positives carry −∞,
  and gK n (−∞) ≤ gK n (tv n n) where column n is always on the mask; on the mask the negatives carry +∞ and
  gK n (+∞) = +∞ because a sum of squares is never −∞.
-/
import proofs.«126033_j28338194219418_2_alg».proof.Proof.Spec

noncomputable section

namespace Cert.Spec

open Idealize.ShloMosaic

/-- The square root is monotone on all of the extended reals (negatives go to −∞). -/
theorem sqrt_mono : Monotone Ideal.sqrt := by
  intro a b h
  induction a with
  | bot => simp
  | top =>
    have hb : b = ⊤ := top_le_iff.mp h
    subst hb; exact le_rfl
  | coe r =>
    induction b with
    | bot => exact absurd h (by simp)
    | top => simp
    | coe s =>
      have hrs : r ≤ s := EReal.coe_le_coe_iff.mp h
      simp only [Ideal.sqrt_coe]
      split_ifs with h1 h2 h2
      · exact le_rfl
      · exact bot_le
      · exfalso; linarith
      · exact EReal.coe_le_coe_iff.mpr (Real.sqrt_le_sqrt hrs)

/-- A square is non-negative on the extended reals. -/
theorem mul_self_nonneg' (a : EReal) : 0 ≤ a * a := by
  induction a with
  | bot => simp [EReal.bot_mul_bot]
  | top => simp [EReal.top_mul_top]
  | coe r =>
    rw [← EReal.coe_mul]
    exact EReal.coe_nonneg.mpr (mul_self_nonneg r)

variable (x : Fin 8192 → Fin 512 → EReal) (tg : Fin 8192 → BitVec 32)

theorem sqv_nonneg (n : Fin 8192) : 0 ≤ sqv x n := by
  unfold sqv
  rw [zero_add]
  exact Finset.sum_nonneg fun k _ => mul_self_nonneg' (x n k)

theorem sqv_ne_bot (n : Fin 8192) : sqv x n ≠ ⊥ :=
  ne_of_gt (lt_of_lt_of_le EReal.bot_lt_zero (sqv_nonneg x n))

/-- What both sides apply to a mined value: add row n's squared norm, clip below at ε, take the root. -/
def gK (n : Fin 8192) (u : EReal) : EReal := Ideal.sqrt (max eps (sqv x n + u))

theorem gK_mono (n : Fin 8192) : Monotone (gK x n) := fun _ _ h =>
  sqrt_mono (max_le_max le_rfl (add_le_add le_rfl h))

theorem gK_top (n : Fin 8192) : gK x n ⊤ = ⊤ := by
  unfold gK
  rw [EReal.add_top_of_ne_bot (sqv_ne_bot x n), max_eq_right le_top, Ideal.sqrt_top]

/-- The reference's distance is gK at the kernel's mined quantity. -/
theorem distv_eq (n j : Fin 8192) : distv x n j = gK x n (tv x n j) := by
  unfold distv gK tv
  rw [sub_eq_add_neg, sub_eq_add_neg, add_assoc]

/-! ### The eight tiles' fold is the row's maximum / minimum over all columns -/

theorem runMax_le_succ (n : Fin 8192) (J : ℕ) : runMax x tg n J ≤ runMax x tg n (J + 1) := by
  rw [runMax]; exact le_max_left _ _

theorem runMax_mono (n : Fin 8192) : Monotone (runMax x tg n) :=
  monotone_nat_of_le_succ (runMax_le_succ x tg n)

theorem tileMax_le_runMax (n : Fin 8192) (J : Fin 8) : tileMax x tg n J ≤ runMax x tg n 8 := by
  have h1 : tileMax x tg n J ≤ runMax x tg n (J.val + 1) := by
    rw [runMax, dif_pos J.isLt]; exact le_max_right _ _
  exact h1.trans (runMax_mono x tg n (by omega))

theorem col_surj (j : Fin 8192) : ∃ (J : Fin 8) (l : Fin 1024), col J l = j :=
  ⟨⟨j.val / 1024, by omega⟩, ⟨j.val % 1024, Nat.mod_lt _ (by norm_num)⟩, by
    apply Fin.ext; simp only [col]; omega⟩

theorem runMax_eq (n : Fin 8192) : runMax x tg n 8 = Finset.univ.sup (posv x tg n) := by
  apply le_antisymm
  · have h : ∀ J : ℕ, runMax x tg n J ≤ Finset.univ.sup (posv x tg n) := by
      intro J
      induction J with
      | zero => rw [runMax]; exact bot_le
      | succ J ih =>
        rw [runMax]
        refine max_le ih ?_
        split_ifs with hJ
        · unfold tileMax
          exact Finset.sup_le fun l _ => Finset.le_sup (f := posv x tg n) (Finset.mem_univ _)
        · exact bot_le
    exact h 8
  · refine Finset.sup_le fun j _ => ?_
    obtain ⟨J, l, rfl⟩ := col_surj j
    refine le_trans ?_ (tileMax_le_runMax x tg n J)
    unfold tileMax
    exact Finset.le_sup (f := fun l : Fin 1024 => posv x tg n (col J l)) (Finset.mem_univ l)

theorem runMin_succ_le (n : Fin 8192) (J : ℕ) : runMin x tg n (J + 1) ≤ runMin x tg n J := by
  rw [runMin]; exact min_le_left _ _

theorem runMin_anti (n : Fin 8192) : Antitone (runMin x tg n) :=
  antitone_nat_of_succ_le (runMin_succ_le x tg n)

theorem runMin_le_tileMin (n : Fin 8192) (J : Fin 8) : runMin x tg n 8 ≤ tileMin x tg n J := by
  have h1 : runMin x tg n (J.val + 1) ≤ tileMin x tg n J := by
    rw [runMin, dif_pos J.isLt]; exact min_le_right _ _
  exact (runMin_anti x tg n (by omega)).trans h1

theorem runMin_eq (n : Fin 8192) : runMin x tg n 8 = Finset.univ.inf (negv x tg n) := by
  apply le_antisymm
  · refine Finset.le_inf fun j _ => ?_
    obtain ⟨J, l, rfl⟩ := col_surj j
    refine le_trans (runMin_le_tileMin x tg n J) ?_
    unfold tileMin
    exact Finset.inf_le (f := fun l : Fin 1024 => negv x tg n (col J l)) (Finset.mem_univ l)
  · have h : ∀ J : ℕ, Finset.univ.inf (negv x tg n) ≤ runMin x tg n J := by
      intro J
      induction J with
      | zero => rw [runMin]; exact le_top
      | succ J ih =>
        rw [runMin]
        refine le_min ih ?_
        split_ifs with hJ
        · unfold tileMin
          exact Finset.le_inf fun l _ => Finset.inf_le (f := negv x tg n) (Finset.mem_univ _)
        · exact le_top
    exact h 8

/-! ### The two laws -/

theorem ap_eq (n : Fin 8192) : apK x tg n = apR x tg n := by
  unfold apK apR
  rw [runMax_eq]
  change gK x n (Finset.univ.sup (posv x tg n)) = _
  apply le_antisymm
  · obtain ⟨j0, -, hj0⟩ := Finset.exists_mem_eq_sup Finset.univ Finset.univ_nonempty (posv x tg n)
    rw [hj0]
    by_cases hm : tg n = tg j0
    · refine le_trans ?_ (Finset.le_sup (Finset.mem_univ j0))
      simp only [posv, if_pos hm, distv_eq]; exact le_rfl
    · refine le_trans ?_ (Finset.le_sup (Finset.mem_univ n))
      simp only [posv, if_neg hm, if_true, distv_eq]
      exact gK_mono x n bot_le
  · refine Finset.sup_le fun j _ => ?_
    split_ifs with hm
    · rw [distv_eq]
      refine gK_mono x n ?_
      have := Finset.le_sup (f := posv x tg n) (Finset.mem_univ j)
      simpa only [posv, if_pos hm] using this
    · exact bot_le

theorem an_eq (n : Fin 8192) : anK x tg n = anR x tg n := by
  unfold anK anR
  rw [runMin_eq]
  change gK x n (Finset.univ.inf (negv x tg n)) = _
  apply le_antisymm
  · refine Finset.le_inf fun j _ => ?_
    split_ifs with hm
    · exact le_top
    · rw [distv_eq]
      refine gK_mono x n ?_
      have := Finset.inf_le (f := negv x tg n) (Finset.mem_univ j)
      simpa only [negv, if_neg hm] using this
  · obtain ⟨j0, -, hj0⟩ := Finset.exists_mem_eq_inf Finset.univ Finset.univ_nonempty (negv x tg n)
    rw [hj0]
    by_cases hm : tg n = tg j0
    · simp only [negv, if_pos hm, gK_top]; exact le_top
    · refine le_trans (Finset.inf_le (Finset.mem_univ j0)) ?_
      simp only [negv, if_neg hm, distv_eq]; exact le_rfl

end Cert.Spec

end
-- ==== Proof.RI.Ops.lean ====
/-
  The reference's @main as a straight line of its 48 host operations (a called function's operations standing in
  its call's place), cut into seven stretches, and the run of that line: every weakly fair execution terminates
  with each buffer at the fold of the operations' results over the launch contents.
-/
import proofs.«126033_j28338194219418_2_alg».proof.Proof.Gen.ReferenceIdeal
import Idealize.ShloMosaic.Lib.StableHlo.Run
import Idealize.ShloMosaic.Lib.Pipeline.Frame

noncomputable section

namespace Cert.ReferenceIdeal.HandVal

open Cert.ReferenceIdeal Cert.ReferenceIdeal.Gen Idealize.ShloMosaic Idealize.ShloMosaic.TcCoe Idealize.SL.Sem Idealize.ShloMosaic.StableHlo

variable {F : FTy → Type} [FloatOps F]

/-- Operations 1–9: the product a·b, its square, the rows' sums of squares and their two broadcasts' sum (main_v0 … main_v7). -/
abbrev sA : List (HloOp τ sig (Elt F)) :=
  [ binary main_arg0 main_arg1 main_v0 (mulf : (⟨S8192x512, .f32⟩ : BufTy).Contents (Elt F) → (⟨S8192x512, .f32⟩ : BufTy).Contents (Elt F) → (⟨S8192x512, .f32⟩ : BufTy).Contents (Elt F)),
    binary main_v0 main_v0 main_v1 (mulf : (⟨S8192x512, .f32⟩ : BufTy).Contents (Elt F) → (⟨S8192x512, .f32⟩ : BufTy).Contents (Elt F) → (⟨S8192x512, .f32⟩ : BufTy).Contents (Elt F)),
    nullary main_cst (constant S_ .f32 0x00000000#32),
    binary main_v1 main_cst main_v2 ((fun x v => Host.reduceAdd x v reducesTo_S8192x512_S8192_d1 h_S_) : (⟨S8192x512, .f32⟩ : BufTy).Contents (Elt F) → (⟨S_, .f32⟩ : BufTy).Contents (Elt F) → (⟨S8192, .f32⟩ : BufTy).Contents (Elt F)),
    unary main_v2 main_v3 (broadcastInDim S8192x1 ![0] bcast_S8192_S8192x1_0 : (⟨S8192, .f32⟩ : BufTy).Contents (Elt F) → (⟨S8192x1, .f32⟩ : BufTy).Contents (Elt F)),
    unary main_v2 main_v4 (broadcastInDim S1x8192 ![1] bcast_S8192_S1x8192_1 : (⟨S8192, .f32⟩ : BufTy).Contents (Elt F) → (⟨S1x8192, .f32⟩ : BufTy).Contents (Elt F)),
    unary main_v3 main_v5 (broadcastInDim S8192x8192 ![0, 1] bcast_S8192x1_S8192x8192_0_1 : (⟨S8192x1, .f32⟩ : BufTy).Contents (Elt F) → (⟨S8192x8192, .f32⟩ : BufTy).Contents (Elt F)),
    unary main_v4 main_v6 (broadcastInDim S8192x8192 ![0, 1] bcast_S1x8192_S8192x8192_0_1 : (⟨S1x8192, .f32⟩ : BufTy).Contents (Elt F) → (⟨S8192x8192, .f32⟩ : BufTy).Contents (Elt F)),
    binary main_v5 main_v6 main_v7 (addf : (⟨S8192x8192, .f32⟩ : BufTy).Contents (Elt F) → (⟨S8192x8192, .f32⟩ : BufTy).Contents (Elt F) → (⟨S8192x8192, .f32⟩ : BufTy).Contents (Elt F)) ]

/-- Operations 10–15: the transpose, the pairwise inner products, twice them, and the squared distances (main_v8 … main_v12). -/
abbrev sB : List (HloOp τ sig (Elt F)) :=
  [ unary main_v0 main_v8 ((transpose S512x8192 [1, 0] · transposes_S8192x512_S512x8192_1_0) : (⟨S8192x512, .f32⟩ : BufTy).Contents (Elt F) → (⟨S512x8192, .f32⟩ : BufTy).Contents (Elt F)),
    binary main_v0 main_v8 main_v9 ((fun l r => Host.dotGeneral dot_S8192x512_S512x8192_S8192x8192_1_0_0_1_n_n none l r) : (⟨S8192x512, .f32⟩ : BufTy).Contents (Elt F) → (⟨S512x8192, .f32⟩ : BufTy).Contents (Elt F) → (⟨S8192x8192, .f32⟩ : BufTy).Contents (Elt F)),
    nullary main_cst_0 (constant S_ .f32 0x40000000#32),
    unary main_cst_0 main_v10 (broadcastInDim S8192x8192 ![] bcast_S_S8192x8192 : (⟨S_, .f32⟩ : BufTy).Contents (Elt F) → (⟨S8192x8192, .f32⟩ : BufTy).Contents (Elt F)),
    binary main_v10 main_v9 main_v11 (mulf : (⟨S8192x8192, .f32⟩ : BufTy).Contents (Elt F) → (⟨S8192x8192, .f32⟩ : BufTy).Contents (Elt F) → (⟨S8192x8192, .f32⟩ : BufTy).Contents (Elt F)),
    binary main_v7 main_v11 main_v12 (subf : (⟨S8192x8192, .f32⟩ : BufTy).Contents (Elt F) → (⟨S8192x8192, .f32⟩ : BufTy).Contents (Elt F) → (⟨S8192x8192, .f32⟩ : BufTy).Contents (Elt F)) ]

/-- Operations 16–20: the clip below at ε and the square root (main_cst_1 … main_v14). -/
abbrev sC : List (HloOp τ sig (Elt F)) :=
  [ nullary main_cst_1 (constant S_ .f32 0x2B8CBCCC#32),
    TRef.unary (TRef.of (T := ⟨S_, .f32⟩) main_cst_1) (TRef.of (T := ⟨S_, .f32⟩) main_call0_v0) id,
    TRef.unary (TRef.of (T := ⟨S_, .f32⟩) main_call0_v0) (TRef.of (T := ⟨S8192x8192, .f32⟩) main_call0_v1) (broadcastInDim S8192x8192 ![] bcast_S_S8192x8192),
    TRef.binary (TRef.of (T := ⟨S8192x8192, .f32⟩) main_call0_v1) (TRef.of (T := ⟨S8192x8192, .f32⟩) main_v12) (TRef.of (T := ⟨S8192x8192, .f32⟩) main_v13) maximumf,
    unary main_v13 main_v14 (Host.sqrt : (⟨S8192x8192, .f32⟩ : BufTy).Contents (Elt F) → (⟨S8192x8192, .f32⟩ : BufTy).Contents (Elt F)) ]

/-- Operations 21–25: the labels' two broadcasts and their comparison (main_v15 … main_v19). -/
abbrev sD : List (HloOp τ sig (Elt F)) :=
  [ unary main_arg2 main_v15 (broadcastInDim S8192x1 ![0] bcast_S8192_S8192x1_0 : (⟨S8192, .i32⟩ : BufTy).Contents (Elt F) → (⟨S8192x1, .i32⟩ : BufTy).Contents (Elt F)),
    unary main_arg2 main_v16 (broadcastInDim S1x8192 ![1] bcast_S8192_S1x8192_1 : (⟨S8192, .i32⟩ : BufTy).Contents (Elt F) → (⟨S1x8192, .i32⟩ : BufTy).Contents (Elt F)),
    unary main_v15 main_v17 (broadcastInDim S8192x8192 ![0, 1] bcast_S8192x1_S8192x8192_0_1 : (⟨S8192x1, .i32⟩ : BufTy).Contents (Elt F) → (⟨S8192x8192, .i32⟩ : BufTy).Contents (Elt F)),
    unary main_v16 main_v18 (broadcastInDim S8192x8192 ![0, 1] bcast_S1x8192_S8192x8192_0_1 : (⟨S1x8192, .i32⟩ : BufTy).Contents (Elt F) → (⟨S8192x8192, .i32⟩ : BufTy).Contents (Elt F)),
    binary main_v17 main_v18 main_v19 (cmpi .eq : (⟨S8192x8192, .i32⟩ : BufTy).Contents (Elt F) → (⟨S8192x8192, .i32⟩ : BufTy).Contents (Elt F) → (⟨S8192x8192, .i1⟩ : BufTy).Contents (Elt F)) ]

/-- Operations 26–31: the positives' selection against −∞ and its row maximum (main_cst_2 … main_v21). -/
abbrev sE : List (HloOp τ sig (Elt F)) :=
  [ nullary main_cst_2 (constant S_ .f32 0xFF800000#32),
    TRef.unary (TRef.of (T := ⟨S_, .f32⟩) main_cst_2) (TRef.of (T := ⟨S_, .f32⟩) main_call1_v0) id,
    TRef.unary (TRef.of (T := ⟨S_, .f32⟩) main_call1_v0) (TRef.of (T := ⟨S8192x8192, .f32⟩) main_call1_v1) (broadcastInDim S8192x8192 ![] bcast_S_S8192x8192),
    TRef.ternary (TRef.of (T := ⟨S8192x8192, .i1⟩) main_v19) (TRef.of (T := ⟨S8192x8192, .f32⟩) main_v14) (TRef.of (T := ⟨S8192x8192, .f32⟩) main_call1_v1) (TRef.of (T := ⟨S8192x8192, .f32⟩) main_v20) select,
    nullary main_cst_3 (constant S_ .f32 0xFF800000#32),
    binary main_v20 main_cst_3 main_v21 ((fun x v => Host.reduce FloatOps.maximumf x v reducesTo_S8192x8192_S8192_d1 h_S_) : (⟨S8192x8192, .f32⟩ : BufTy).Contents (Elt F) → (⟨S_, .f32⟩ : BufTy).Contents (Elt F) → (⟨S8192, .f32⟩ : BufTy).Contents (Elt F)) ]

/-- Operations 32–37: the negatives' selection against +∞ and its row minimum (main_cst_4 … main_v23). -/
abbrev sF : List (HloOp τ sig (Elt F)) :=
  [ nullary main_cst_4 (constant S_ .f32 0x7F800000#32),
    TRef.unary (TRef.of (T := ⟨S_, .f32⟩) main_cst_4) (TRef.of (T := ⟨S_, .f32⟩) main_call2_v0) id,
    TRef.unary (TRef.of (T := ⟨S_, .f32⟩) main_call2_v0) (TRef.of (T := ⟨S8192x8192, .f32⟩) main_call2_v1) (broadcastInDim S8192x8192 ![] bcast_S_S8192x8192),
    TRef.ternary (TRef.of (T := ⟨S8192x8192, .i1⟩) main_v19) (TRef.of (T := ⟨S8192x8192, .f32⟩) main_call2_v1) (TRef.of (T := ⟨S8192x8192, .f32⟩) main_v14) (TRef.of (T := ⟨S8192x8192, .f32⟩) main_v22) select,
    nullary main_cst_5 (constant S_ .f32 0x7F800000#32),
    binary main_v22 main_cst_5 main_v23 ((fun x v => Host.reduce FloatOps.minimumf x v reducesTo_S8192x8192_S8192_d1 h_S_) : (⟨S8192x8192, .f32⟩ : BufTy).Contents (Elt F) → (⟨S_, .f32⟩ : BufTy).Contents (Elt F) → (⟨S8192, .f32⟩ : BufTy).Contents (Elt F)) ]

/-- Operations 38–48: the difference, plus ½, clipped below at 0, summed, divided by 8192 (main_v24 … main_v29). -/
abbrev sG : List (HloOp τ sig (Elt F)) :=
  [ binary main_v21 main_v23 main_v24 (subf : (⟨S8192, .f32⟩ : BufTy).Contents (Elt F) → (⟨S8192, .f32⟩ : BufTy).Contents (Elt F) → (⟨S8192, .f32⟩ : BufTy).Contents (Elt F)),
    nullary main_cst_6 (constant S_ .f32 0x3F000000#32),
    unary main_cst_6 main_v25 (broadcastInDim S8192 ![] bcast_S_S8192 : (⟨S_, .f32⟩ : BufTy).Contents (Elt F) → (⟨S8192, .f32⟩ : BufTy).Contents (Elt F)),
    binary main_v24 main_v25 main_v26 (addf : (⟨S8192, .f32⟩ : BufTy).Contents (Elt F) → (⟨S8192, .f32⟩ : BufTy).Contents (Elt F) → (⟨S8192, .f32⟩ : BufTy).Contents (Elt F)),
    TRef.nullary (TRef.of (T := ⟨S_, .f32⟩) main_call3_cst) (constant S_ .f32 0x00000000#32),
    TRef.unary (TRef.of (T := ⟨S_, .f32⟩) main_call3_cst) (TRef.of (T := ⟨S8192, .f32⟩) main_call3_v0) (broadcastInDim S8192 ![] bcast_S_S8192),
    TRef.binary (TRef.of (T := ⟨S8192, .f32⟩) main_v26) (TRef.of (T := ⟨S8192, .f32⟩) main_call3_v0) (TRef.of (T := ⟨S8192, .f32⟩) main_v27) maximumf,
    nullary main_cst_7 (constant S_ .f32 0x00000000#32),
    binary main_v27 main_cst_7 main_v28 ((fun x v => Host.reduceAdd x v reducesTo_S8192_S_d0 h_S_) : (⟨S8192, .f32⟩ : BufTy).Contents (Elt F) → (⟨S_, .f32⟩ : BufTy).Contents (Elt F) → (⟨S_, .f32⟩ : BufTy).Contents (Elt F)),
    nullary main_cst_8 (constant S_ .f32 0x46000000#32),
    binary main_v28 main_cst_8 main_v29 (Host.divf : (⟨S_, .f32⟩ : BufTy).Contents (Elt F) → (⟨S_, .f32⟩ : BufTy).Contents (Elt F) → (⟨S_, .f32⟩ : BufTy).Contents (Elt F)) ]

/-- @main's 48 operations, in order. -/
abbrev ops : List (HloOp τ sig (Elt F)) :=
  [ binary main_arg0 main_arg1 main_v0 (mulf : (⟨S8192x512, .f32⟩ : BufTy).Contents (Elt F) → (⟨S8192x512, .f32⟩ : BufTy).Contents (Elt F) → (⟨S8192x512, .f32⟩ : BufTy).Contents (Elt F)),
    binary main_v0 main_v0 main_v1 (mulf : (⟨S8192x512, .f32⟩ : BufTy).Contents (Elt F) → (⟨S8192x512, .f32⟩ : BufTy).Contents (Elt F) → (⟨S8192x512, .f32⟩ : BufTy).Contents (Elt F)),
    nullary main_cst (constant S_ .f32 0x00000000#32),
    binary main_v1 main_cst main_v2 ((fun x v => Host.reduceAdd x v reducesTo_S8192x512_S8192_d1 h_S_) : (⟨S8192x512, .f32⟩ : BufTy).Contents (Elt F) → (⟨S_, .f32⟩ : BufTy).Contents (Elt F) → (⟨S8192, .f32⟩ : BufTy).Contents (Elt F)),
    unary main_v2 main_v3 (broadcastInDim S8192x1 ![0] bcast_S8192_S8192x1_0 : (⟨S8192, .f32⟩ : BufTy).Contents (Elt F) → (⟨S8192x1, .f32⟩ : BufTy).Contents (Elt F)),
    unary main_v2 main_v4 (broadcastInDim S1x8192 ![1] bcast_S8192_S1x8192_1 : (⟨S8192, .f32⟩ : BufTy).Contents (Elt F) → (⟨S1x8192, .f32⟩ : BufTy).Contents (Elt F)),
    unary main_v3 main_v5 (broadcastInDim S8192x8192 ![0, 1] bcast_S8192x1_S8192x8192_0_1 : (⟨S8192x1, .f32⟩ : BufTy).Contents (Elt F) → (⟨S8192x8192, .f32⟩ : BufTy).Contents (Elt F)),
    unary main_v4 main_v6 (broadcastInDim S8192x8192 ![0, 1] bcast_S1x8192_S8192x8192_0_1 : (⟨S1x8192, .f32⟩ : BufTy).Contents (Elt F) → (⟨S8192x8192, .f32⟩ : BufTy).Contents (Elt F)),
    binary main_v5 main_v6 main_v7 (addf : (⟨S8192x8192, .f32⟩ : BufTy).Contents (Elt F) → (⟨S8192x8192, .f32⟩ : BufTy).Contents (Elt F) → (⟨S8192x8192, .f32⟩ : BufTy).Contents (Elt F)),
    unary main_v0 main_v8 ((transpose S512x8192 [1, 0] · transposes_S8192x512_S512x8192_1_0) : (⟨S8192x512, .f32⟩ : BufTy).Contents (Elt F) → (⟨S512x8192, .f32⟩ : BufTy).Contents (Elt F)),
    binary main_v0 main_v8 main_v9 ((fun l r => Host.dotGeneral dot_S8192x512_S512x8192_S8192x8192_1_0_0_1_n_n none l r) : (⟨S8192x512, .f32⟩ : BufTy).Contents (Elt F) → (⟨S512x8192, .f32⟩ : BufTy).Contents (Elt F) → (⟨S8192x8192, .f32⟩ : BufTy).Contents (Elt F)),
    nullary main_cst_0 (constant S_ .f32 0x40000000#32),
    unary main_cst_0 main_v10 (broadcastInDim S8192x8192 ![] bcast_S_S8192x8192 : (⟨S_, .f32⟩ : BufTy).Contents (Elt F) → (⟨S8192x8192, .f32⟩ : BufTy).Contents (Elt F)),
    binary main_v10 main_v9 main_v11 (mulf : (⟨S8192x8192, .f32⟩ : BufTy).Contents (Elt F) → (⟨S8192x8192, .f32⟩ : BufTy).Contents (Elt F) → (⟨S8192x8192, .f32⟩ : BufTy).Contents (Elt F)),
    binary main_v7 main_v11 main_v12 (subf : (⟨S8192x8192, .f32⟩ : BufTy).Contents (Elt F) → (⟨S8192x8192, .f32⟩ : BufTy).Contents (Elt F) → (⟨S8192x8192, .f32⟩ : BufTy).Contents (Elt F)),
    nullary main_cst_1 (constant S_ .f32 0x2B8CBCCC#32),
    TRef.unary (TRef.of (T := ⟨S_, .f32⟩) main_cst_1) (TRef.of (T := ⟨S_, .f32⟩) main_call0_v0) id,
    TRef.unary (TRef.of (T := ⟨S_, .f32⟩) main_call0_v0) (TRef.of (T := ⟨S8192x8192, .f32⟩) main_call0_v1) (broadcastInDim S8192x8192 ![] bcast_S_S8192x8192),
    TRef.binary (TRef.of (T := ⟨S8192x8192, .f32⟩) main_call0_v1) (TRef.of (T := ⟨S8192x8192, .f32⟩) main_v12) (TRef.of (T := ⟨S8192x8192, .f32⟩) main_v13) maximumf,
    unary main_v13 main_v14 (Host.sqrt : (⟨S8192x8192, .f32⟩ : BufTy).Contents (Elt F) → (⟨S8192x8192, .f32⟩ : BufTy).Contents (Elt F)),
    unary main_arg2 main_v15 (broadcastInDim S8192x1 ![0] bcast_S8192_S8192x1_0 : (⟨S8192, .i32⟩ : BufTy).Contents (Elt F) → (⟨S8192x1, .i32⟩ : BufTy).Contents (Elt F)),
    unary main_arg2 main_v16 (broadcastInDim S1x8192 ![1] bcast_S8192_S1x8192_1 : (⟨S8192, .i32⟩ : BufTy).Contents (Elt F) → (⟨S1x8192, .i32⟩ : BufTy).Contents (Elt F)),
    unary main_v15 main_v17 (broadcastInDim S8192x8192 ![0, 1] bcast_S8192x1_S8192x8192_0_1 : (⟨S8192x1, .i32⟩ : BufTy).Contents (Elt F) → (⟨S8192x8192, .i32⟩ : BufTy).Contents (Elt F)),
    unary main_v16 main_v18 (broadcastInDim S8192x8192 ![0, 1] bcast_S1x8192_S8192x8192_0_1 : (⟨S1x8192, .i32⟩ : BufTy).Contents (Elt F) → (⟨S8192x8192, .i32⟩ : BufTy).Contents (Elt F)),
    binary main_v17 main_v18 main_v19 (cmpi .eq : (⟨S8192x8192, .i32⟩ : BufTy).Contents (Elt F) → (⟨S8192x8192, .i32⟩ : BufTy).Contents (Elt F) → (⟨S8192x8192, .i1⟩ : BufTy).Contents (Elt F)),
    nullary main_cst_2 (constant S_ .f32 0xFF800000#32),
    TRef.unary (TRef.of (T := ⟨S_, .f32⟩) main_cst_2) (TRef.of (T := ⟨S_, .f32⟩) main_call1_v0) id,
    TRef.unary (TRef.of (T := ⟨S_, .f32⟩) main_call1_v0) (TRef.of (T := ⟨S8192x8192, .f32⟩) main_call1_v1) (broadcastInDim S8192x8192 ![] bcast_S_S8192x8192),
    TRef.ternary (TRef.of (T := ⟨S8192x8192, .i1⟩) main_v19) (TRef.of (T := ⟨S8192x8192, .f32⟩) main_v14) (TRef.of (T := ⟨S8192x8192, .f32⟩) main_call1_v1) (TRef.of (T := ⟨S8192x8192, .f32⟩) main_v20) select,
    nullary main_cst_3 (constant S_ .f32 0xFF800000#32),
    binary main_v20 main_cst_3 main_v21 ((fun x v => Host.reduce FloatOps.maximumf x v reducesTo_S8192x8192_S8192_d1 h_S_) : (⟨S8192x8192, .f32⟩ : BufTy).Contents (Elt F) → (⟨S_, .f32⟩ : BufTy).Contents (Elt F) → (⟨S8192, .f32⟩ : BufTy).Contents (Elt F)),
    nullary main_cst_4 (constant S_ .f32 0x7F800000#32),
    TRef.unary (TRef.of (T := ⟨S_, .f32⟩) main_cst_4) (TRef.of (T := ⟨S_, .f32⟩) main_call2_v0) id,
    TRef.unary (TRef.of (T := ⟨S_, .f32⟩) main_call2_v0) (TRef.of (T := ⟨S8192x8192, .f32⟩) main_call2_v1) (broadcastInDim S8192x8192 ![] bcast_S_S8192x8192),
    TRef.ternary (TRef.of (T := ⟨S8192x8192, .i1⟩) main_v19) (TRef.of (T := ⟨S8192x8192, .f32⟩) main_call2_v1) (TRef.of (T := ⟨S8192x8192, .f32⟩) main_v14) (TRef.of (T := ⟨S8192x8192, .f32⟩) main_v22) select,
    nullary main_cst_5 (constant S_ .f32 0x7F800000#32),
    binary main_v22 main_cst_5 main_v23 ((fun x v => Host.reduce FloatOps.minimumf x v reducesTo_S8192x8192_S8192_d1 h_S_) : (⟨S8192x8192, .f32⟩ : BufTy).Contents (Elt F) → (⟨S_, .f32⟩ : BufTy).Contents (Elt F) → (⟨S8192, .f32⟩ : BufTy).Contents (Elt F)),
    binary main_v21 main_v23 main_v24 (subf : (⟨S8192, .f32⟩ : BufTy).Contents (Elt F) → (⟨S8192, .f32⟩ : BufTy).Contents (Elt F) → (⟨S8192, .f32⟩ : BufTy).Contents (Elt F)),
    nullary main_cst_6 (constant S_ .f32 0x3F000000#32),
    unary main_cst_6 main_v25 (broadcastInDim S8192 ![] bcast_S_S8192 : (⟨S_, .f32⟩ : BufTy).Contents (Elt F) → (⟨S8192, .f32⟩ : BufTy).Contents (Elt F)),
    binary main_v24 main_v25 main_v26 (addf : (⟨S8192, .f32⟩ : BufTy).Contents (Elt F) → (⟨S8192, .f32⟩ : BufTy).Contents (Elt F) → (⟨S8192, .f32⟩ : BufTy).Contents (Elt F)),
    TRef.nullary (TRef.of (T := ⟨S_, .f32⟩) main_call3_cst) (constant S_ .f32 0x00000000#32),
    TRef.unary (TRef.of (T := ⟨S_, .f32⟩) main_call3_cst) (TRef.of (T := ⟨S8192, .f32⟩) main_call3_v0) (broadcastInDim S8192 ![] bcast_S_S8192),
    TRef.binary (TRef.of (T := ⟨S8192, .f32⟩) main_v26) (TRef.of (T := ⟨S8192, .f32⟩) main_call3_v0) (TRef.of (T := ⟨S8192, .f32⟩) main_v27) maximumf,
    nullary main_cst_7 (constant S_ .f32 0x00000000#32),
    binary main_v27 main_cst_7 main_v28 ((fun x v => Host.reduceAdd x v reducesTo_S8192_S_d0 h_S_) : (⟨S8192, .f32⟩ : BufTy).Contents (Elt F) → (⟨S_, .f32⟩ : BufTy).Contents (Elt F) → (⟨S_, .f32⟩ : BufTy).Contents (Elt F)),
    nullary main_cst_8 (constant S_ .f32 0x46000000#32),
    binary main_v28 main_cst_8 main_v29 (Host.divf : (⟨S_, .f32⟩ : BufTy).Contents (Elt F) → (⟨S_, .f32⟩ : BufTy).Contents (Elt F) → (⟨S_, .f32⟩ : BufTy).Contents (Elt F)) ]

theorem ops_split : (ops : List (HloOp τ sig (Elt F))) = sA ++ (sB ++ (sC ++ (sD ++ (sE ++ (sF ++ sG))))) := rfl

set_option maxRecDepth 1024 in
/-- @main is that straight line: the called functions' definitions unfolded at their calls, both sides are one chain
    of steps once sequencing is reassociated. -/
theorem main_eq (c : Dev nD) : main (F := F) c = seq ops := by
  simp only [main, fn_clip.body, fn_where.body, fn_where_0.body, fn_relu.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

set_option maxRecDepth 8192 in
theorem ops_sub : (ops : List (HloOp τ sig (Elt F))).Forall fun op => op.bufs ⊆ tcRefs τ sig :=
  ⟨binary_bufs_sub .., binary_bufs_sub .., nullary_bufs_sub .., binary_bufs_sub .., unary_bufs_sub .., unary_bufs_sub .., unary_bufs_sub .., unary_bufs_sub .., binary_bufs_sub .., unary_bufs_sub .., binary_bufs_sub .., nullary_bufs_sub .., unary_bufs_sub .., binary_bufs_sub .., binary_bufs_sub .., nullary_bufs_sub .., unary_bufs_sub .., unary_bufs_sub .., binary_bufs_sub .., unary_bufs_sub .., unary_bufs_sub .., unary_bufs_sub .., unary_bufs_sub .., unary_bufs_sub .., binary_bufs_sub .., nullary_bufs_sub .., unary_bufs_sub .., unary_bufs_sub .., ternary_bufs_sub .., nullary_bufs_sub .., binary_bufs_sub .., nullary_bufs_sub .., unary_bufs_sub .., unary_bufs_sub .., ternary_bufs_sub .., nullary_bufs_sub .., binary_bufs_sub .., binary_bufs_sub .., nullary_bufs_sub .., unary_bufs_sub .., binary_bufs_sub .., nullary_bufs_sub .., unary_bufs_sub .., binary_bufs_sub .., nullary_bufs_sub .., binary_bufs_sub .., nullary_bufs_sub .., binary_bufs_sub ..⟩

/-- From any memory with zero counters every weakly fair execution of @main terminates, and every final state has
    each buffer at the operations' fold over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

end Cert.ReferenceIdeal.HandVal

end
-- ==== Proof.RI.Stages.lean ====
/-
  The reference program one operation at a time. `val_<buffer>` (one per operation, in program order) is the
  value the operation writes, as a function of the arguments of @main it depends on; `val_<buffer>_apply`
  reads it at an index `i` from the operands at an index, for each operation whose result element depends on
  one element of each operand. A layout operation (broadcast, transpose) reads its operand at
  `idx_<buffer> i`, computed from the literal shapes. On the extended reals a `dot_general`'s element is the
  sum over `k` of the left operand at `lidx_<buffer> i k` times the right at `ridx_<buffer> i k`, and a float
  sum's element is the initial value plus the sum over `k` of the operand at `idx_<buffer> i k` (into a
  rank-0 result: plus the sum over every index of the operand). The two row reductions by maximum and minimum
  (main_v21, main_v23) are folds over an axis of the operand and are read where they are used.
-/
import proofs.«126033_j28338194219418_2_alg».proof.Proof.Gen.ReferenceIdeal
import Idealize.ShloMosaic.Lib.Pipeline.Value
import Idealize.ShloMosaic.Lib.ValueIdx
import Idealize.ShloMosaic.PureOps.Ideal.Laws

noncomputable section

namespace Cert.ReferenceIdeal.Stages

open Cert.ReferenceIdeal Cert.ReferenceIdeal.Gen Idealize.ShloMosaic Idealize.ShloMosaic.TcCoe Idealize.SL.Sem Idealize.ShloMosaic.StableHlo

variable {F : FTy → Type} [FloatOps F]

-- %0 = stablehlo.multiply %arg0, %arg1 : tensor<8192x512xf32>
def val_main_v0 (x0 x1 : (⟨S8192x512, .f32⟩ : BufTy).Contents (Elt F)) : (⟨S8192x512, .f32⟩ : BufTy).Contents (Elt F) :=
  mulf (x0) (x1)
theorem val_main_v0_apply (x0 x1 : (⟨S8192x512, .f32⟩ : BufTy).Contents (Elt F)) (i : S8192x512.Idx) :
    val_main_v0 (F := F) x0 x1 i = FloatOps.mulf (x0 i) (x1 i) := rfl

-- %1 = stablehlo.multiply %0, %0 : tensor<8192x512xf32>
def val_main_v1 (x0 x1 : (⟨S8192x512, .f32⟩ : BufTy).Contents (Elt F)) : (⟨S8192x512, .f32⟩ : BufTy).Contents (Elt F) :=
  mulf (val_main_v0 (F := F) x0 x1) (val_main_v0 (F := F) x0 x1)
theorem val_main_v1_apply (x0 x1 : (⟨S8192x512, .f32⟩ : BufTy).Contents (Elt F)) (i : S8192x512.Idx) :
    val_main_v1 (F := F) x0 x1 i = FloatOps.mulf (val_main_v0 (F := F) x0 x1 i) (val_main_v0 (F := F) x0 x1 i) := rfl

-- %cst = stablehlo.constant dense<0.000000e+00> : tensor<f32>
def val_main_cst : (⟨S_, .f32⟩ : BufTy).Contents (Elt F) :=
  constant S_ .f32 0x00000000#32
theorem val_main_cst_apply (i : S_.Idx) :
    val_main_cst (F := F) i = FloatOps.ofBits .f32 0x00000000#32 := rfl

-- %2 = stablehlo.reduce(%1 init: %cst) applies stablehlo.add across dimensions = [1] : (tensor<8192x512xf32>, tensor<f32>) -> tensor<8192xf32> {
def val_main_v2 (x0 x1 : (⟨S8192x512, .f32⟩ : BufTy).Contents (Elt F)) : (⟨S8192, .f32⟩ : BufTy).Contents (Elt F) :=
  Host.reduceAdd (val_main_v1 (F := F) x0 x1) (val_main_cst (F := F)) reducesTo_S8192x512_S8192_d1 h_S_
abbrev idx_main_v2 (i : S8192.Idx) (k : Fin 512) : S8192x512.Idx := fun a => match a with
  | ⟨0, _⟩ => ⟨(i 0).val, (i 0).isLt⟩
  | ⟨1, _⟩ => ⟨k.val, k.isLt⟩
/-- Stated at `F := Ideal`, where the host's float sum is this sum; at a bit-exact instance it is an opaque function of its operand. -/
theorem val_main_v2_apply (x0 x1 : (⟨S8192x512, .f32⟩ : BufTy).Contents (Elt Ideal)) (i : S8192.Idx) :
    val_main_v2 (F := Ideal) x0 x1 i = (val_main_cst (F := Ideal)) (Shape.Idx.first h_S_) + ∑ k : Fin 512, (val_main_v1 (F := Ideal) x0 x1) (idx_main_v2 i k) := by
  unfold val_main_v2
  generalize val_main_v1 (F := Ideal) x0 x1 = y0
  simp only [Host.reduceAdd, Ideal.hostReduceAdd_def]
  rw [Ideal.hostReduceAdd_single reducesTo_S8192x512_S8192_d1 (by decide)]
  refine congrArg (_ + ·) (Finset.sum_congr rfl fun k _ => ?_)
  exact congrArg y0 (funext fun a => Fin.ext (by match a with | ⟨0, _⟩ => rfl | ⟨1, _⟩ => rfl))

-- %3 = stablehlo.broadcast_in_dim %2, dims = [0] : (tensor<8192xf32>) -> tensor<8192x1xf32>
def val_main_v3 (x0 x1 : (⟨S8192x512, .f32⟩ : BufTy).Contents (Elt F)) : (⟨S8192x1, .f32⟩ : BufTy).Contents (Elt F) :=
  broadcastInDim S8192x1 ![0] bcast_S8192_S8192x1_0 (val_main_v2 (F := F) x0 x1)
abbrev idx_main_v3 (i : S8192x1.Idx) : S8192.Idx := fun a => match a with
  | ⟨0, _⟩ => ⟨(i 0).val, (i 0).isLt⟩
theorem val_main_v3_apply (x0 x1 : (⟨S8192x512, .f32⟩ : BufTy).Contents (Elt F)) (i : S8192x1.Idx) :
    val_main_v3 (F := F) x0 x1 i = val_main_v2 (F := F) x0 x1 (idx_main_v3 i) := by
  unfold val_main_v3
  generalize val_main_v2 (F := F) x0 x1 = y
  exact broadcastInDim_apply _ bcast_S8192_S8192x1_0 y i (idx_main_v3 i) (fun a => match a with
    | ⟨0, _⟩ => by show (i 0).val = if (8192 : Nat) = 1 then 0 else (i 0).val; rw [if_neg (by decide)])

-- %4 = stablehlo.broadcast_in_dim %2, dims = [1] : (tensor<8192xf32>) -> tensor<1x8192xf32>
def val_main_v4 (x0 x1 : (⟨S8192x512, .f32⟩ : BufTy).Contents (Elt F)) : (⟨S1x8192, .f32⟩ : BufTy).Contents (Elt F) :=
  broadcastInDim S1x8192 ![1] bcast_S8192_S1x8192_1 (val_main_v2 (F := F) x0 x1)
abbrev idx_main_v4 (i : S1x8192.Idx) : S8192.Idx := fun a => match a with
  | ⟨0, _⟩ => ⟨(i 1).val, (i 1).isLt⟩
theorem val_main_v4_apply (x0 x1 : (⟨S8192x512, .f32⟩ : BufTy).Contents (Elt F)) (i : S1x8192.Idx) :
    val_main_v4 (F := F) x0 x1 i = val_main_v2 (F := F) x0 x1 (idx_main_v4 i) := by
  unfold val_main_v4
  generalize val_main_v2 (F := F) x0 x1 = y
  exact broadcastInDim_apply _ bcast_S8192_S1x8192_1 y i (idx_main_v4 i) (fun a => match a with
    | ⟨0, _⟩ => by show (i 1).val = if (8192 : Nat) = 1 then 0 else (i 1).val; rw [if_neg (by decide)])

-- %5 = stablehlo.broadcast_in_dim %3, dims = [0, 1] : (tensor<8192x1xf32>) -> tensor<8192x8192xf32>
def val_main_v5 (x0 x1 : (⟨S8192x512, .f32⟩ : BufTy).Contents (Elt F)) : (⟨S8192x8192, .f32⟩ : BufTy).Contents (Elt F) :=
  broadcastInDim S8192x8192 ![0, 1] bcast_S8192x1_S8192x8192_0_1 (val_main_v3 (F := F) x0 x1)
abbrev idx_main_v5 (i : S8192x8192.Idx) : S8192x1.Idx := fun a => match a with
  | ⟨0, _⟩ => ⟨(i 0).val, (i 0).isLt⟩
  | ⟨1, _⟩ => ⟨0, Nat.one_pos⟩
theorem val_main_v5_apply (x0 x1 : (⟨S8192x512, .f32⟩ : BufTy).Contents (Elt F)) (i : S8192x8192.Idx) :
    val_main_v5 (F := F) x0 x1 i = val_main_v3 (F := F) x0 x1 (idx_main_v5 i) := by
  unfold val_main_v5
  generalize val_main_v3 (F := F) x0 x1 = y
  exact broadcastInDim_apply _ bcast_S8192x1_S8192x8192_0_1 y i (idx_main_v5 i) (fun a => match a with
    | ⟨0, _⟩ => by show (i 0).val = if (8192 : Nat) = 1 then 0 else (i 0).val; rw [if_neg (by decide)]
    | ⟨1, _⟩ => by show 0 = if (1 : Nat) = 1 then 0 else (i 1).val; rw [if_pos rfl])

-- %6 = stablehlo.broadcast_in_dim %4, dims = [0, 1] : (tensor<1x8192xf32>) -> tensor<8192x8192xf32>
def val_main_v6 (x0 x1 : (⟨S8192x512, .f32⟩ : BufTy).Contents (Elt F)) : (⟨S8192x8192, .f32⟩ : BufTy).Contents (Elt F) :=
  broadcastInDim S8192x8192 ![0, 1] bcast_S1x8192_S8192x8192_0_1 (val_main_v4 (F := F) x0 x1)
abbrev idx_main_v6 (i : S8192x8192.Idx) : S1x8192.Idx := fun a => match a with
  | ⟨0, _⟩ => ⟨0, Nat.one_pos⟩
  | ⟨1, _⟩ => ⟨(i 1).val, (i 1).isLt⟩
theorem val_main_v6_apply (x0 x1 : (⟨S8192x512, .f32⟩ : BufTy).Contents (Elt F)) (i : S8192x8192.Idx) :
    val_main_v6 (F := F) x0 x1 i = val_main_v4 (F := F) x0 x1 (idx_main_v6 i) := by
  unfold val_main_v6
  generalize val_main_v4 (F := F) x0 x1 = y
  exact broadcastInDim_apply _ bcast_S1x8192_S8192x8192_0_1 y i (idx_main_v6 i) (fun a => match a with
    | ⟨0, _⟩ => by show 0 = if (1 : Nat) = 1 then 0 else (i 0).val; rw [if_pos rfl]
    | ⟨1, _⟩ => by show (i 1).val = if (8192 : Nat) = 1 then 0 else (i 1).val; rw [if_neg (by decide)])

-- %7 = stablehlo.add %5, %6 : tensor<8192x8192xf32>
def val_main_v7 (x0 x1 : (⟨S8192x512, .f32⟩ : BufTy).Contents (Elt F)) : (⟨S8192x8192, .f32⟩ : BufTy).Contents (Elt F) :=
  addf (val_main_v5 (F := F) x0 x1) (val_main_v6 (F := F) x0 x1)
theorem val_main_v7_apply (x0 x1 : (⟨S8192x512, .f32⟩ : BufTy).Contents (Elt F)) (i : S8192x8192.Idx) :
    val_main_v7 (F := F) x0 x1 i = FloatOps.addf (val_main_v5 (F := F) x0 x1 i) (val_main_v6 (F := F) x0 x1 i) := rfl

-- %8 = stablehlo.transpose %0, dims = [1, 0] : (tensor<8192x512xf32>) -> tensor<512x8192xf32>
def val_main_v8 (x0 x1 : (⟨S8192x512, .f32⟩ : BufTy).Contents (Elt F)) : (⟨S512x8192, .f32⟩ : BufTy).Contents (Elt F) :=
  transpose S512x8192 [1, 0] (val_main_v0 (F := F) x0 x1) transposes_S8192x512_S512x8192_1_0
abbrev idx_main_v8 (i : S512x8192.Idx) : S8192x512.Idx := fun a => match a with
  | ⟨0, _⟩ => ⟨(i 1).val, (i 1).isLt⟩
  | ⟨1, _⟩ => ⟨(i 0).val, (i 0).isLt⟩
theorem val_main_v8_apply (x0 x1 : (⟨S8192x512, .f32⟩ : BufTy).Contents (Elt F)) (i : S512x8192.Idx) :
    val_main_v8 (F := F) x0 x1 i = val_main_v0 (F := F) x0 x1 (idx_main_v8 i) := by
  unfold val_main_v8
  generalize val_main_v0 (F := F) x0 x1 = y
  exact transpose_apply [1, 0] y transposes_S8192x512_S512x8192_1_0 i (idx_main_v8 i) (fun b => match b with
    | ⟨0, _⟩ => rfl
    | ⟨1, _⟩ => rfl)

-- %9 = stablehlo.dot_general %0, %8, contracting_dims = [1] x [0], precision = [DEFAULT, DEFAULT] : (tensor<8192x512xf32>, tensor<512x8192xf32>) -> tensor<8192x8192xf32>
def val_main_v9 (x0 x1 : (⟨S8192x512, .f32⟩ : BufTy).Contents (Elt F)) : (⟨S8192x8192, .f32⟩ : BufTy).Contents (Elt F) :=
  Host.dotGeneral dot_S8192x512_S512x8192_S8192x8192_1_0_0_1_n_n none (val_main_v0 (F := F) x0 x1) (val_main_v8 (F := F) x0 x1)
theorem lhs_main_v9_0 (i : S8192x8192.Idx) (q : dot_S8192x512_S512x8192_S8192x8192_1_0_0_1_n_n.contr.Idx) :
    (dot_S8192x512_S512x8192_S8192x8192_1_0_0_1_n_n.lhsIdx i q 0).val = (i 0).val := by
  unfold DotDims.lhsIdx
  rw [dif_neg (show ¬(0 : Fin S8192x512.rank) ∈ dot_S8192x512_S512x8192_S8192x8192_1_0_0_1_n_n.lhsBatch by decide), dif_pos (show (0 : Fin S8192x512.rank) ∈ dot_S8192x512_S512x8192_S8192x8192_1_0_0_1_n_n.lhsNonContracting by decide)]
  rfl
theorem lhs_main_v9_1 (i : S8192x8192.Idx) (q : dot_S8192x512_S512x8192_S8192x8192_1_0_0_1_n_n.contr.Idx) :
    (dot_S8192x512_S512x8192_S8192x8192_1_0_0_1_n_n.lhsIdx i q 1).val = (q ⟨0, by decide⟩).val :=
  dot_S8192x512_S512x8192_S8192x8192_1_0_0_1_n_n.lhsIdx_val_of_single rfl i q
theorem rhs_main_v9_0 (i : S8192x8192.Idx) (q : dot_S8192x512_S512x8192_S8192x8192_1_0_0_1_n_n.contr.Idx) :
    (dot_S8192x512_S512x8192_S8192x8192_1_0_0_1_n_n.rhsIdx i q 0).val = (q ⟨0, by decide⟩).val :=
  dot_S8192x512_S512x8192_S8192x8192_1_0_0_1_n_n.rhsIdx_val_of_single rfl i q
theorem rhs_main_v9_1 (i : S8192x8192.Idx) (q : dot_S8192x512_S512x8192_S8192x8192_1_0_0_1_n_n.contr.Idx) :
    (dot_S8192x512_S512x8192_S8192x8192_1_0_0_1_n_n.rhsIdx i q 1).val = (i 1).val := by
  unfold DotDims.rhsIdx
  rw [dif_neg (show ¬(1 : Fin S512x8192.rank) ∈ dot_S8192x512_S512x8192_S8192x8192_1_0_0_1_n_n.rhsBatch by decide), dif_pos (show (1 : Fin S512x8192.rank) ∈ dot_S8192x512_S512x8192_S8192x8192_1_0_0_1_n_n.rhsNonContracting by decide)]
  rfl
abbrev lidx_main_v9 (i : S8192x8192.Idx) (k : Fin 512) : S8192x512.Idx := fun a => match a with
  | ⟨0, _⟩ => ⟨(i 0).val, (i 0).isLt⟩
  | ⟨1, _⟩ => ⟨k.val, k.isLt⟩
abbrev ridx_main_v9 (i : S8192x8192.Idx) (k : Fin 512) : S512x8192.Idx := fun a => match a with
  | ⟨0, _⟩ => ⟨k.val, k.isLt⟩
  | ⟨1, _⟩ => ⟨(i 1).val, (i 1).isLt⟩
/-- Stated at `F := Ideal`, where the host's `dot_general` is this sum; at a bit-exact instance it is an opaque function of its operands. -/
theorem val_main_v9_apply (x0 x1 : (⟨S8192x512, .f32⟩ : BufTy).Contents (Elt Ideal)) (i : S8192x8192.Idx) :
    val_main_v9 (F := Ideal) x0 x1 i = ∑ k : Fin 512, (val_main_v0 (F := Ideal) x0 x1) (lidx_main_v9 i k) * (val_main_v8 (F := Ideal) x0 x1) (ridx_main_v9 i k) := by
  unfold val_main_v9
  generalize val_main_v0 (F := Ideal) x0 x1 = y0
  generalize val_main_v8 (F := Ideal) x0 x1 = y1
  simp only [Host.dotGeneral]
  rw [Ideal.dotGeneral_apply, ← Equiv.sum_comp (ValueIdx.contrEquiv1 dot_S8192x512_S512x8192_S8192x8192_1_0_0_1_n_n 512 rfl rfl).symm]
  refine Finset.sum_congr rfl fun k _ => ?_
  have hk := ValueIdx.contrEquiv1_symm_val dot_S8192x512_S512x8192_S8192x8192_1_0_0_1_n_n 512 rfl rfl k
  have el : dot_S8192x512_S512x8192_S8192x8192_1_0_0_1_n_n.lhsIdx i ((ValueIdx.contrEquiv1 dot_S8192x512_S512x8192_S8192x8192_1_0_0_1_n_n 512 rfl rfl).symm k) = lidx_main_v9 i k := funext fun a => Fin.ext (by
    match a with
    | ⟨0, _⟩ => exact lhs_main_v9_0 _ _
    | ⟨1, _⟩ => exact (lhs_main_v9_1 _ _).trans hk)
  have er : dot_S8192x512_S512x8192_S8192x8192_1_0_0_1_n_n.rhsIdx i ((ValueIdx.contrEquiv1 dot_S8192x512_S512x8192_S8192x8192_1_0_0_1_n_n 512 rfl rfl).symm k) = ridx_main_v9 i k := funext fun a => Fin.ext (by
    match a with
    | ⟨0, _⟩ => exact (rhs_main_v9_0 _ _).trans hk
    | ⟨1, _⟩ => exact rhs_main_v9_1 _ _)
  rw [el, er]

-- %cst_0 = stablehlo.constant dense<2.000000e+00> : tensor<f32>
def val_main_cst_0 : (⟨S_, .f32⟩ : BufTy).Contents (Elt F) :=
  constant S_ .f32 0x40000000#32
theorem val_main_cst_0_apply (i : S_.Idx) :
    val_main_cst_0 (F := F) i = FloatOps.ofBits .f32 0x40000000#32 := rfl

-- %10 = stablehlo.broadcast_in_dim %cst_0, dims = [] : (tensor<f32>) -> tensor<8192x8192xf32>
def val_main_v10 : (⟨S8192x8192, .f32⟩ : BufTy).Contents (Elt F) :=
  broadcastInDim S8192x8192 ![] bcast_S_S8192x8192 (val_main_cst_0 (F := F))
abbrev idx_main_v10 (i : S8192x8192.Idx) : S_.Idx := fun a => a.elim0
theorem val_main_v10_apply (i : S8192x8192.Idx) :
    val_main_v10 (F := F) i = val_main_cst_0 (F := F) (idx_main_v10 i) := by
  unfold val_main_v10
  generalize val_main_cst_0 (F := F) = y
  exact broadcastInDim_apply _ bcast_S_S8192x8192 y i (idx_main_v10 i) (fun a => a.elim0)

-- %11 = stablehlo.multiply %10, %9 : tensor<8192x8192xf32>
def val_main_v11 (x0 x1 : (⟨S8192x512, .f32⟩ : BufTy).Contents (Elt F)) : (⟨S8192x8192, .f32⟩ : BufTy).Contents (Elt F) :=
  mulf (val_main_v10 (F := F)) (val_main_v9 (F := F) x0 x1)
theorem val_main_v11_apply (x0 x1 : (⟨S8192x512, .f32⟩ : BufTy).Contents (Elt F)) (i : S8192x8192.Idx) :
    val_main_v11 (F := F) x0 x1 i = FloatOps.mulf (val_main_v10 (F := F) i) (val_main_v9 (F := F) x0 x1 i) := rfl

-- %12 = stablehlo.subtract %7, %11 : tensor<8192x8192xf32>
def val_main_v12 (x0 x1 : (⟨S8192x512, .f32⟩ : BufTy).Contents (Elt F)) : (⟨S8192x8192, .f32⟩ : BufTy).Contents (Elt F) :=
  subf (val_main_v7 (F := F) x0 x1) (val_main_v11 (F := F) x0 x1)
theorem val_main_v12_apply (x0 x1 : (⟨S8192x512, .f32⟩ : BufTy).Contents (Elt F)) (i : S8192x8192.Idx) :
    val_main_v12 (F := F) x0 x1 i = FloatOps.subf (val_main_v7 (F := F) x0 x1 i) (val_main_v11 (F := F) x0 x1 i) := rfl

-- %cst_1 = stablehlo.constant dense<9.99999996E-13> : tensor<f32>
def val_main_cst_1 : (⟨S_, .f32⟩ : BufTy).Contents (Elt F) :=
  constant S_ .f32 0x2B8CBCCC#32
theorem val_main_cst_1_apply (i : S_.Idx) :
    val_main_cst_1 (F := F) i = FloatOps.ofBits .f32 0x2B8CBCCC#32 := rfl

-- @clip's %0 = stablehlo.convert %arg1 : tensor<f32>, in %13 = func.call @clip(…) (record main_call0)
def val_main_call0_v0 : (⟨S_, .f32⟩ : BufTy).Contents (Elt F) :=
  id (val_main_cst_1 (F := F))
theorem val_main_call0_v0_apply (i : S_.Idx) :
    val_main_call0_v0 (F := F) i = (val_main_cst_1 (F := F) i) := rfl

-- @clip's %1 = stablehlo.broadcast_in_dim %0, dims = [] : (tensor<f32>) -> tensor<8192x8192xf32>, in %13 = func.call @clip(…) (record main_call0)
def val_main_call0_v1 : (⟨S8192x8192, .f32⟩ : BufTy).Contents (Elt F) :=
  broadcastInDim S8192x8192 ![] bcast_S_S8192x8192 (val_main_call0_v0 (F := F))
abbrev idx_main_call0_v1 (i : S8192x8192.Idx) : S_.Idx := fun a => a.elim0
theorem val_main_call0_v1_apply (i : S8192x8192.Idx) :
    val_main_call0_v1 (F := F) i = val_main_call0_v0 (F := F) (idx_main_call0_v1 i) := by
  unfold val_main_call0_v1
  generalize val_main_call0_v0 (F := F) = y
  exact broadcastInDim_apply _ bcast_S_S8192x8192 y i (idx_main_call0_v1 i) (fun a => a.elim0)

-- %13 = func.call @clip(…) (record main_call0) result 0: @clip's %2 = stablehlo.maximum %1, %arg0 : tensor<8192x8192xf32>
def val_main_v13 (x0 x1 : (⟨S8192x512, .f32⟩ : BufTy).Contents (Elt F)) : (⟨S8192x8192, .f32⟩ : BufTy).Contents (Elt F) :=
  maximumf (val_main_call0_v1 (F := F)) (val_main_v12 (F := F) x0 x1)
theorem val_main_v13_apply (x0 x1 : (⟨S8192x512, .f32⟩ : BufTy).Contents (Elt F)) (i : S8192x8192.Idx) :
    val_main_v13 (F := F) x0 x1 i = FloatOps.maximumf (val_main_call0_v1 (F := F) i) (val_main_v12 (F := F) x0 x1 i) := rfl

-- %14 = stablehlo.sqrt %13 : tensor<8192x8192xf32>
def val_main_v14 (x0 x1 : (⟨S8192x512, .f32⟩ : BufTy).Contents (Elt F)) : (⟨S8192x8192, .f32⟩ : BufTy).Contents (Elt F) :=
  Host.sqrt (val_main_v13 (F := F) x0 x1)
theorem val_main_v14_apply (x0 x1 : (⟨S8192x512, .f32⟩ : BufTy).Contents (Elt F)) (i : S8192x8192.Idx) :
    val_main_v14 (F := F) x0 x1 i = FloatOps.hostUnary .sqrt (val_main_v13 (F := F) x0 x1 i) := rfl

-- %15 = stablehlo.broadcast_in_dim %arg2, dims = [0] : (tensor<8192xi32>) -> tensor<8192x1xi32>
def val_main_v15 (x2 : (⟨S8192, .i32⟩ : BufTy).Contents (Elt F)) : (⟨S8192x1, .i32⟩ : BufTy).Contents (Elt F) :=
  broadcastInDim S8192x1 ![0] bcast_S8192_S8192x1_0 (x2)
abbrev idx_main_v15 (i : S8192x1.Idx) : S8192.Idx := fun a => match a with
  | ⟨0, _⟩ => ⟨(i 0).val, (i 0).isLt⟩
theorem val_main_v15_apply (x2 : (⟨S8192, .i32⟩ : BufTy).Contents (Elt F)) (i : S8192x1.Idx) :
    val_main_v15 (F := F) x2 i = x2 (idx_main_v15 i) := by
  unfold val_main_v15
  exact broadcastInDim_apply _ bcast_S8192_S8192x1_0 x2 i (idx_main_v15 i) (fun a => match a with
    | ⟨0, _⟩ => by show (i 0).val = if (8192 : Nat) = 1 then 0 else (i 0).val; rw [if_neg (by decide)])

-- %16 = stablehlo.broadcast_in_dim %arg2, dims = [1] : (tensor<8192xi32>) -> tensor<1x8192xi32>
def val_main_v16 (x2 : (⟨S8192, .i32⟩ : BufTy).Contents (Elt F)) : (⟨S1x8192, .i32⟩ : BufTy).Contents (Elt F) :=
  broadcastInDim S1x8192 ![1] bcast_S8192_S1x8192_1 (x2)
abbrev idx_main_v16 (i : S1x8192.Idx) : S8192.Idx := fun a => match a with
  | ⟨0, _⟩ => ⟨(i 1).val, (i 1).isLt⟩
theorem val_main_v16_apply (x2 : (⟨S8192, .i32⟩ : BufTy).Contents (Elt F)) (i : S1x8192.Idx) :
    val_main_v16 (F := F) x2 i = x2 (idx_main_v16 i) := by
  unfold val_main_v16
  exact broadcastInDim_apply _ bcast_S8192_S1x8192_1 x2 i (idx_main_v16 i) (fun a => match a with
    | ⟨0, _⟩ => by show (i 1).val = if (8192 : Nat) = 1 then 0 else (i 1).val; rw [if_neg (by decide)])

-- %17 = stablehlo.broadcast_in_dim %15, dims = [0, 1] : (tensor<8192x1xi32>) -> tensor<8192x8192xi32>
def val_main_v17 (x2 : (⟨S8192, .i32⟩ : BufTy).Contents (Elt F)) : (⟨S8192x8192, .i32⟩ : BufTy).Contents (Elt F) :=
  broadcastInDim S8192x8192 ![0, 1] bcast_S8192x1_S8192x8192_0_1 (val_main_v15 (F := F) x2)
abbrev idx_main_v17 (i : S8192x8192.Idx) : S8192x1.Idx := fun a => match a with
  | ⟨0, _⟩ => ⟨(i 0).val, (i 0).isLt⟩
  | ⟨1, _⟩ => ⟨0, Nat.one_pos⟩
theorem val_main_v17_apply (x2 : (⟨S8192, .i32⟩ : BufTy).Contents (Elt F)) (i : S8192x8192.Idx) :
    val_main_v17 (F := F) x2 i = val_main_v15 (F := F) x2 (idx_main_v17 i) := by
  unfold val_main_v17
  generalize val_main_v15 (F := F) x2 = y
  exact broadcastInDim_apply _ bcast_S8192x1_S8192x8192_0_1 y i (idx_main_v17 i) (fun a => match a with
    | ⟨0, _⟩ => by show (i 0).val = if (8192 : Nat) = 1 then 0 else (i 0).val; rw [if_neg (by decide)]
    | ⟨1, _⟩ => by show 0 = if (1 : Nat) = 1 then 0 else (i 1).val; rw [if_pos rfl])

-- %18 = stablehlo.broadcast_in_dim %16, dims = [0, 1] : (tensor<1x8192xi32>) -> tensor<8192x8192xi32>
def val_main_v18 (x2 : (⟨S8192, .i32⟩ : BufTy).Contents (Elt F)) : (⟨S8192x8192, .i32⟩ : BufTy).Contents (Elt F) :=
  broadcastInDim S8192x8192 ![0, 1] bcast_S1x8192_S8192x8192_0_1 (val_main_v16 (F := F) x2)
abbrev idx_main_v18 (i : S8192x8192.Idx) : S1x8192.Idx := fun a => match a with
  | ⟨0, _⟩ => ⟨0, Nat.one_pos⟩
  | ⟨1, _⟩ => ⟨(i 1).val, (i 1).isLt⟩
theorem val_main_v18_apply (x2 : (⟨S8192, .i32⟩ : BufTy).Contents (Elt F)) (i : S8192x8192.Idx) :
    val_main_v18 (F := F) x2 i = val_main_v16 (F := F) x2 (idx_main_v18 i) := by
  unfold val_main_v18
  generalize val_main_v16 (F := F) x2 = y
  exact broadcastInDim_apply _ bcast_S1x8192_S8192x8192_0_1 y i (idx_main_v18 i) (fun a => match a with
    | ⟨0, _⟩ => by show 0 = if (1 : Nat) = 1 then 0 else (i 0).val; rw [if_pos rfl]
    | ⟨1, _⟩ => by show (i 1).val = if (8192 : Nat) = 1 then 0 else (i 1).val; rw [if_neg (by decide)])

-- %19 = stablehlo.compare EQ, %17, %18, SIGNED : (tensor<8192x8192xi32>, tensor<8192x8192xi32>) -> tensor<8192x8192xi1>
def val_main_v19 (x2 : (⟨S8192, .i32⟩ : BufTy).Contents (Elt F)) : (⟨S8192x8192, .i1⟩ : BufTy).Contents (Elt F) :=
  cmpi .eq (val_main_v17 (F := F) x2) (val_main_v18 (F := F) x2)
theorem val_main_v19_apply (x2 : (⟨S8192, .i32⟩ : BufTy).Contents (Elt F)) (i : S8192x8192.Idx) :
    val_main_v19 (F := F) x2 i = IntOp.cmpi .eq (val_main_v17 (F := F) x2 i) (val_main_v18 (F := F) x2 i) := rfl

-- %cst_2 = stablehlo.constant dense<0xFF800000> : tensor<f32>
def val_main_cst_2 : (⟨S_, .f32⟩ : BufTy).Contents (Elt F) :=
  constant S_ .f32 0xFF800000#32
theorem val_main_cst_2_apply (i : S_.Idx) :
    val_main_cst_2 (F := F) i = FloatOps.ofBits .f32 0xFF800000#32 := rfl

-- @_where's %0 = stablehlo.convert %arg2 : tensor<f32>, in %20 = func.call @_where(…) (record main_call1)
def val_main_call1_v0 : (⟨S_, .f32⟩ : BufTy).Contents (Elt F) :=
  id (val_main_cst_2 (F := F))
theorem val_main_call1_v0_apply (i : S_.Idx) :
    val_main_call1_v0 (F := F) i = (val_main_cst_2 (F := F) i) := rfl

-- @_where's %1 = stablehlo.broadcast_in_dim %0, dims = [] : (tensor<f32>) -> tensor<8192x8192xf32>, in %20 = func.call @_where(…) (record main_call1)
def val_main_call1_v1 : (⟨S8192x8192, .f32⟩ : BufTy).Contents (Elt F) :=
  broadcastInDim S8192x8192 ![] bcast_S_S8192x8192 (val_main_call1_v0 (F := F))
abbrev idx_main_call1_v1 (i : S8192x8192.Idx) : S_.Idx := fun a => a.elim0
theorem val_main_call1_v1_apply (i : S8192x8192.Idx) :
    val_main_call1_v1 (F := F) i = val_main_call1_v0 (F := F) (idx_main_call1_v1 i) := by
  unfold val_main_call1_v1
  generalize val_main_call1_v0 (F := F) = y
  exact broadcastInDim_apply _ bcast_S_S8192x8192 y i (idx_main_call1_v1 i) (fun a => a.elim0)

-- %20 = func.call @_where(…) (record main_call1) result 0: @_where's %2 = stablehlo.select %arg0, %arg1, %1 : tensor<8192x8192xi1>, tensor<8192x8192xf32>
def val_main_v20 (x0 x1 : (⟨S8192x512, .f32⟩ : BufTy).Contents (Elt F)) (x2 : (⟨S8192, .i32⟩ : BufTy).Contents (Elt F)) : (⟨S8192x8192, .f32⟩ : BufTy).Contents (Elt F) :=
  select (val_main_v19 (F := F) x2) (val_main_v14 (F := F) x0 x1) (val_main_call1_v1 (F := F))
theorem val_main_v20_apply (x0 x1 : (⟨S8192x512, .f32⟩ : BufTy).Contents (Elt F)) (x2 : (⟨S8192, .i32⟩ : BufTy).Contents (Elt F)) (i : S8192x8192.Idx) :
    val_main_v20 (F := F) x0 x1 x2 i = Scalar.select (val_main_v19 (F := F) x2 i) (val_main_v14 (F := F) x0 x1 i) (val_main_call1_v1 (F := F) i) := rfl

-- %cst_3 = stablehlo.constant dense<0xFF800000> : tensor<f32>
def val_main_cst_3 : (⟨S_, .f32⟩ : BufTy).Contents (Elt F) :=
  constant S_ .f32 0xFF800000#32
theorem val_main_cst_3_apply (i : S_.Idx) :
    val_main_cst_3 (F := F) i = FloatOps.ofBits .f32 0xFF800000#32 := rfl

-- %21 = stablehlo.reduce(%20 init: %cst_3) applies stablehlo.maximum across dimensions = [1] : (tensor<8192x8192xf32>, tensor<f32>) -> tensor<8192xf32> {
def val_main_v21 (x0 x1 : (⟨S8192x512, .f32⟩ : BufTy).Contents (Elt F)) (x2 : (⟨S8192, .i32⟩ : BufTy).Contents (Elt F)) : (⟨S8192, .f32⟩ : BufTy).Contents (Elt F) :=
  Host.reduce FloatOps.maximumf (val_main_v20 (F := F) x0 x1 x2) (val_main_cst_3 (F := F)) reducesTo_S8192x8192_S8192_d1 h_S_

-- %cst_4 = stablehlo.constant dense<0x7F800000> : tensor<f32>
def val_main_cst_4 : (⟨S_, .f32⟩ : BufTy).Contents (Elt F) :=
  constant S_ .f32 0x7F800000#32
theorem val_main_cst_4_apply (i : S_.Idx) :
    val_main_cst_4 (F := F) i = FloatOps.ofBits .f32 0x7F800000#32 := rfl

-- @_where_0's %0 = stablehlo.convert %arg1 : tensor<f32>, in %22 = func.call @_where_0(…) (record main_call2)
def val_main_call2_v0 : (⟨S_, .f32⟩ : BufTy).Contents (Elt F) :=
  id (val_main_cst_4 (F := F))
theorem val_main_call2_v0_apply (i : S_.Idx) :
    val_main_call2_v0 (F := F) i = (val_main_cst_4 (F := F) i) := rfl

-- @_where_0's %1 = stablehlo.broadcast_in_dim %0, dims = [] : (tensor<f32>) -> tensor<8192x8192xf32>, in %22 = func.call @_where_0(…) (record main_call2)
def val_main_call2_v1 : (⟨S8192x8192, .f32⟩ : BufTy).Contents (Elt F) :=
  broadcastInDim S8192x8192 ![] bcast_S_S8192x8192 (val_main_call2_v0 (F := F))
abbrev idx_main_call2_v1 (i : S8192x8192.Idx) : S_.Idx := fun a => a.elim0
theorem val_main_call2_v1_apply (i : S8192x8192.Idx) :
    val_main_call2_v1 (F := F) i = val_main_call2_v0 (F := F) (idx_main_call2_v1 i) := by
  unfold val_main_call2_v1
  generalize val_main_call2_v0 (F := F) = y
  exact broadcastInDim_apply _ bcast_S_S8192x8192 y i (idx_main_call2_v1 i) (fun a => a.elim0)

-- %22 = func.call @_where_0(…) (record main_call2) result 0: @_where_0's %2 = stablehlo.select %arg0, %1, %arg2 : tensor<8192x8192xi1>, tensor<8192x8192xf32>
def val_main_v22 (x0 x1 : (⟨S8192x512, .f32⟩ : BufTy).Contents (Elt F)) (x2 : (⟨S8192, .i32⟩ : BufTy).Contents (Elt F)) : (⟨S8192x8192, .f32⟩ : BufTy).Contents (Elt F) :=
  select (val_main_v19 (F := F) x2) (val_main_call2_v1 (F := F)) (val_main_v14 (F := F) x0 x1)
theorem val_main_v22_apply (x0 x1 : (⟨S8192x512, .f32⟩ : BufTy).Contents (Elt F)) (x2 : (⟨S8192, .i32⟩ : BufTy).Contents (Elt F)) (i : S8192x8192.Idx) :
    val_main_v22 (F := F) x0 x1 x2 i = Scalar.select (val_main_v19 (F := F) x2 i) (val_main_call2_v1 (F := F) i) (val_main_v14 (F := F) x0 x1 i) := rfl

-- %cst_5 = stablehlo.constant dense<0x7F800000> : tensor<f32>
def val_main_cst_5 : (⟨S_, .f32⟩ : BufTy).Contents (Elt F) :=
  constant S_ .f32 0x7F800000#32
theorem val_main_cst_5_apply (i : S_.Idx) :
    val_main_cst_5 (F := F) i = FloatOps.ofBits .f32 0x7F800000#32 := rfl

-- %23 = stablehlo.reduce(%22 init: %cst_5) applies stablehlo.minimum across dimensions = [1] : (tensor<8192x8192xf32>, tensor<f32>) -> tensor<8192xf32> {
def val_main_v23 (x0 x1 : (⟨S8192x512, .f32⟩ : BufTy).Contents (Elt F)) (x2 : (⟨S8192, .i32⟩ : BufTy).Contents (Elt F)) : (⟨S8192, .f32⟩ : BufTy).Contents (Elt F) :=
  Host.reduce FloatOps.minimumf (val_main_v22 (F := F) x0 x1 x2) (val_main_cst_5 (F := F)) reducesTo_S8192x8192_S8192_d1 h_S_

-- %24 = stablehlo.subtract %21, %23 : tensor<8192xf32>
def val_main_v24 (x0 x1 : (⟨S8192x512, .f32⟩ : BufTy).Contents (Elt F)) (x2 : (⟨S8192, .i32⟩ : BufTy).Contents (Elt F)) : (⟨S8192, .f32⟩ : BufTy).Contents (Elt F) :=
  subf (val_main_v21 (F := F) x0 x1 x2) (val_main_v23 (F := F) x0 x1 x2)
theorem val_main_v24_apply (x0 x1 : (⟨S8192x512, .f32⟩ : BufTy).Contents (Elt F)) (x2 : (⟨S8192, .i32⟩ : BufTy).Contents (Elt F)) (i : S8192.Idx) :
    val_main_v24 (F := F) x0 x1 x2 i = FloatOps.subf (val_main_v21 (F := F) x0 x1 x2 i) (val_main_v23 (F := F) x0 x1 x2 i) := rfl

-- %cst_6 = stablehlo.constant dense<5.000000e-01> : tensor<f32>
def val_main_cst_6 : (⟨S_, .f32⟩ : BufTy).Contents (Elt F) :=
  constant S_ .f32 0x3F000000#32
theorem val_main_cst_6_apply (i : S_.Idx) :
    val_main_cst_6 (F := F) i = FloatOps.ofBits .f32 0x3F000000#32 := rfl

-- %25 = stablehlo.broadcast_in_dim %cst_6, dims = [] : (tensor<f32>) -> tensor<8192xf32>
def val_main_v25 : (⟨S8192, .f32⟩ : BufTy).Contents (Elt F) :=
  broadcastInDim S8192 ![] bcast_S_S8192 (val_main_cst_6 (F := F))
abbrev idx_main_v25 (i : S8192.Idx) : S_.Idx := fun a => a.elim0
theorem val_main_v25_apply (i : S8192.Idx) :
    val_main_v25 (F := F) i = val_main_cst_6 (F := F) (idx_main_v25 i) := by
  unfold val_main_v25
  generalize val_main_cst_6 (F := F) = y
  exact broadcastInDim_apply _ bcast_S_S8192 y i (idx_main_v25 i) (fun a => a.elim0)

-- %26 = stablehlo.add %24, %25 : tensor<8192xf32>
def val_main_v26 (x0 x1 : (⟨S8192x512, .f32⟩ : BufTy).Contents (Elt F)) (x2 : (⟨S8192, .i32⟩ : BufTy).Contents (Elt F)) : (⟨S8192, .f32⟩ : BufTy).Contents (Elt F) :=
  addf (val_main_v24 (F := F) x0 x1 x2) (val_main_v25 (F := F))
theorem val_main_v26_apply (x0 x1 : (⟨S8192x512, .f32⟩ : BufTy).Contents (Elt F)) (x2 : (⟨S8192, .i32⟩ : BufTy).Contents (Elt F)) (i : S8192.Idx) :
    val_main_v26 (F := F) x0 x1 x2 i = FloatOps.addf (val_main_v24 (F := F) x0 x1 x2 i) (val_main_v25 (F := F) i) := rfl

-- @relu's %cst = stablehlo.constant dense<0.000000e+00> : tensor<f32>, in %27 = func.call @relu(…) (record main_call3)
def val_main_call3_cst : (⟨S_, .f32⟩ : BufTy).Contents (Elt F) :=
  constant S_ .f32 0x00000000#32
theorem val_main_call3_cst_apply (i : S_.Idx) :
    val_main_call3_cst (F := F) i = FloatOps.ofBits .f32 0x00000000#32 := rfl

-- @relu's %0 = stablehlo.broadcast_in_dim %cst, dims = [] : (tensor<f32>) -> tensor<8192xf32>, in %27 = func.call @relu(…) (record main_call3)
def val_main_call3_v0 : (⟨S8192, .f32⟩ : BufTy).Contents (Elt F) :=
  broadcastInDim S8192 ![] bcast_S_S8192 (val_main_call3_cst (F := F))
abbrev idx_main_call3_v0 (i : S8192.Idx) : S_.Idx := fun a => a.elim0
theorem val_main_call3_v0_apply (i : S8192.Idx) :
    val_main_call3_v0 (F := F) i = val_main_call3_cst (F := F) (idx_main_call3_v0 i) := by
  unfold val_main_call3_v0
  generalize val_main_call3_cst (F := F) = y
  exact broadcastInDim_apply _ bcast_S_S8192 y i (idx_main_call3_v0 i) (fun a => a.elim0)

-- %27 = func.call @relu(…) (record main_call3) result 0: @relu's %1 = stablehlo.maximum %arg0, %0 : tensor<8192xf32>
def val_main_v27 (x0 x1 : (⟨S8192x512, .f32⟩ : BufTy).Contents (Elt F)) (x2 : (⟨S8192, .i32⟩ : BufTy).Contents (Elt F)) : (⟨S8192, .f32⟩ : BufTy).Contents (Elt F) :=
  maximumf (val_main_v26 (F := F) x0 x1 x2) (val_main_call3_v0 (F := F))
theorem val_main_v27_apply (x0 x1 : (⟨S8192x512, .f32⟩ : BufTy).Contents (Elt F)) (x2 : (⟨S8192, .i32⟩ : BufTy).Contents (Elt F)) (i : S8192.Idx) :
    val_main_v27 (F := F) x0 x1 x2 i = FloatOps.maximumf (val_main_v26 (F := F) x0 x1 x2 i) (val_main_call3_v0 (F := F) i) := rfl

-- %cst_7 = stablehlo.constant dense<0.000000e+00> : tensor<f32>
def val_main_cst_7 : (⟨S_, .f32⟩ : BufTy).Contents (Elt F) :=
  constant S_ .f32 0x00000000#32
theorem val_main_cst_7_apply (i : S_.Idx) :
    val_main_cst_7 (F := F) i = FloatOps.ofBits .f32 0x00000000#32 := rfl

-- %28 = stablehlo.reduce(%27 init: %cst_7) applies stablehlo.add across dimensions = [0] : (tensor<8192xf32>, tensor<f32>) -> tensor<f32> {
def val_main_v28 (x0 x1 : (⟨S8192x512, .f32⟩ : BufTy).Contents (Elt F)) (x2 : (⟨S8192, .i32⟩ : BufTy).Contents (Elt F)) : (⟨S_, .f32⟩ : BufTy).Contents (Elt F) :=
  Host.reduceAdd (val_main_v27 (F := F) x0 x1 x2) (val_main_cst_7 (F := F)) reducesTo_S8192_S_d0 h_S_
/-- Stated at `F := Ideal`, where the host's float sum is this sum; at a bit-exact instance it is an opaque function of its operand. -/
theorem val_main_v28_apply (x0 x1 : (⟨S8192x512, .f32⟩ : BufTy).Contents (Elt Ideal)) (x2 : (⟨S8192, .i32⟩ : BufTy).Contents (Elt Ideal)) (i : S_.Idx) :
    val_main_v28 (F := Ideal) x0 x1 x2 i = (val_main_cst_7 (F := Ideal)) (Shape.Idx.first h_S_) + ∑ j : S8192.Idx, (val_main_v27 (F := Ideal) x0 x1 x2) j := by
  unfold val_main_v28
  generalize val_main_v27 (F := Ideal) x0 x1 x2 = y0
  simp only [Host.reduceAdd, Ideal.hostReduceAdd_def]
  exact Ideal.hostReduceAdd_total reducesTo_S8192_S_d0 (fun b => b.elim0) y0 _ i

-- %cst_8 = stablehlo.constant dense<8.192000e+03> : tensor<f32>
def val_main_cst_8 : (⟨S_, .f32⟩ : BufTy).Contents (Elt F) :=
  constant S_ .f32 0x46000000#32
theorem val_main_cst_8_apply (i : S_.Idx) :
    val_main_cst_8 (F := F) i = FloatOps.ofBits .f32 0x46000000#32 := rfl

-- %29 = stablehlo.divide %28, %cst_8 : tensor<f32>
def val_main_v29 (x0 x1 : (⟨S8192x512, .f32⟩ : BufTy).Contents (Elt F)) (x2 : (⟨S8192, .i32⟩ : BufTy).Contents (Elt F)) : (⟨S_, .f32⟩ : BufTy).Contents (Elt F) :=
  Host.divf (val_main_v28 (F := F) x0 x1 x2) (val_main_cst_8 (F := F))
theorem val_main_v29_apply (x0 x1 : (⟨S8192x512, .f32⟩ : BufTy).Contents (Elt F)) (x2 : (⟨S8192, .i32⟩ : BufTy).Contents (Elt F)) (i : S_.Idx) :
    val_main_v29 (F := F) x0 x1 x2 i = FloatOps.hostDivf (val_main_v28 (F := F) x0 x1 x2 i) (val_main_cst_8 (F := F) i) := rfl

end Cert.ReferenceIdeal.Stages

end
-- ==== Proof.LibHostRowFold.lean ====
/-
  The host's reductions along the second axis of a matrix, each read at one row, on the extended reals.

  A `stablehlo.reduce` of an [a, b] array across dimension 1 with a maximum body holds at row p the fold
  of `max` from the initial value over the entries (p, k), k < b; with an add body (the host's float sum)
  it holds the initial value plus the finite sum of the entries (p, k). These are the host-side companions
  of the vector unit's row maximum and row sum. Any extents; depends on no program.
-/
import Idealize.ShloMosaic.Lib.ValueIdx
import Idealize.ShloMosaic.PureOps.Ideal.Laws

noncomputable section

open scoped BigOperators

namespace Cert.HostRowFold

open Idealize.ShloMosaic Idealize.ShloMosaic.ValueIdx

/-- Dropping axis 1 of a rank-2 shape leaves a rank-1 shape, so the host's shape fact is also the vector
    unit's (which asks in addition that a result axis is left). -/
theorem reduces_of_to {a b : ℕ} (h' : (⟨2, ![a, b]⟩ : Shape).ReducesTo [1] ⟨1, ![a]⟩) :
    (⟨2, ![a, b]⟩ : Shape).Reduces [1] ⟨1, ![a]⟩ :=
  let ⟨e, hb⟩ := h'; ⟨e, Nat.one_pos, hb⟩

/-- The host's maximum along row `p`: the fold of `max` from the initial value over the row's entries. -/
theorem row_max {a b : ℕ} (x : FVec Ideal ⟨2, ![a, b]⟩ .f32) (init : FVec Ideal ⟨0, ![]⟩ .f32)
    (h' : (⟨2, ![a, b]⟩ : Shape).ReducesTo [1] ⟨1, ![a]⟩) (hu : 0 < (⟨0, ![]⟩ : Shape).numel) (p : Fin a) :
    Host.reduce FloatOps.maximumf x init h' hu (ix1 p)
      = (Finset.univ : Finset (Fin b)).fold max (init ix0) fun k => x (ix2 p k) := by
  rw [Host.reduce_eq_fold_single FloatOps.maximumf x init h' (reduces_of_to h') hu, eq_ix0 (Shape.Idx.first hu)]
  exact congrArg (fun f => Finset.fold max (init ix0) f (Finset.univ : Finset (Fin b)))
    (funext fun k => congrArg x (funext fun c => Fin.ext (by
      match c with
      | ⟨0, _⟩ => rfl
      | ⟨1, _⟩ => rfl)))

/-- The host's float sum along row `p`: the initial value plus the finite sum of the row's entries. -/
theorem row_sum {a b : ℕ} (x : FVec Ideal ⟨2, ![a, b]⟩ .f32) (init : FVec Ideal ⟨0, ![]⟩ .f32)
    (h' : (⟨2, ![a, b]⟩ : Shape).ReducesTo [1] ⟨1, ![a]⟩) (hu : 0 < (⟨0, ![]⟩ : Shape).numel) (p : Fin a) :
    Host.reduceAdd x init h' hu (ix1 p) = init ix0 + ∑ k : Fin b, x (ix2 p k) := by
  simp only [Host.reduceAdd, Ideal.hostReduceAdd_def]
  rw [Ideal.hostReduceAdd_single h' (reduces_of_to h'), eq_ix0 (Shape.Idx.first hu)]
  refine congrArg (init ix0 + ·) (Finset.sum_congr rfl fun k _ => ?_)
  exact congrArg x (funext fun c => Fin.ext (by
    match c with
    | ⟨0, _⟩ => rfl
    | ⟨1, _⟩ => rfl))

/-- From a zero initial value the host's float sum along row `p` is the finite sum of the row's entries. -/
theorem row_sum_zero {a b : ℕ} (x : FVec Ideal ⟨2, ![a, b]⟩ .f32)
    (h' : (⟨2, ![a, b]⟩ : Shape).ReducesTo [1] ⟨1, ![a]⟩) (hu : 0 < (⟨0, ![]⟩ : Shape).numel) (p : Fin a) :
    Host.reduceAdd x (constant (F := Ideal) ⟨0, ![]⟩ .f32 0x00000000#32) h' hu (ix1 p) = ∑ k : Fin b, x (ix2 p k) :=
  (row_sum x _ h' hu p).trans (by rw [constant_apply, Ideal.ofBits_zero_f32, zero_add])

end Cert.HostRowFold

end
-- ==== Proof.RI.Ref.lean ====
/-
  The reference's value. Its hardest-positive and hardest-negative vectors are, row by row, the maximum over
  the positive columns and the minimum over the negative columns of the pairwise distance
  √(max ε (sqv n + sqv j − 2·dotv n j))  of the re-weighted features  x n k = a n k · b n k ; the result is the
  last eight operations (subtract, add ½, clip below at 0, sum, divide by 8192) applied to these two vectors.

  Each entry of the 8192 × 8192 intermediate arrays is read at an index only: the masked distance at (n, j) is
  a conditional on the labels of rows n and j, a row's maximum is the fold of max from −∞ over the columns,
  which on the extended reals is the finite supremum, and a row's minimum likewise from +∞ the finite infimum.
-/
import proofs.«126033_j28338194219418_2_alg».proof.Proof.RI.Stages
import proofs.«126033_j28338194219418_2_alg».proof.Proof.Spec
import proofs.«126033_j28338194219418_2_alg».proof.Proof.LibHostRowFold
import Idealize.ShloMosaic.Lib.Affine

noncomputable section

namespace Cert.ReferenceIdeal.HandVal

open Cert.ReferenceIdeal Cert.ReferenceIdeal.Gen Cert.ReferenceIdeal.Stages
open Idealize.ShloMosaic Idealize.ShloMosaic.TcCoe Idealize.SL.Sem Idealize.ShloMosaic.StableHlo Idealize.ShloMosaic.ValueIdx

/-- The re-weighted features and the labels on plain index types. -/
def x (a b : FVec Ideal S8192x512 .f32) : Fin 8192 → Fin 512 → EReal := fun n k => a (ix2 n k) * b (ix2 n k)
def tg (t : IVec S8192 32) : Fin 8192 → BitVec 32 := fun n => t (ix1 n)

/-- The last eight operations, on the two mined vectors: v21 − v23 + ½, clipped below at 0, summed from 0,
    divided by 8192. -/
def tail {F : FTy → Type} [FloatOps F] (v21 v23 : FVec F S8192 .f32) : FVec F S_ .f32 :=
  Host.divf (Host.reduceAdd (maximumf (addf (subf v21 v23) (broadcastInDim S8192 ![] bcast_S_S8192 (constant S_ .f32 0x3F000000#32))) (broadcastInDim S8192 ![] bcast_S_S8192 (constant S_ .f32 0x00000000#32))) (constant S_ .f32 0x00000000#32) reducesTo_S8192_S_d0 h_S_) (constant S_ .f32 0x46000000#32)

/-! ### General facts -/

/-- The host's minimum along row `p`: the fold of `min` from the initial value over the row's entries. -/
theorem row_min {m n : ℕ} (v : FVec Ideal ⟨2, ![m, n]⟩ .f32) (init : FVec Ideal ⟨0, ![]⟩ .f32)
    (h' : (⟨2, ![m, n]⟩ : Shape).ReducesTo [1] ⟨1, ![m]⟩) (hu : 0 < (⟨0, ![]⟩ : Shape).numel) (p : Fin m) :
    Host.reduce FloatOps.minimumf v init h' hu (ix1 p)
      = (Finset.univ : Finset (Fin n)).fold min (init ix0) fun k => v (ix2 p k) := by
  rw [Host.reduce_eq_fold_single FloatOps.minimumf v init h' (Cert.HostRowFold.reduces_of_to h') hu, eq_ix0 (Shape.Idx.first hu)]
  exact congrArg (fun f => Finset.fold min (init ix0) f (Finset.univ : Finset (Fin n)))
    (funext fun k => congrArg v (funext fun c => Fin.ext (by
      match c with
      | ⟨0, _⟩ => rfl
      | ⟨1, _⟩ => rfl)))

/-- On the extended reals the fold of max from −∞ is the finite supremum, of min from +∞ the finite infimum. -/
theorem fold_max_bot {ι : Type} (s : Finset ι) (f : ι → EReal) : s.fold max ⊥ f = s.sup f := rfl
theorem fold_min_top {ι : Type} (s : Finset ι) (f : ι → EReal) : s.fold min ⊤ f = s.inf f := rfl

/-- A selection on an equality test of two words is the conditional on their equality. -/
theorem select_cmpi_eq {α : Type} {w : ℕ} (u v : BitVec w) (p q : α) :
    Scalar.select (IntOp.cmpi .eq u v) p q = if u = v then p else q := by
  unfold Scalar.select
  exact if_congr IntOp.cmpi_eq rfl rfl

theorem neg_inf : Ideal.ofBits .f32 0xFF800000#32 = (⊥ : EReal) := by simp [Ideal.ofBits, Ideal.ieee]
theorem pos_inf : Ideal.ofBits .f32 0x7F800000#32 = (⊤ : EReal) := by simp [Ideal.ofBits, Ideal.ieee]

/-! ### The layout operations' indices at (n, j) -/

theorem idx_v2 (n : Fin 8192) (k : Fin 512) : idx_main_v2 (ix1 n) k = ix2 n k := by
  funext c; match c with | ⟨0, _⟩ => rfl | ⟨1, _⟩ => rfl
theorem idx_sq_row (n j : Fin 8192) : idx_main_v3 (idx_main_v5 (ix2 n j)) = ix1 n := by
  funext c; match c with | ⟨0, _⟩ => rfl
theorem idx_sq_col (n j : Fin 8192) : idx_main_v4 (idx_main_v6 (ix2 n j)) = ix1 j := by
  funext c; match c with | ⟨0, _⟩ => rfl
theorem idx_l (n j : Fin 8192) (k : Fin 512) : lidx_main_v9 (ix2 n j) k = ix2 n k := by
  funext c; match c with | ⟨0, _⟩ => rfl | ⟨1, _⟩ => rfl
theorem idx_r (n j : Fin 8192) (k : Fin 512) : idx_main_v8 (ridx_main_v9 (ix2 n j) k) = ix2 j k := by
  funext c; match c with | ⟨0, _⟩ => rfl | ⟨1, _⟩ => rfl
theorem idx_t_row (n j : Fin 8192) : idx_main_v15 (idx_main_v17 (ix2 n j)) = ix1 n := by
  funext c; match c with | ⟨0, _⟩ => rfl
theorem idx_t_col (n j : Fin 8192) : idx_main_v16 (idx_main_v18 (ix2 n j)) = ix1 j := by
  funext c; match c with | ⟨0, _⟩ => rfl

/-! ### The stages at an index -/

variable (a b : FVec Ideal S8192x512 .f32) (t : IVec S8192 32)

/-- The rows' sums of squares. -/
theorem sq_apply (n : Fin 8192) : val_main_v2 (F := Ideal) a b (ix1 n) = Cert.Spec.sqv (x a b) n := by
  rw [val_main_v2_apply, val_main_cst_apply, Ideal.ofBits_def, Ideal.ofBits_zero_f32]
  unfold Cert.Spec.sqv
  refine congrArg (0 + ·) (Finset.sum_congr rfl fun k _ => ?_)
  rw [val_main_v1_apply, val_main_v0_apply, idx_v2]
  rfl

/-- The pairwise inner products. -/
theorem dot_apply (n j : Fin 8192) : val_main_v9 (F := Ideal) a b (ix2 n j) = Cert.Spec.dotv (x a b) n j := by
  rw [val_main_v9_apply]
  unfold Cert.Spec.dotv
  refine Finset.sum_congr rfl fun k _ => ?_
  rw [val_main_v8_apply, val_main_v0_apply, val_main_v0_apply, idx_l, idx_r]
  rfl

/-- The pairwise distances. -/
theorem dist_apply (n j : Fin 8192) : val_main_v14 (F := Ideal) a b (ix2 n j) = Cert.Spec.distv (x a b) n j := by
  rw [val_main_v14_apply, val_main_v13_apply, val_main_call0_v1_apply, val_main_call0_v0_apply, val_main_cst_1_apply,
    val_main_v12_apply, val_main_v7_apply, val_main_v5_apply, val_main_v3_apply, val_main_v6_apply, val_main_v4_apply,
    val_main_v11_apply, val_main_v10_apply, val_main_cst_0_apply, idx_sq_row, idx_sq_col, sq_apply, sq_apply, dot_apply]
  rfl

/-- The labels' comparison at (n, j). -/
theorem mask_apply (n j : Fin 8192) (p q : EReal) :
    Scalar.select (val_main_v19 (F := Ideal) t (ix2 n j)) p q = if tg t n = tg t j then p else q := by
  rw [val_main_v19_apply, val_main_v17_apply, val_main_v15_apply, val_main_v18_apply, val_main_v16_apply,
    idx_t_row, idx_t_col, select_cmpi_eq]
  rfl

/-- The reference's hardest positive of row n. -/
theorem v21_row (n : Fin 8192) : val_main_v21 (F := Ideal) a b t (ix1 n) = Cert.Spec.apR (x a b) (tg t) n := by
  unfold val_main_v21
  rw [Cert.HostRowFold.row_max, val_main_cst_3_apply, Ideal.ofBits_def, neg_inf, fold_max_bot]
  unfold Cert.Spec.apR
  refine congrArg (Finset.sup Finset.univ) (funext fun j => ?_)
  rw [val_main_v20_apply, mask_apply, dist_apply, val_main_call1_v1_apply, val_main_call1_v0_apply, val_main_cst_2_apply,
    Ideal.ofBits_def, neg_inf]

/-- The reference's hardest negative of row n. -/
theorem v23_row (n : Fin 8192) : val_main_v23 (F := Ideal) a b t (ix1 n) = Cert.Spec.anR (x a b) (tg t) n := by
  unfold val_main_v23
  rw [row_min, val_main_cst_5_apply, Ideal.ofBits_def, pos_inf, fold_min_top]
  unfold Cert.Spec.anR
  refine congrArg (Finset.inf Finset.univ) (funext fun j => ?_)
  rw [val_main_v22_apply, mask_apply, dist_apply, val_main_call2_v1_apply, val_main_call2_v0_apply, val_main_cst_4_apply,
    Ideal.ofBits_def, pos_inf]

theorem v21_apply (i : S8192.Idx) : val_main_v21 (F := Ideal) a b t i = Cert.Spec.apR (x a b) (tg t) (i 0) := by
  have e : i = ix1 (i 0) := eq_ix1 i
  exact (congrArg (val_main_v21 (F := Ideal) a b t) e).trans (v21_row a b t (i 0))

theorem v23_apply (i : S8192.Idx) : val_main_v23 (F := Ideal) a b t i = Cert.Spec.anR (x a b) (tg t) (i 0) := by
  have e : i = ix1 (i 0) := eq_ix1 i
  exact (congrArg (val_main_v23 (F := Ideal) a b t) e).trans (v23_row a b t (i 0))

/-- The result's stage is the tail of the two mined vectors. -/
theorem ref_stage : val_main_v29 (F := Ideal) a b t
    = tail (F := Ideal) (fun i => Cert.Spec.apR (x a b) (tg t) (i 0)) (fun i => Cert.Spec.anR (x a b) (tg t) (i 0)) := by
  have e21 : val_main_v21 (F := Ideal) a b t = fun i => Cert.Spec.apR (x a b) (tg t) (i 0) := funext (v21_apply a b t)
  have e23 : val_main_v23 (F := Ideal) a b t = fun i => Cert.Spec.anR (x a b) (tg t) (i 0) := funext (v23_apply a b t)
  rw [← e21, ← e23]
  rfl

end Cert.ReferenceIdeal.HandVal

end
-- ==== Proof.RI.RunVal.lean ====
/-
  The reference's run and its value together: every weakly fair execution of the reference's @main terminates
  with its result buffer at the last eight operations applied to the rows' hardest positives and hardest
  negatives (the finite supremum over the positive columns, the finite infimum over the negative columns, of
  the pairwise distance of the re-weighted features), and with the three arguments unchanged.

  The buffer's contents after the 48 operations are the operations' composed term of the launch contents at the
  three arguments: each operation's result at its own buffer is its function's value of its operands' contents,
  and at any other buffer what was there.
-/
import proofs.«126033_j28338194219418_2_alg».proof.Proof.RI.Ops
import proofs.«126033_j28338194219418_2_alg».proof.Proof.RI.Ref

noncomputable section

namespace Cert.ReferenceIdeal.HandVal

open Cert.ReferenceIdeal Cert.ReferenceIdeal.Gen Cert.ReferenceIdeal.Stages
open Idealize.ShloMosaic Idealize.ShloMosaic.TcCoe Idealize.SL.Sem Idealize.ShloMosaic.StableHlo

variable {F : FTy → Type} [FloatOps F]

set_option maxRecDepth 8192 in
set_option maxHeartbeats 1000000 in
/-- The result buffer after the operations: the composed term of the three arguments' contents. -/
theorem after_v29 (V : Valuation τ sig (Elt F)) :
    after ops V (main_v29 : DevRef τ sig)
      = val_main_v29 (F := F) (V (main_arg0 : DevRef τ sig)) (V (main_arg1 : DevRef τ sig)) (V (main_arg2 : DevRef τ sig)) := by
  after_results_simp <;> rfl

set_option maxRecDepth 8192 in
theorem after_arg0 (V : Valuation τ sig (Elt F)) : after ops V (main_arg0 : DevRef τ sig) = V (main_arg0 : DevRef τ sig) := by
  after_results_simp <;> rfl
set_option maxRecDepth 8192 in
theorem after_arg1 (V : Valuation τ sig (Elt F)) : after ops V (main_arg1 : DevRef τ sig) = V (main_arg1 : DevRef τ sig) := by
  after_results_simp <;> rfl
set_option maxRecDepth 8192 in
theorem after_arg2 (V : Valuation τ sig (Elt F)) : after ops V (main_arg2 : DevRef τ sig) = V (main_arg2 : DevRef τ sig) := by
  after_results_simp <;> rfl

/-- Every weakly fair execution of the reference terminates with its result at the tail of the two mined vectors
    of the arguments' launch contents, the arguments unchanged. -/
theorem run' (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v29)
        = tail (F := Ideal) (fun i => Cert.Spec.apR (x (m ((c.tc : Thread nD τ).loc main_arg0)) (m ((c.tc : Thread nD τ).loc main_arg1))) (tg (m ((c.tc : Thread nD τ).loc main_arg2))) (i 0))
            (fun i => Cert.Spec.anR (x (m ((c.tc : Thread nD τ).loc main_arg0)) (m ((c.tc : Thread nD τ).loc main_arg1))) (tg (m ((c.tc : Thread nD τ).loc main_arg2))) (i 0))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
      ⟨(h c main_v29).trans ((after_v29 (F := Ideal) (launchContents m c)).trans (ref_stage (m ((c.tc : Thread nD τ).loc main_arg0)) (m ((c.tc : Thread nD τ).loc main_arg1)) (m ((c.tc : Thread nD τ).loc main_arg2)))),
       (h c main_arg0).trans (after_arg0 (launchContents m c)),
       (h c main_arg1).trans (after_arg1 (launchContents m c)),
       (h c main_arg2).trans (after_arg2 (launchContents m c))⟩)
    (run_main (F := Ideal) m ρ)

end Cert.ReferenceIdeal.HandVal

end
-- ==== Proof.lean ====
/-
  The certificate of the hard-mining triplet-loss kernel against its reference.

  Both programs compute, from the re-weighted features x = inputs · A and the labels, the mean over the 8192 rows of
  max 0 (ap − an + 1/2), where ap is the row's largest distance to a row of its own label and an its smallest distance
  to a row of another label, the distance of rows n and j being √(max ε (‖x_n‖² + ‖x_j‖² − 2 x_n·x_j)).

  The reference computes all distances and then the row maxima and minima. The kernel's first call forms x and the
  rows' squared norms; its second call tiles the pairs 1024 × 1024, mines on ‖x_j‖² − 2 x_n·x_j with the maxima and
  minima carried from tile to tile, and adds ‖x_n‖², clips and takes the root only at the last tile. Over the
  extended reals the two agree because u ↦ √(max ε (‖x_n‖² + u)) is monotone: it commutes with the maximum over the
  positives (which always include the row itself) and with the minimum over the negatives (it fixes +∞), and the
  tiles' folds are the folds over all columns. No finiteness of the inputs is used.

  The frames: each call's body is run at every grid point against proof data naming what it leaves (K/, KI/), the
  calls and the host operations are chained from the launch memory to the return, and the array the second call reads
  through two windows is split into two half shares on entry and rejoined on exit. The idealized kernel differs from
  the printed one by one removed round trip through the narrow float format (`preserves`).
-/
import proofs.«126033_j28338194219418_2_alg».proof.Defs
import proofs.«126033_j28338194219418_2_alg».proof.Proof.Gen.Kernel
import proofs.«126033_j28338194219418_2_alg».proof.Proof.Gen.KernelIdeal
import proofs.«126033_j28338194219418_2_alg».proof.Proof.Gen.ReferenceIdeal
import proofs.«126033_j28338194219418_2_alg».proof.Proof.Gen.Pre_finite_inputs
import proofs.«126033_j28338194219418_2_alg».proof.Proof.K.Run
import proofs.«126033_j28338194219418_2_alg».proof.Proof.K.Body1
import proofs.«126033_j28338194219418_2_alg».proof.Proof.KI.Run
import proofs.«126033_j28338194219418_2_alg».proof.Proof.KI.Body1
import proofs.«126033_j28338194219418_2_alg».proof.Proof.KI.KVal
import proofs.«126033_j28338194219418_2_alg».proof.Proof.Law
import proofs.«126033_j28338194219418_2_alg».proof.Proof.RI.RunVal

set_option maxRecDepth 16384

noncomputable section

namespace Cert.Proof

open Idealize.ShloMosaic Idealize.ShloMosaic.TcCoe Idealize.SL.Sem

/-- The printed kernel runs and leaves its arguments unchanged. -/
theorem frame_k : Cert.frame_Kernel := fun m ρ _ =>
  (θ_run (Cert.Kernel.defs (F := Bits)) _ _).mono (fun r h c =>
      ⟨(h c _ (Cert.Kernel.Hand.mem_uc Cert.Kernel.main_arg0 (by decide))).trans (Cert.Kernel.Gen.V6_main_arg0 m _ c),
       (h c _ (Cert.Kernel.Hand.mem_uc Cert.Kernel.main_arg1 (by decide))).trans (Cert.Kernel.Gen.V6_main_arg1 m _ c),
       (h c _ (Cert.Kernel.Hand.mem_uc Cert.Kernel.main_arg2 (by decide))).trans (Cert.Kernel.Gen.V6_main_arg2 m _ c)⟩)
    (Cert.Kernel.Hand.run (F := Bits) m ρ (fun V c => Cert.Kernel.Hand.body_obligation0 V c) (fun V c => Cert.Kernel.Hand.body_obligation1 V c)
      (fun V c => Cert.Kernel.Hand.phi1_in V c) (fun V c => Cert.Kernel.Hand.phi1_out V c))

/-- The idealized kernel's run, every unscoped buffer named. -/
theorem run_ki (m : (ℓ : Loc Cert.KernelIdeal.nD Cert.KernelIdeal.τ Cert.KernelIdeal.sig) → Buf (Elt Ideal) ℓ) (ρ : Dev Cert.KernelIdeal.nD → PrngReg) :
    θ_run (Cert.KernelIdeal.defs (F := Ideal)) (onTc (τ := Cert.KernelIdeal.τ) (Cert.KernelIdeal.main (F := Ideal))) ⟨m, fun _ => 0, ρ⟩
      (fun r => ∀ c : Dev Cert.KernelIdeal.nD, ∀ b ∈ Pipeline.ucRefs Cert.KernelIdeal.τ Cert.KernelIdeal.sig,
        r.2.mem (((c : Thread Cert.KernelIdeal.nD Cert.KernelIdeal.τ)).1, b) = Cert.KernelIdeal.Gen.V6 m (Cert.KernelIdeal.Hand.outs m) c b) :=
  Cert.KernelIdeal.Hand.run (F := Ideal) m ρ (fun V c => Cert.KernelIdeal.Hand.body_obligation0 V c) (fun V c => Cert.KernelIdeal.Hand.body_obligation1 V c)
    (fun V c => Cert.KernelIdeal.Hand.phi1_in V c) (fun V c => Cert.KernelIdeal.Hand.phi1_out V c)

/-- The idealized kernel runs and leaves its arguments unchanged. -/
theorem frame_ki : Cert.frame_KernelIdeal := fun m ρ _ =>
  (θ_run (Cert.KernelIdeal.defs (F := Ideal)) _ _).mono (fun r h c =>
      ⟨(h c _ (Cert.KernelIdeal.Hand.mem_uc Cert.KernelIdeal.main_arg0 (by decide))).trans (Cert.KernelIdeal.Gen.V6_main_arg0 m _ c),
       (h c _ (Cert.KernelIdeal.Hand.mem_uc Cert.KernelIdeal.main_arg1 (by decide))).trans (Cert.KernelIdeal.Gen.V6_main_arg1 m _ c),
       (h c _ (Cert.KernelIdeal.Hand.mem_uc Cert.KernelIdeal.main_arg2 (by decide))).trans (Cert.KernelIdeal.Gen.V6_main_arg2 m _ c)⟩)
    (run_ki m ρ)

/-- The one rewrite of the idealization: a product narrowed to the 16-bit format and widened back is, on the extended
    reals, the product. -/
theorem preserves : Cert.preserves_Kernel_KernelIdeal :=
  IdealRules.truncf_extf.statement Cert.KernelIdeal.S1024x512 .f32 .bf16

/-- The reference runs and leaves its arguments unchanged. -/
theorem frame_ri : Cert.frame_ReferenceIdeal := fun m ρ _ =>
  (θ_run (Cert.ReferenceIdeal.defs (F := Ideal)) _ _).mono (fun _ h c => (h c).2) (Cert.ReferenceIdeal.HandVal.run' m ρ)

/-- The two programs end with the same operations on their two mined vectors. -/
theorem tails_agree (v w : FVec Ideal Cert.KernelIdeal.S8192 .f32) :
    Cert.ReferenceIdeal.HandVal.tail (F := Ideal) v w = Cert.KernelIdeal.Hand.tailK (F := Ideal) v w := rfl

/-- The reference's result of the kernel's arguments is the kernel's result: the features, the labels and the tail are the
    same, and the mined vectors agree row by row (`Spec.ap_eq`, `Spec.an_eq`). -/
theorem ref_eq_kernel (m : (ℓ : Loc Cert.KernelIdeal.nD Cert.KernelIdeal.τ Cert.KernelIdeal.sig) → Buf (Elt Ideal) ℓ) (c : Dev Cert.KernelIdeal.nD) :
    Cert.ReferenceIdeal.HandVal.tail (F := Ideal)
        (fun i => Cert.Spec.apR (Cert.ReferenceIdeal.HandVal.x (m ((c.tc : Thread Cert.KernelIdeal.nD Cert.KernelIdeal.τ).loc Cert.KernelIdeal.main_arg0)) (m ((c.tc : Thread Cert.KernelIdeal.nD Cert.KernelIdeal.τ).loc Cert.KernelIdeal.main_arg1)))
          (Cert.ReferenceIdeal.HandVal.tg (m ((c.tc : Thread Cert.KernelIdeal.nD Cert.KernelIdeal.τ).loc Cert.KernelIdeal.main_arg2))) (i 0))
        (fun i => Cert.Spec.anR (Cert.ReferenceIdeal.HandVal.x (m ((c.tc : Thread Cert.KernelIdeal.nD Cert.KernelIdeal.τ).loc Cert.KernelIdeal.main_arg0)) (m ((c.tc : Thread Cert.KernelIdeal.nD Cert.KernelIdeal.τ).loc Cert.KernelIdeal.main_arg1)))
          (Cert.ReferenceIdeal.HandVal.tg (m ((c.tc : Thread Cert.KernelIdeal.nD Cert.KernelIdeal.τ).loc Cert.KernelIdeal.main_arg2))) (i 0))
      = Cert.KernelIdeal.Hand.tailK (F := Ideal) (fun i => Cert.Spec.apK (Cert.KernelIdeal.HandVal.xm m c) (Cert.KernelIdeal.HandVal.tgm m c) (i 0))
          (fun i => Cert.Spec.anK (Cert.KernelIdeal.HandVal.xm m c) (Cert.KernelIdeal.HandVal.tgm m c) (i 0)) := by
  have hx : Cert.ReferenceIdeal.HandVal.x (m ((c.tc : Thread Cert.KernelIdeal.nD Cert.KernelIdeal.τ).loc Cert.KernelIdeal.main_arg0)) (m ((c.tc : Thread Cert.KernelIdeal.nD Cert.KernelIdeal.τ).loc Cert.KernelIdeal.main_arg1))
      = Cert.KernelIdeal.HandVal.xm m c := rfl
  have ht : Cert.ReferenceIdeal.HandVal.tg (m ((c.tc : Thread Cert.KernelIdeal.nD Cert.KernelIdeal.τ).loc Cert.KernelIdeal.main_arg2)) = Cert.KernelIdeal.HandVal.tgm m c := rfl
  rw [hx, ht, tails_agree]
  have hp : (fun i : Cert.KernelIdeal.S8192.Idx => Cert.Spec.apR (Cert.KernelIdeal.HandVal.xm m c) (Cert.KernelIdeal.HandVal.tgm m c) (i 0))
      = fun i => Cert.Spec.apK (Cert.KernelIdeal.HandVal.xm m c) (Cert.KernelIdeal.HandVal.tgm m c) (i 0) :=
    funext fun i => (Cert.Spec.ap_eq _ _ _).symm
  have hn : (fun i : Cert.KernelIdeal.S8192.Idx => Cert.Spec.anR (Cert.KernelIdeal.HandVal.xm m c) (Cert.KernelIdeal.HandVal.tgm m c) (i 0))
      = fun i => Cert.Spec.anK (Cert.KernelIdeal.HandVal.xm m c) (Cert.KernelIdeal.HandVal.tgm m c) (i 0) :=
    funext fun i => (Cert.Spec.an_eq _ _ _).symm
  rw [hp, hn]

/-- From memories agreeing on the arguments both idealized programs end with the loss of the rows' hardest positives
    and negatives. -/
theorem algebraic : Cert.algebraic_KernelIdeal_ReferenceIdeal := by
  intro m ρ m' ρ' _ hagree
  refine ⟨fun c => Cert.KernelIdeal.Hand.tailK (F := Ideal) (fun i => Cert.Spec.apK (Cert.KernelIdeal.HandVal.xm m c) (Cert.KernelIdeal.HandVal.tgm m c) (i 0))
      (fun i => Cert.Spec.anK (Cert.KernelIdeal.HandVal.xm m c) (Cert.KernelIdeal.HandVal.tgm m c) (i 0)), ?_, ?_⟩
  · exact (θ_run (Cert.KernelIdeal.defs (F := Ideal)) _ _).mono (fun r h c =>
      ⟨(h c _ (Cert.KernelIdeal.Hand.mem_uc Cert.KernelIdeal.main_v12 (by decide))).trans (Cert.KernelIdeal.HandVal.kernel_value m c),
       (h c _ (Cert.KernelIdeal.Hand.mem_uc Cert.KernelIdeal.main_arg0 (by decide))).trans (Cert.KernelIdeal.Gen.V6_main_arg0 m _ c),
       (h c _ (Cert.KernelIdeal.Hand.mem_uc Cert.KernelIdeal.main_arg1 (by decide))).trans (Cert.KernelIdeal.Gen.V6_main_arg1 m _ c),
       (h c _ (Cert.KernelIdeal.Hand.mem_uc Cert.KernelIdeal.main_arg2 (by decide))).trans (Cert.KernelIdeal.Gen.V6_main_arg2 m _ c)⟩)
      (run_ki m ρ)
  · refine (θ_run (Cert.ReferenceIdeal.defs (F := Ideal)) _ _).mono (fun r h c => ⟨(h c).1.trans ?_, (h c).2⟩)
      (Cert.ReferenceIdeal.HandVal.run' m' ρ')
    rw [(hagree c).1, (hagree c).2.1, (hagree c).2.2]
    exact ref_eq_kernel m c

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
